-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13_1)) (v1 : (c : Dev Cert.KernelIdeal.nD) → Buf (Elt Ideal) ((c.tc : Thread Cert.KernelIdeal.nD Cert.KernelIdeal.τ).loc Cert.KernelIdeal.main_v13_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_1) = v0 c
          ∧ r.2.mem ((c.tc : Thread Cert.KernelIdeal.nD Cert.KernelIdeal.τ).loc Cert.KernelIdeal.main_v13_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S3072 .f32) (main_arg5 : FVec F S1024x1024 .f32) (main_arg6 : FVec F S1024 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S2x2048x1024 .f32) (main_arg1 : FVec F S2x2048x1024 .f32) (main_arg2 : FVec F S2x2048x1024 .f32) (main_arg3 : FVec F S3072x1024 .f32) (main_arg4 : FVec F S3072 .f32) (main_arg5 : FVec F S1024x1024 .f32) (main_arg6 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S3072x1024 .f32 := Host.absf main_arg3
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg4 main_arg5 main_arg6 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S16x64x1024 : Shape := ⟨3, ![16, 64, 1024]⟩
abbrev S16x1x64 : Shape := ⟨3, ![16, 1, 64]⟩
abbrev S1x1024 : Shape := ⟨2, ![1, 1024]⟩
abbrev S1024x16x64 : Shape := ⟨3, ![1024, 16, 64]⟩
abbrev S16x1024x64 : Shape := ⟨3, ![16, 1024, 64]⟩
abbrev S2x16x2048x2048 : Shape := ⟨4, ![2, 16, 2048, 2048]⟩
abbrev S1x2048x1024 : Shape := ⟨3, ![1, 2048, 1024]⟩
abbrev S1x64x1024 : Shape := ⟨3, ![1, 64, 1024]⟩
abbrev S1x1x64 : Shape := ⟨3, ![1, 1, 64]⟩
abbrev S1x1024x64 : Shape := ⟨3, ![1, 1024, 64]⟩
abbrev S1x1x256x2048 : Shape := ⟨4, ![1, 1, 256, 2048]⟩
abbrev S1x256x1024 : Shape := ⟨3, ![1, 256, 1024]⟩
abbrev S16x2048x64 : Shape := ⟨3, ![16, 2048, 64]⟩
abbrev S256x1024 : Shape := ⟨2, ![256, 1024]⟩
abbrev S2048x1024 : Shape := ⟨2, ![2048, 1024]⟩
abbrev S2048x64 : Shape := ⟨2, ![2048, 64]⟩
abbrev S1x2048x64 : Shape := ⟨3, ![1, 2048, 64]⟩
abbrev S64x1024 : Shape := ⟨2, ![64, 1024]⟩
abbrev S256x64 : Shape := ⟨2, ![256, 64]⟩
abbrev S1x64 : Shape := ⟨2, ![1, 64]⟩
abbrev S256x2048 : Shape := ⟨2, ![256, 2048]⟩
abbrev S256 : Shape := ⟨1, ![256]⟩
abbrev S256x1 : Shape := ⟨2, ![256, 1]⟩
abbrev S1024x64 : Shape := ⟨2, ![1024, 64]⟩

abbrev nBuf : Space → Nat
  | .hbm => 22
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S3072x1024, .f32⟩
  | .hbm, ⟨4, _⟩ => ⟨S3072, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S16x64x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S16x1x64, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024x16x64, .f32⟩
  | .hbm, ⟨18, _⟩ => ⟨S16x1024x64, .f32⟩
  | .hbm, ⟨19, _⟩ => ⟨S1x1024, .f32⟩
  | .hbm, ⟨20, _⟩ => ⟨S2x16x2048x2048, .f32⟩
  | .hbm, ⟨21, _⟩ => ⟨S2x2048x1024, .f32⟩
  | .local _ .vmem, ⟨0, _⟩ => ⟨S1x2048x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x1x64, .f32⟩
  | .local _ .vmem, ⟨8, _⟩ => ⟨S1x1x64, .f32⟩
  | .local _ .vmem, ⟨9, _⟩ => ⟨S1x1024x64, .f32⟩
  | .local _ .vmem, ⟨10, _⟩ => ⟨S1x1024x64, .f32⟩
  | .local _ .vmem, ⟨11, _⟩ => ⟨S1x1024, .f32⟩
  | .local _ .vmem, ⟨12, _⟩ => ⟨S1x1x256x2048, .f32⟩
  | .local _ .vmem, ⟨13, _⟩ => ⟨S1x1x256x2048, .f32⟩
  | .local _ .vmem, ⟨14, _⟩ => ⟨S1x256x1024, .f32⟩
  | .local _ .vmem, ⟨15, _⟩ => ⟨S1x256x1024, .f32⟩
  | .local _ .vmem, ⟨16, _⟩ => ⟨S16x2048x64, .f32⟩
  | .local _ .vmem, ⟨17, _⟩ => ⟨S16x2048x64, .bf16⟩
  | .local _ .vmem, ⟨18, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨3, ![2, 8, 16], ![false, false, false]⟩

def k0_mult1 (i : grid0.Coords) : BitVec 32 :=
  let arg1 : BitVec 32 := BitVec.ofNat 32 (i 1).val
  let c256_i32 : BitVec 32 := 256#32
  let v8 : BitVec 32 := Scalar.muli arg1 c256_i32
  v8
def k0_off1 (i : grid0.Coords) : Fin 3 → Nat :=
  let c0 : Index := 0#32
  let arg1 : BitVec 32 := BitVec.ofNat 32 (i 1).val
  let c256_i32 : BitVec 32 := 256#32
  let v8 : BitVec 32 := Scalar.muli arg1 c256_i32
  let v9 : BitVec 32 := v8
  let v10 : Index := Scalar.indexCast v9
  let c0_4 : Index := 0#32
  ![0, v10.toNat, 0]
def k0_off2 (i : grid0.Coords) : Fin 3 → Nat :=
  let arg2 : BitVec 32 := BitVec.ofNat 32 (i 2).val
  let v22 : Index := Scalar.indexCast arg2
  let c0_12 : Index := 0#32
  let c0_13 : Index := 0#32
  ![v22.toNat, 0, 0]
def k0_cond3 (i : grid0.Coords) : BitVec 1 :=
  let arg2 : BitVec 32 := BitVec.ofNat 32 (i 2).val
  let c15_i32 : BitVec 32 := 15#32
  let v54 : BitVec 1 := Scalar.cmpi .eq arg2 c15_i32
  let v55 : BitVec 32 := Scalar.extui v54
  let c0_i32_32 : BitVec 32 := 0#32
  let v56 : BitVec 1 := Scalar.cmpi .ne v55 c0_i32_32
  v56

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

class Facts₀ : Prop where
  slices_S3072x1024_S1024x1024_0_0 : S3072x1024.Slices ![0, 0] S1024x1024
  shapeCasts_S1024x1024_S16x64x1024 : S1024x1024.ShapeCasts S16x64x1024
  slices_S3072x1024_S1024x1024_1024_0 : S3072x1024.Slices ![1024, 0] S1024x1024
  slices_S3072x1024_S1024x1024_2048_0 : S3072x1024.Slices ![2048, 0] S1024x1024
  slices_S3072_S1024_0 : S3072.Slices ![0] S1024
  shapeCasts_S1024_S16x1x64 : S1024.ShapeCasts S16x1x64
  slices_S3072_S1024_1024 : S3072.Slices ![1024] S1024
  shapeCasts_S1024_S1x1024 : S1024.ShapeCasts S1x1024
  slices_S3072_S1024_2048 : S3072.Slices ![2048] S1024
  shapeCasts_S1024x1024_S1024x16x64 : S1024x1024.ShapeCasts S1024x16x64
  transposes_S1024x16x64_S16x1024x64_1_0_2 : S1024x16x64.Transposes [1, 0, 2] S16x1024x64
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  bitsLt_bf16_f32 : FTy.bits .bf16 < FTy.bits .f32
  transposes_S1024x1024_p1_0_S1024x1024 : S1024x1024.Transposes [1, 0] S1024x1024
  slices_S2048x1024_o0_0_S2048x64 : S2048x1024.Slices ![0, 0] S2048x64
  inb_S16x2048x64_S1x2048x64_0_0_0 : ∀ a, (![0, 0, 0] : Fin 3 → Nat) a + S1x2048x64.size a ≤ S16x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  packedbf16_S16x2048x64_S1x2048x64_0_0_0 : (Rect.unit (s := S16x2048x64) ![0, 0, 0] S1x2048x64.size inb_S16x2048x64_S1x2048x64_0_0_0).PackedRows (EltTy.packing .bf16)
  slices_S2048x1024_o0_64_S2048x64 : S2048x1024.Slices ![0, 64] S2048x64
  inb_S16x2048x64_S1x2048x64_1_0_0 : ∀ a, (![1, 0, 0] : Fin 3 → Nat) a + S1x2048x64.size a ≤ S16x2048x64.size a
  packedbf16_S16x2048x64_S1x2048x64_1_0_0 : (Rect.unit (s := S16x2048x64) ![1, 0, 0] S1x2048x64.size inb_S16x2048x64_S1x2048x64_1_0_0).PackedRows (EltTy.packing .bf16)
  slices_S2048x1024_o0_128_S2048x64 : S2048x1024.Slices ![0, 128] S2048x64
  inb_S16x2048x64_S1x2048x64_2_0_0 : ∀ a, (![2, 0, 0] : Fin 3 → Nat) a + S1x2048x64.size a ≤ S16x2048x64.size a
  packedbf16_S16x2048x64_S1x2048x64_2_0_0 : (Rect.unit (s := S16x2048x64) ![2, 0, 0] S1x2048x64.size inb_S16x2048x64_S1x2048x64_2_0_0).PackedRows (EltTy.packing .bf16)
  slices_S2048x1024_o0_192_S2048x64 : S2048x1024.Slices ![0, 192] S2048x64
  inb_S16x2048x64_S1x2048x64_3_0_0 : ∀ a, (![3, 0, 0] : Fin 3 → Nat) a + S1x2048x64.size a ≤ S16x2048x64.size a
  packedbf16_S16x2048x64_S1x2048x64_3_0_0 : (Rect.unit (s := S16x2048x64) ![3, 0, 0] S1x2048x64.size inb_S16x2048x64_S1x2048x64_3_0_0).PackedRows (EltTy.packing .bf16)
  slices_S2048x1024_o0_256_S2048x64 : S2048x1024.Slices ![0, 256] S2048x64
  inb_S16x2048x64_S1x2048x64_4_0_0 : ∀ a, (![4, 0, 0] : Fin 3 → Nat) a + S1x2048x64.size a ≤ S16x2048x64.size a
  packedbf16_S16x2048x64_S1x2048x64_4_0_0 : (Rect.unit (s := S16x2048x64) ![4, 0, 0] S1x2048x64.size inb_S16x2048x64_S1x2048x64_4_0_0).PackedRows (EltTy.packing .bf16)
  slices_S2048x1024_o0_320_S2048x64 : S2048x1024.Slices ![0, 320] S2048x64
  inb_S16x2048x64_S1x2048x64_5_0_0 : ∀ a, (![5, 0, 0] : Fin 3 → Nat) a + S1x2048x64.size a ≤ S16x2048x64.size a
  packedbf16_S16x2048x64_S1x2048x64_5_0_0 : (Rect.unit (s := S16x2048x64) ![5, 0, 0] S1x2048x64.size inb_S16x2048x64_S1x2048x64_5_0_0).PackedRows (EltTy.packing .bf16)
  slices_S2048x1024_o0_384_S2048x64 : S2048x1024.Slices ![0, 384] S2048x64
  inb_S16x2048x64_S1x2048x64_6_0_0 : ∀ a, (![6, 0, 0] : Fin 3 → Nat) a + S1x2048x64.size a ≤ S16x2048x64.size a
  packedbf16_S16x2048x64_S1x2048x64_6_0_0 : (Rect.unit (s := S16x2048x64) ![6, 0, 0] S1x2048x64.size inb_S16x2048x64_S1x2048x64_6_0_0).PackedRows (EltTy.packing .bf16)
  slices_S2048x1024_o0_448_S2048x64 : S2048x1024.Slices ![0, 448] S2048x64
  inb_S16x2048x64_S1x2048x64_7_0_0 : ∀ a, (![7, 0, 0] : Fin 3 → Nat) a + S1x2048x64.size a ≤ S16x2048x64.size a
  packedbf16_S16x2048x64_S1x2048x64_7_0_0 : (Rect.unit (s := S16x2048x64) ![7, 0, 0] S1x2048x64.size inb_S16x2048x64_S1x2048x64_7_0_0).PackedRows (EltTy.packing .bf16)
  slices_S2048x1024_o0_512_S2048x64 : S2048x1024.Slices ![0, 512] S2048x64
  inb_S16x2048x64_S1x2048x64_8_0_0 : ∀ a, (![8, 0, 0] : Fin 3 → Nat) a + S1x2048x64.size a ≤ S16x2048x64.size a
  packedbf16_S16x2048x64_S1x2048x64_8_0_0 : (Rect.unit (s := S16x2048x64) ![8, 0, 0] S1x2048x64.size inb_S16x2048x64_S1x2048x64_8_0_0).PackedRows (EltTy.packing .bf16)
  slices_S2048x1024_o0_576_S2048x64 : S2048x1024.Slices ![0, 576] S2048x64
  inb_S16x2048x64_S1x2048x64_9_0_0 : ∀ a, (![9, 0, 0] : Fin 3 → Nat) a + S1x2048x64.size a ≤ S16x2048x64.size a
  packedbf16_S16x2048x64_S1x2048x64_9_0_0 : (Rect.unit (s := S16x2048x64) ![9, 0, 0] S1x2048x64.size inb_S16x2048x64_S1x2048x64_9_0_0).PackedRows (EltTy.packing .bf16)
  slices_S2048x1024_o0_640_S2048x64 : S2048x1024.Slices ![0, 640] S2048x64
  inb_S16x2048x64_S1x2048x64_10_0_0 : ∀ a, (![10, 0, 0] : Fin 3 → Nat) a + S1x2048x64.size a ≤ S16x2048x64.size a
  packedbf16_S16x2048x64_S1x2048x64_10_0_0 : (Rect.unit (s := S16x2048x64) ![10, 0, 0] S1x2048x64.size inb_S16x2048x64_S1x2048x64_10_0_0).PackedRows (EltTy.packing .bf16)
  slices_S2048x1024_o0_704_S2048x64 : S2048x1024.Slices ![0, 704] S2048x64
  inb_S16x2048x64_S1x2048x64_11_0_0 : ∀ a, (![11, 0, 0] : Fin 3 → Nat) a + S1x2048x64.size a ≤ S16x2048x64.size a
  packedbf16_S16x2048x64_S1x2048x64_11_0_0 : (Rect.unit (s := S16x2048x64) ![11, 0, 0] S1x2048x64.size inb_S16x2048x64_S1x2048x64_11_0_0).PackedRows (EltTy.packing .bf16)
  slices_S2048x1024_o0_768_S2048x64 : S2048x1024.Slices ![0, 768] S2048x64
  inb_S16x2048x64_S1x2048x64_12_0_0 : ∀ a, (![12, 0, 0] : Fin 3 → Nat) a + S1x2048x64.size a ≤ S16x2048x64.size a
  packedbf16_S16x2048x64_S1x2048x64_12_0_0 : (Rect.unit (s := S16x2048x64) ![12, 0, 0] S1x2048x64.size inb_S16x2048x64_S1x2048x64_12_0_0).PackedRows (EltTy.packing .bf16)
  slices_S2048x1024_o0_832_S2048x64 : S2048x1024.Slices ![0, 832] S2048x64
  inb_S16x2048x64_S1x2048x64_13_0_0 : ∀ a, (![13, 0, 0] : Fin 3 → Nat) a + S1x2048x64.size a ≤ S16x2048x64.size a
  packedbf16_S16x2048x64_S1x2048x64_13_0_0 : (Rect.unit (s := S16x2048x64) ![13, 0, 0] S1x2048x64.size inb_S16x2048x64_S1x2048x64_13_0_0).PackedRows (EltTy.packing .bf16)
  slices_S2048x1024_o0_896_S2048x64 : S2048x1024.Slices ![0, 896] S2048x64
  inb_S16x2048x64_S1x2048x64_14_0_0 : ∀ a, (![14, 0, 0] : Fin 3 → Nat) a + S1x2048x64.size a ≤ S16x2048x64.size a
  packedbf16_S16x2048x64_S1x2048x64_14_0_0 : (Rect.unit (s := S16x2048x64) ![14, 0, 0] S1x2048x64.size inb_S16x2048x64_S1x2048x64_14_0_0).PackedRows (EltTy.packing .bf16)
  slices_S2048x1024_o0_960_S2048x64 : S2048x1024.Slices ![0, 960] S2048x64
  inb_S16x2048x64_S1x2048x64_15_0_0 : ∀ a, (![15, 0, 0] : Fin 3 → Nat) a + S1x2048x64.size a ≤ S16x2048x64.size a
  packedbf16_S16x2048x64_S1x2048x64_15_0_0 : (Rect.unit (s := S16x2048x64) ![15, 0, 0] S1x2048x64.size inb_S16x2048x64_S1x2048x64_15_0_0).PackedRows (EltTy.packing .bf16)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  h_S1x256x1024 : 0 < S1x256x1024.numel
  shapeCasts_S1x256x1024_S256x1024 : S1x256x1024.ShapeCasts S256x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S256x64 : S1x64.Broadcasts S256x64
  reduces_S256x2048_S256 : S256x2048.Reduces [1] S256
  shapeCasts_S256_S256x1 : S256.ShapeCasts S256x1
  broadcasts_S256x1_S256x2048 : S256x1.Broadcasts S256x2048
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  shapeCasts_S256x1024_S1x256x1024 : S256x1024.ShapeCasts S1x256x1024
  dot_S2048x1024_S1024x1024_S2048x1024_1_1_0_0_n_n_wf : DotDims.WF S2048x1024 S1024x1024 S2048x1024 [1] [1] [0] [0] [] []
  dot_S2048x1024_S1024x1024_S2048x1024_1_0_0_1_n_n_wf : DotDims.WF S2048x1024 S1024x1024 S2048x1024 [1] [0] [0] [1] [] []
  dot_S256x1024_S64x1024_S256x64_1_1_0_0_n_n_wf : DotDims.WF S256x1024 S64x1024 S256x64 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x64_S64x1024_S256x1024_1_0_0_1_n_n_wf : DotDims.WF S256x64 S64x1024 S256x1024 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x1024.size a ≤ S1x2048x1024.size a
  k0_off2_inb : ∀ i : grid0.Coords, ∀ a, (k0_off2 i) a + S1x2048x64.size a ≤ S16x2048x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S2x2048x1024.size a
  hwx0_0 : ∀ i : grid0.Coords, EltTy.bits .f32 = 32 ∨ (Rect.block (s := S2x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1024.size a ≤ S16x64x1024.size a
  hwx0_5 : ∀ i : grid0.Coords, EltTy.bits .f32 = 32 ∨ (Rect.block (s := S16x64x1024) S1x64x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64.size a ≤ S16x1x64.size a
  hwx0_6 : ∀ i : grid0.Coords, EltTy.bits .f32 = 32 ∨ (Rect.block (s := S16x1x64) S1x1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x64.size a ≤ S16x1024x64.size a
  hwx0_7 : ∀ i : grid0.Coords, EltTy.bits .f32 = 32 ∨ (Rect.block (s := S16x1024x64) S1x1024x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x256x2048.size a ≤ S2x16x2048x2048.size a
  hwx0_9 : ∀ i : grid0.Coords, EltTy.bits .f32 = 32 ∨ (Rect.block (s := S2x16x2048x2048) S1x1x256x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x1024.size a ≤ S2x2048x1024.size a
  hwx0_10 : ∀ i : grid0.Coords, EltTy.bits .f32 = 32 ∨ (Rect.block (s := S2x2048x1024) S1x256x1024.size (cc0_transform_10 i) (hinb0_10 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S256x1024_S64x1024_S256x64_1_1_0_0_n_n : DotDims S256x1024 S64x1024 S256x64 where
  lhsContracting := [1]
  rhsContracting := [1]
  lhsNonContracting := [0]
  rhsNonContracting := [0]
  lhsBatch := []
  rhsBatch := []
  wf := dot_S256x1024_S64x1024_S256x64_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf

abbrev win0_0 : Pipeline.Window sig grid0 :=
  Pipeline.Window.ofSpec (Memref.whole main_arg0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x1024x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13_0) S1x1x256x2048.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v13_1) S1x256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond3 i == 1#1) | ⟨_ + 11, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x64 : Shape := ⟨4, ![2, 2048, 16, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S3072x1024, .f32⟩
  | .hbm, ⟨4, _⟩ => ⟨S3072, .f32⟩
  | .hbm, ⟨5, _⟩ => ⟨S1024x1024, .f32⟩
  | .hbm, ⟨6, _⟩ => ⟨S1024, .f32⟩
  | .hbm, ⟨7, _⟩ => ⟨S2x2048x3072, .f32⟩
  | .hbm, ⟨8, _⟩ => ⟨S1x1x3072, .f32⟩
  | .hbm, ⟨9, _⟩ => ⟨S2x2048x3072, .f32⟩
  | .hbm, ⟨10, _⟩ => ⟨S2x2048x3072, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x16x64, .f32⟩
  | .hbm, ⟨15, _⟩ => ⟨S2x16x2048x64, .f32⟩
  | .hbm, ⟨16, _⟩ => ⟨S_, .f32⟩
  | .hbm, ⟨17, _⟩ => ⟨S2x16x2048x64, .f32⟩
  | .hbm, ⟨18, _⟩ => ⟨S2x16x2048x64, .f32⟩
  | .hbm, ⟨19, _⟩ => ⟨S2x2048x16x64, .f32⟩
  | .hbm, ⟨20, _⟩ => ⟨S2x16x2048x64, .f32⟩
  | .hbm, ⟨21, _⟩ => ⟨S2x2048x16x64, .f32⟩
  | .hbm, ⟨22, _⟩ => ⟨S2x16x2048x64, .f32⟩
  | .hbm, ⟨23, _⟩ => ⟨S2x16x2048x2048, .f32⟩
  | .hbm, ⟨24, _⟩ => ⟨S_, .f32⟩
  | .hbm, ⟨25, _⟩ => ⟨S2x16x2048, .f32⟩
  | .hbm, ⟨26, _⟩ => ⟨S_, .f32⟩
  | .hbm, ⟨27, _⟩ => ⟨S2x16x2048, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S_, .f32⟩
  | .hbm, ⟨34, _⟩ => ⟨S2x16x2048, .f32⟩
  | .hbm, ⟨35, _⟩ => ⟨S2x16x2048x1, .f32⟩
  | .hbm, ⟨36, _⟩ => ⟨S2x16x2048x2048, .f32⟩
  | .hbm, ⟨37, _⟩ => ⟨S2x16x2048x2048, .f32⟩
  | .hbm, ⟨38, _⟩ => ⟨S2x16x2048x64, .f32⟩
  | .hbm, ⟨39, _⟩ => ⟨S2x2048x16x64, .f32⟩
  | .hbm, ⟨40, _⟩ => ⟨S2x2048x1024, .f32⟩
  | .hbm, ⟨41, _⟩ => ⟨S2x2048x1024, .f32⟩
  | .hbm, ⟨42, _⟩ => ⟨S1x1x1024, .f32⟩
  | .hbm, ⟨43, _⟩ => ⟨S2x2048x1024, .f32⟩
  | .hbm, ⟨44, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x64 : S_.BroadcastsInDim S2x16x2048x64 (![] : Fin 0 → Fin S2x16x2048x64.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.AttnSpec.lean ====
/-
  Multi-head self-attention over the extended reals, index by index.

  One input `x` (batch, token, feature) is projected three ways: per head `h` and lane `d` a query
  `(x · wq h d + bq h d) · 1/8`, and per feature `e` a key `x · wk e + bk e` and a value `x · wv e + bv e`; head `h`
  uses the 64 features `64 h + d` of the keys and of the values. The score of query token `q` against key token `k`
  is the sum over the 64 lanes of query times key; a row of scores is normalised by its softmax (the exponential of
  the score minus the row's greatest score, over the sum of those exponentials); the head's output is the weighted sum
  of the values; and the result is the output projection of the 16 heads' outputs laid side by side, feature `e` being
  lane `e % 64` of head `e / 64`, plus a bias. Every sum is a finite sum of the extended reals, every literal the
  extended real its word denotes; nothing here assumes an entry finite.
-/
import Idealize.ShloMosaic.PureOps.Ideal
import Idealize.ShloMosaic.Lib.ValueIdx

noncomputable section

open scoped BigOperators

namespace Cert.AttnSpec

open Idealize.ShloMosaic

/-- Feature `64 h + d`: lane `d` of head `h`. -/
def col (h : Fin 16) (d : Fin 64) : Fin 1024 := ⟨64 * h.val + d.val, by have := h.isLt; have := d.isLt; omega⟩
/-- The head a feature belongs to. -/
def headOf (e : Fin 1024) : Fin 16 := ⟨e.val / 64, by have := e.isLt; omega⟩
/-- A feature's lane within its head. -/
def laneOf (e : Fin 1024) : Fin 64 := ⟨e.val % 64, Nat.mod_lt _ (by decide)⟩

theorem headOf_col (h : Fin 16) (d : Fin 64) : headOf (col h d) = h := by
  apply Fin.ext; show (64 * h.val + d.val) / 64 = h.val; have := d.isLt; omega
theorem laneOf_col (h : Fin 16) (d : Fin 64) : laneOf (col h d) = d := by
  apply Fin.ext; show (64 * h.val + d.val) % 64 = d.val; have := d.isLt; omega
theorem col_headOf_laneOf (e : Fin 1024) : col (headOf e) (laneOf e) = e := by
  apply Fin.ext; show 64 * (e.val / 64) + e.val % 64 = e.val; exact Nat.div_add_mod e.val 64

section
variable (x : Fin 2 → Fin 2048 → Fin 1024 → EReal)
variable (wq : Fin 16 → Fin 64 → Fin 1024 → EReal) (bq : Fin 16 → Fin 64 → EReal)
variable (wk : Fin 1024 → Fin 1024 → EReal) (bk : Fin 1024 → EReal)
variable (wv : Fin 1024 → Fin 1024 → EReal) (bv : Fin 1024 → EReal)
variable (wo : Fin 16 → Fin 1024 → Fin 64 → EReal) (bo : Fin 1024 → EReal)

/-- The scaled query of head `h`, token `s`, lane `d`. -/
def query (b : Fin 2) (h : Fin 16) (s : Fin 2048) (d : Fin 64) : EReal :=
  ((∑ c : Fin 1024, x b s c * wq h d c) + bq h d) * Ideal.ofBits .f32 0x3E000000#32

/-- Feature `e` of the key of token `s`. -/
def key (b : Fin 2) (s : Fin 2048) (e : Fin 1024) : EReal := (∑ c : Fin 1024, x b s c * wk e c) + bk e

/-- Feature `e` of the value of token `s`. -/
def value (b : Fin 2) (s : Fin 2048) (e : Fin 1024) : EReal := (∑ c : Fin 1024, x b s c * wv e c) + bv e

/-- The score of query token `q` against key token `k` in head `h`. -/
def score (b : Fin 2) (h : Fin 16) (q k : Fin 2048) : EReal :=
  ∑ d : Fin 64, query x wq bq b h q d * key x wk bk b k (col h d)

/-- The greatest score of a row, as the fold of `max` from minus infinity. -/
def rowMax (b : Fin 2) (h : Fin 16) (q : Fin 2048) : EReal :=
  (Finset.univ : Finset (Fin 2048)).fold max (Ideal.ofBits .f32 0xFF800000#32) (fun k => score x wq bq wk bk b h q k)

/-- The exponential of a score less its row's greatest. -/
def expo (b : Fin 2) (h : Fin 16) (q k : Fin 2048) : EReal :=
  Ideal.exp (score x wq bq wk bk b h q k - rowMax x wq bq wk bk b h q)

/-- The softmax weight of key token `k` for query token `q`. -/
def weight (b : Fin 2) (h : Fin 16) (q k : Fin 2048) : EReal :=
  Ideal.div (expo x wq bq wk bk b h q k) (∑ k' : Fin 2048, expo x wq bq wk bk b h q k')

/-- Lane `d` of head `h`'s output at token `q`: the weighted sum of the values. -/
def headOut (b : Fin 2) (h : Fin 16) (q : Fin 2048) (d : Fin 64) : EReal :=
  ∑ k : Fin 2048, weight x wq bq wk bk b h q k * value x wv bv b k (col h d)

/-- One term of the output projection: feature `e` of the heads' outputs laid side by side, times its weight. -/
def outTerm (b : Fin 2) (q : Fin 2048) (f e : Fin 1024) : EReal :=
  headOut x wq bq wk bk wv bv b (headOf e) q (laneOf e) * wo (headOf e) f (laneOf e)

/-- Feature `f` of the result at token `q`. -/
def output (b : Fin 2) (q : Fin 2048) (f : Fin 1024) : EReal :=
  (∑ e : Fin 1024, outTerm x wq bq wk bk wv bv wo b q f e) + bo f

end

/-! ## The program's arrays by coordinates

The program holds one fused input weight `[3072, 1024]` and bias `[3072]`: rows `64 h + d` are the query projection of
head `h`, rows `1024 + e` the key projection, rows `2048 + e` the value projection; and one output weight
`[1024, 1024]` whose column `64 h + d` multiplies lane `d` of head `h`. -/

open Idealize.ShloMosaic.ValueIdx

/-- The fused weight's row for lane `d` of head `h`'s query. -/
def rowQ (h : Fin 16) (d : Fin 64) : Fin 3072 := ⟨64 * h.val + d.val, by have := h.isLt; have := d.isLt; omega⟩
/-- The fused weight's row for feature `e` of the key. -/
def rowK (e : Fin 1024) : Fin 3072 := ⟨1024 + e.val, by have := e.isLt; omega⟩
/-- The fused weight's row for feature `e` of the value. -/
def rowV (e : Fin 1024) : Fin 3072 := ⟨2048 + e.val, by have := e.isLt; omega⟩

def xOf (a : (⟨3, ![2, 2048, 1024]⟩ : Shape).Idx → EReal) : Fin 2 → Fin 2048 → Fin 1024 → EReal := fun b s c => a (ix3 b s c)
def wqOf (w : (⟨2, ![3072, 1024]⟩ : Shape).Idx → EReal) : Fin 16 → Fin 64 → Fin 1024 → EReal := fun h d c => w (ix2 (rowQ h d) c)
def bqOf (bi : (⟨1, ![3072]⟩ : Shape).Idx → EReal) : Fin 16 → Fin 64 → EReal := fun h d => bi (ix1 (rowQ h d))
def wkOf (w : (⟨2, ![3072, 1024]⟩ : Shape).Idx → EReal) : Fin 1024 → Fin 1024 → EReal := fun e c => w (ix2 (rowK e) c)
def bkOf (bi : (⟨1, ![3072]⟩ : Shape).Idx → EReal) : Fin 1024 → EReal := fun e => bi (ix1 (rowK e))
def wvOf (w : (⟨2, ![3072, 1024]⟩ : Shape).Idx → EReal) : Fin 1024 → Fin 1024 → EReal := fun e c => w (ix2 (rowV e) c)
def bvOf (bi : (⟨1, ![3072]⟩ : Shape).Idx → EReal) : Fin 1024 → EReal := fun e => bi (ix1 (rowV e))
def woOf (wo : (⟨2, ![1024, 1024]⟩ : Shape).Idx → EReal) : Fin 16 → Fin 1024 → Fin 64 → EReal := fun h f d => wo (ix2 f (col h d))
def boOf (bo : (⟨1, ![1024]⟩ : Shape).Idx → EReal) : Fin 1024 → EReal := fun f => bo (ix1 f)

/-- The softmax weights as one array `[2, 16, 2048, 2048]` of the input, the fused weight and the fused bias. -/
def weightsArr (a0 : (⟨3, ![2, 2048, 1024]⟩ : Shape).Idx → EReal) (a3 : (⟨2, ![3072, 1024]⟩ : Shape).Idx → EReal)
    (a4 : (⟨1, ![3072]⟩ : Shape).Idx → EReal) : (⟨4, ![2, 16, 2048, 2048]⟩ : Shape).Idx → EReal :=
  fun i => weight (xOf a0) (wqOf a3) (bqOf a4) (wkOf a3) (bkOf a4) (i 0) (i 1) (i 2) (i 3)

/-- The result as one array `[2, 2048, 1024]` of the input, the two weights and the two biases. -/
def outputArr (a0 : (⟨3, ![2, 2048, 1024]⟩ : Shape).Idx → EReal) (a3 : (⟨2, ![3072, 1024]⟩ : Shape).Idx → EReal)
    (a4 : (⟨1, ![3072]⟩ : Shape).Idx → EReal) (a5 : (⟨2, ![1024, 1024]⟩ : Shape).Idx → EReal)
    (a6 : (⟨1, ![1024]⟩ : Shape).Idx → EReal) : (⟨3, ![2, 2048, 1024]⟩ : Shape).Idx → EReal :=
  fun i => output (xOf a0) (wqOf a3) (bqOf a4) (wkOf a3) (bkOf a4) (wvOf a3) (bvOf a4) (woOf a5) (boOf a6) (i 0) (i 1) (i 2)

end Cert.AttnSpec

end
-- ==== Proof.RefIsSpec.lean ====
/-
  The reference program computes the attention specification.

  Read one operation at a time, at explicit coordinates: the fused projection at (batch, token, row) is the input's row
  times the fused weight's row plus the fused bias; its three column ranges, split into 16 heads of 64 lanes and with the
  token and head axes exchanged, are the scaled query, the key and the value of the specification; the batched products,
  the row maximum, the exponential, the row sum and the quotient are its score, greatest score, exponential and softmax
  weight; and the weighted values, laid side by side again and projected, are its result. Every step is an unfolding, a
  re-indexing of a finite sum, `0 + x = x`, or the fact that a fold of `max` from `b` is at least `b`; no entry is
  assumed finite.
-/
import proofs.«173047_j62036507623685_2_alg».proof.Proof.Gen.ReferenceIdeal.Read
import proofs.«173047_j62036507623685_2_alg».proof.Proof.AttnSpec

noncomputable section

open scoped BigOperators

namespace Cert.ReferenceIdeal.RefIsSpec

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx Cert.AttnSpec

/-! ## Index equations -/

/-- Exchanging the token and head axes. -/
theorem idx8 (b : Fin 2) (h : Fin 16) (s : Fin 2048) (d : Fin 64) :
    idx_main_v8 (ix4 b h s d) = ix4 b s h d :=
  funext fun a => Fin.ext (by match a with | ⟨0, _⟩ => rfl | ⟨1, _⟩ => rfl | ⟨2, _⟩ => rfl | ⟨3, _⟩ => rfl)
/-- Exchanging the token and head axes. -/
theorem idx12 (b : Fin 2) (h : Fin 16) (s : Fin 2048) (d : Fin 64) :
    idx_main_v12 (ix4 b h s d) = ix4 b s h d :=
  funext fun a => Fin.ext (by match a with | ⟨0, _⟩ => rfl | ⟨1, _⟩ => rfl | ⟨2, _⟩ => rfl | ⟨3, _⟩ => rfl)
/-- Exchanging the token and head axes. -/
theorem idx14 (b : Fin 2) (h : Fin 16) (s : Fin 2048) (d : Fin 64) :
    idx_main_v14 (ix4 b h s d) = ix4 b s h d :=
  funext fun a => Fin.ext (by match a with | ⟨0, _⟩ => rfl | ⟨1, _⟩ => rfl | ⟨2, _⟩ => rfl | ⟨3, _⟩ => rfl)
/-- Exchanging the head and token axes back. -/
theorem idx28 (b : Fin 2) (q : Fin 2048) (h : Fin 16) (d : Fin 64) :
    idx_main_v28 (ix4 b q h d) = ix4 b h q d :=
  funext fun a => Fin.ext (by match a with | ⟨0, _⟩ => rfl | ⟨1, _⟩ => rfl | ⟨2, _⟩ => rfl | ⟨3, _⟩ => rfl)

/-- Splitting a feature into (head, lane) reads feature `64 h + d` of token `s`. -/
theorem idx7 (b : Fin 2) (s : Fin 2048) (h : Fin 16) (d : Fin 64) :
    idx_main_v7 (ix4 b s h d) = ix3 b s (col h d) :=
  funext fun a => Fin.ext (by
    have hb := b.isLt; have hs := s.isLt; have hh := h.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = 64 * h.val + d.val; omega)
/-- Splitting a feature into (head, lane) reads feature `64 h + d` of token `s`. -/
theorem idx11 (b : Fin 2) (s : Fin 2048) (h : Fin 16) (d : Fin 64) :
    idx_main_v11 (ix4 b s h d) = ix3 b s (col h d) :=
  funext fun a => Fin.ext (by
    have hb := b.isLt; have hs := s.isLt; have hh := h.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = 64 * h.val + d.val; omega)
/-- Splitting a feature into (head, lane) reads feature `64 h + d` of token `s`. -/
theorem idx13 (b : Fin 2) (s : Fin 2048) (h : Fin 16) (d : Fin 64) :
    idx_main_v13 (ix4 b s h d) = ix3 b s (col h d) :=
  funext fun a => Fin.ext (by
    have hb := b.isLt; have hs := s.isLt; have hh := h.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = 64 * h.val + d.val; omega)

/-- Laying the heads side by side: feature `e` is lane `e % 64` of head `e / 64`. -/
theorem idx29 (b : Fin 2) (q : Fin 2048) (e : Fin 1024) :
    idx_main_v29 (ix3 b q e) = ix4 b q (headOf e) (laneOf e) :=
  funext fun a => Fin.ext (by
    have hb := b.isLt; have hq := q.isLt; have he := e.isLt
    match a with
    | ⟨0, _⟩ => show ((b.val * 2048 + q.val) * 1024 + e.val) / 2097152 = b.val; omega
    | ⟨1, _⟩ => show ((b.val * 2048 + q.val) * 1024 + e.val) / 1024 % 2048 = q.val; omega
    | ⟨2, _⟩ => show ((b.val * 2048 + q.val) * 1024 + e.val) / 64 % 16 = e.val / 64; omega
    | ⟨3, _⟩ => show ((b.val * 2048 + q.val) * 1024 + e.val) % 64 = e.val % 64; omega)

/-- The first column range of the fused projection holds the query rows. -/
theorem idx4 (b : Fin 2) (s : Fin 2048) (h : Fin 16) (d : Fin 64) :
    idx_main_v4 (ix3 b s (col h d)) = ix3 b s (rowQ h d) :=
  funext fun a => Fin.ext (by match a with | ⟨0, _⟩ => rfl | ⟨1, _⟩ => rfl | ⟨2, _⟩ => rfl)
/-- The second column range holds the key rows. -/
theorem idx5 (b : Fin 2) (s : Fin 2048) (e : Fin 1024) :
    idx_main_v5 (ix3 b s e) = ix3 b s (rowK e) :=
  funext fun a => Fin.ext (by match a with | ⟨0, _⟩ => rfl | ⟨1, _⟩ => rfl | ⟨2, _⟩ => rfl)
/-- The third column range holds the value rows. -/
theorem idx6 (b : Fin 2) (s : Fin 2048) (e : Fin 1024) :
    idx_main_v6 (ix3 b s e) = ix3 b s (rowV e) :=
  funext fun a => Fin.ext (by match a with | ⟨0, _⟩ => rfl | ⟨1, _⟩ => rfl | ⟨2, _⟩ => rfl)

/-- The index of a row of scores with key token `k` put back on the reduced axis. -/
theorem lift_row (hr : S2x16x2048x2048.Reduces [3] S2x16x2048) (b : Fin 2) (h : Fin 16) (q k : Fin 2048) :
    hr.lift (ix3 b h q) k = ix4 b h q k :=
  funext fun a => Fin.ext (by match a with | ⟨0, _⟩ => rfl | ⟨1, _⟩ => rfl | ⟨2, _⟩ => rfl | ⟨3, _⟩ => rfl)

/-! ## A fold of `max` from `b` is at least `b` -/

theorem max_fold_self (b : EReal) (f : Fin 2048 → EReal) :
    max b ((Finset.univ : Finset (Fin 2048)).fold max b f) = (Finset.univ : Finset (Fin 2048)).fold max b f :=
  max_eq_right ((Finset.le_fold_max b).2 (Or.inl le_rfl))

section
variable (x0 : (⟨S2x2048x1024, .f32⟩ : BufTy).Contents (Elt Ideal)) (x3 : (⟨S3072x1024, .f32⟩ : BufTy).Contents (Elt Ideal))
variable (x4 : (⟨S3072, .f32⟩ : BufTy).Contents (Elt Ideal))
variable (x5 : (⟨S1024x1024, .f32⟩ : BufTy).Contents (Elt Ideal)) (x6 : (⟨S1024, .f32⟩ : BufTy).Contents (Elt Ideal))

/-! ## The projections -/

/-- The fused projection at (batch, token, row): the input's row times the weight's row, plus the bias. -/
theorem v3_at (b : Fin 2) (s : Fin 2048) (r : Fin 3072) :
    val_main_v3 (F := Ideal) x0 x3 x4 (ix3 b s r) = (∑ c : Fin 1024, x0 (ix3 b s c) * x3 (ix2 r c)) + x4 (ix1 r) := by
  have e1 : ∀ c : Fin 1024, lidx_main_v0 (ix3 b s r) c = ix3 b s c := fun c => funext fun a => Fin.ext (by match a with | ⟨0, _⟩ => rfl | ⟨1, _⟩ => rfl | ⟨2, _⟩ => rfl)
  have e2 : ∀ c : Fin 1024, ridx_main_v0 (ix3 b s r) c = ix2 r c := fun c => funext fun a => Fin.ext (by match a with | ⟨0, _⟩ => rfl | ⟨1, _⟩ => rfl)
  have e3 : idx_main_v1 (idx_main_v2 (ix3 b s r)) = ix1 r := funext fun a => Fin.ext (by match a with | ⟨0, _⟩ => rfl)
  rw [val_main_v3_apply, val_main_v0_apply, val_main_v2_apply, val_main_v1_apply, Ideal.addf_def, e3]
  refine congrArg (· + x4 (ix1 r)) (Finset.sum_congr rfl fun c _ => ?_)
  rw [e1, e2]

/-- The scaled query of head `h`, token `s`, lane `d`. -/
theorem v10_at (b : Fin 2) (h : Fin 16) (s : Fin 2048) (d : Fin 64) :
    val_main_v10 (F := Ideal) x0 x3 x4 (ix4 b h s d) = query (xOf x0) (wqOf x3) (bqOf x4) b h s d := by
  rw [val_main_v10_apply, val_main_v8_apply, val_main_v7_apply, val_main_v4_apply, val_main_v9_apply, val_main_cst_apply,
    idx8, idx7, idx4, v3_at, Ideal.mulf_def]
  rfl

/-- The key of token `s` at feature `64 h + d`. -/
theorem v12_at (b : Fin 2) (h : Fin 16) (s : Fin 2048) (d : Fin 64) :
    val_main_v12 (F := Ideal) x0 x3 x4 (ix4 b h s d) = key (xOf x0) (wkOf x3) (bkOf x4) b s (col h d) := by
  rw [val_main_v12_apply, val_main_v11_apply, val_main_v5_apply, idx12, idx11, idx5, v3_at]
  rfl

/-- The value of token `s` at feature `64 h + d`. -/
theorem v14_at (b : Fin 2) (h : Fin 16) (s : Fin 2048) (d : Fin 64) :
    val_main_v14 (F := Ideal) x0 x3 x4 (ix4 b h s d) = value (xOf x0) (wvOf x3) (bvOf x4) b s (col h d) := by
  rw [val_main_v14_apply, val_main_v13_apply, val_main_v6_apply, idx14, idx13, idx6, v3_at]
  rfl

/-! ## Scores and their softmax -/

/-- The score of query token `q` against key token `k` in head `h`. -/
theorem v15_at (b : Fin 2) (h : Fin 16) (q k : Fin 2048) :
    val_main_v15 (F := Ideal) x0 x3 x4 (ix4 b h q k) = score (xOf x0) (wqOf x3) (bqOf x4) (wkOf x3) (bkOf x4) b h q k := by
  rw [val_main_v15_apply]
  unfold score
  refine Finset.sum_congr rfl fun d _ => ?_
  rw [show lidx_main_v15 (ix4 b h q k) d = ix4 b h q d from funext fun a => Fin.ext (by match a with | ⟨0, _⟩ => rfl | ⟨1, _⟩ => rfl | ⟨2, _⟩ => rfl | ⟨3, _⟩ => rfl),
    show ridx_main_v15 (ix4 b h q k) d = ix4 b h k d from funext fun a => Fin.ext (by match a with | ⟨0, _⟩ => rfl | ⟨1, _⟩ => rfl | ⟨2, _⟩ => rfl | ⟨3, _⟩ => rfl),
    v10_at, v12_at]

/-- The row maximum, read as the fold of `max` from minus infinity over the key tokens. -/
theorem v16_at (b : Fin 2) (h : Fin 16) (q : Fin 2048) :
    val_main_v16 (F := Ideal) x0 x3 x4 (ix3 b h q) = rowMax (xOf x0) (wqOf x3) (bqOf x4) (wkOf x3) (bkOf x4) b h q := by
  have hr : S2x16x2048x2048.Reduces [3] S2x16x2048 := by decide
  unfold val_main_v16
  rw [Host.reduce_eq_fold_single (FloatOps.maximumf (F := Ideal) (φ := .f32)) (val_main_v15 (F := Ideal) x0 x3 x4)
    (val_main_cst_0 (F := Ideal)) reducesTo_S2x16x2048x2048_S2x16x2048_d3 hr h_S_]
  unfold rowMax
  refine congrArg (fun f => Finset.fold max (Ideal.ofBits .f32 0xFF800000#32) f (Finset.univ : Finset (Fin 2048))) (funext fun k => ?_)
  exact (congrArg (val_main_v15 (F := Ideal) x0 x3 x4) (lift_row hr b h q k)).trans (v15_at x0 x3 x4 b h q k)

/-- Taking the maximum with minus infinity once more changes nothing. -/
theorem v18_at (b : Fin 2) (h : Fin 16) (q : Fin 2048) :
    val_main_v18 (F := Ideal) x0 x3 x4 (ix3 b h q) = rowMax (xOf x0) (wqOf x3) (bqOf x4) (wkOf x3) (bkOf x4) b h q := by
  rw [val_main_v18_apply, val_main_v17_apply, val_main_cst_1_apply, v16_at, Ideal.maximumf_def]
  unfold rowMax
  exact max_fold_self _ _

/-- The exponential of a score less its row's greatest. -/
theorem v22_at (b : Fin 2) (h : Fin 16) (q k : Fin 2048) :
    val_main_v22 (F := Ideal) x0 x3 x4 (ix4 b h q k) = expo (xOf x0) (wqOf x3) (bqOf x4) (wkOf x3) (bkOf x4) b h q k := by
  rw [val_main_v22_apply, val_main_v21_apply, val_main_v20_apply, val_main_v19_apply,
    show idx_main_v19 (idx_main_v20 (ix4 b h q k)) = ix3 b h q from funext fun a => Fin.ext (by match a with | ⟨0, _⟩ => rfl | ⟨1, _⟩ => rfl | ⟨2, _⟩ => rfl),
    v18_at, v15_at, Ideal.hostUnary_exp_def, Ideal.subf_def]
  rfl

/-- The row's sum of exponentials: the sum from zero is the sum. -/
theorem v23_at (b : Fin 2) (h : Fin 16) (q : Fin 2048) :
    val_main_v23 (F := Ideal) x0 x3 x4 (ix3 b h q) = ∑ k : Fin 2048, expo (xOf x0) (wqOf x3) (bqOf x4) (wkOf x3) (bkOf x4) b h q k := by
  have hz : (FloatOps.ofBits .f32 0x00000000#32 : Ideal .f32) = 0 := Ideal.ofBits_zero_f32
  rw [val_main_v23_apply, val_main_cst_2_apply, hz, zero_add]
  refine Finset.sum_congr rfl fun k _ => ?_
  rw [show idx_main_v23 (ix3 b h q) k = ix4 b h q k from funext fun a => Fin.ext (by match a with | ⟨0, _⟩ => rfl | ⟨1, _⟩ => rfl | ⟨2, _⟩ => rfl | ⟨3, _⟩ => rfl), v22_at]

/-- The softmax weight. -/
theorem v26_at (b : Fin 2) (h : Fin 16) (q k : Fin 2048) :
    val_main_v26 (F := Ideal) x0 x3 x4 (ix4 b h q k) = weight (xOf x0) (wqOf x3) (bqOf x4) (wkOf x3) (bkOf x4) b h q k := by
  rw [val_main_v26_apply, val_main_v25_apply, val_main_v24_apply,
    show idx_main_v24 (idx_main_v25 (ix4 b h q k)) = ix3 b h q from funext fun a => Fin.ext (by match a with | ⟨0, _⟩ => rfl | ⟨1, _⟩ => rfl | ⟨2, _⟩ => rfl),
    v22_at, v23_at, Ideal.hostDivf_def]
  rfl

/-- The reference's softmax weights are the specification's. -/
theorem weights_eq : val_main_v26 (F := Ideal) x0 x3 x4 = weightsArr x0 x3 x4 := by
  funext i
  exact (congrArg (val_main_v26 (F := Ideal) x0 x3 x4) (eq_ix4 i)).trans (v26_at x0 x3 x4 (i 0) (i 1) (i 2) (i 3))

/-! ## The weighted values and the output projection -/

/-- Lane `d` of head `h`'s output at token `q`. -/
theorem v27_at (b : Fin 2) (h : Fin 16) (q : Fin 2048) (d : Fin 64) :
    val_main_v27 (F := Ideal) x0 x3 x4 (ix4 b h q d) = headOut (xOf x0) (wqOf x3) (bqOf x4) (wkOf x3) (bkOf x4) (wvOf x3) (bvOf x4) b h q d := by
  rw [val_main_v27_apply]
  unfold headOut
  refine Finset.sum_congr rfl fun k _ => ?_
  rw [show lidx_main_v27 (ix4 b h q d) k = ix4 b h q k from funext fun a => Fin.ext (by match a with | ⟨0, _⟩ => rfl | ⟨1, _⟩ => rfl | ⟨2, _⟩ => rfl | ⟨3, _⟩ => rfl),
    show ridx_main_v27 (ix4 b h q d) k = ix4 b h k d from funext fun a => Fin.ext (by match a with | ⟨0, _⟩ => rfl | ⟨1, _⟩ => rfl | ⟨2, _⟩ => rfl | ⟨3, _⟩ => rfl),
    v26_at, v14_at]

/-- The heads' outputs laid side by side: feature `e` is lane `e % 64` of head `e / 64`. -/
theorem v29_at (b : Fin 2) (q : Fin 2048) (e : Fin 1024) :
    val_main_v29 (F := Ideal) x0 x3 x4 (ix3 b q e) = headOut (xOf x0) (wqOf x3) (bqOf x4) (wkOf x3) (bkOf x4) (wvOf x3) (bvOf x4) b (headOf e) q (laneOf e) := by
  rw [val_main_v29_apply, val_main_v28_apply, idx29, idx28, v27_at]

/-- Feature `f` of the result at token `q`. -/
theorem v33_at (b : Fin 2) (q : Fin 2048) (f : Fin 1024) :
    val_main_v33 (F := Ideal) x0 x3 x4 x5 x6 (ix3 b q f) = output (xOf x0) (wqOf x3) (bqOf x4) (wkOf x3) (bkOf x4) (wvOf x3) (bvOf x4) (woOf x5) (boOf x6) b q f := by
  rw [val_main_v33_apply, val_main_v30_apply, val_main_v32_apply, val_main_v31_apply, Ideal.addf_def,
    show idx_main_v31 (idx_main_v32 (ix3 b q f)) = ix1 f from funext fun a => Fin.ext (by match a with | ⟨0, _⟩ => rfl)]
  unfold output
  refine congrArg (· + x6 (ix1 f)) (Finset.sum_congr rfl fun e _ => ?_)
  rw [show lidx_main_v30 (ix3 b q f) e = ix3 b q e from funext fun a => Fin.ext (by match a with | ⟨0, _⟩ => rfl | ⟨1, _⟩ => rfl | ⟨2, _⟩ => rfl),
    show ridx_main_v30 (ix3 b q f) e = ix2 f e from funext fun a => Fin.ext (by match a with | ⟨0, _⟩ => rfl | ⟨1, _⟩ => rfl), v29_at]
  unfold outTerm woOf
  rw [col_headOf_laneOf]

/-- The reference's result is the specification's. -/
theorem output_eq : val_main_v33 (F := Ideal) x0 x3 x4 x5 x6 = outputArr x0 x3 x4 x5 x6 := by
  funext i
  exact (congrArg (val_main_v33 (F := Ideal) x0 x3 x4 x5 x6) (eq_ix3 i)).trans (v33_at x0 x3 x4 x5 x6 (i 0) (i 1) (i 2))

end

end Cert.ReferenceIdeal.RefIsSpec

end
-- ==== Proof.Pieces.lean ====
/-
  What each control case of the body leaves in its buffers, as the body's arithmetic of the blocks it loaded.

  A grid point's body stores the softmax weights' block, the accumulator, and (after the last head) the result block,
  each through one store that covers the whole buffer, so what a buffer holds afterwards is that store's value. The
  values are named functions of the loaded blocks: the 256 input rows of the point's query tile (`xRows`), the
  point's head's slab of the cached keys or values (`slab`), the head's weights, and what the accumulator held
  (nothing but the cleared block at a head-0 point, which stores the zero block first and reads it back).
-/
import proofs.«173047_j62036507623685_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The 256 rows of the input block that the point's query tile reads. -/
abbrev xRows (i : grid0.Coords) (x0 : Vec F S1x2048x1024 .f32) : Vec F S1x256x1024 .f32 :=
  View.ld x0 (Rect.unit (s := S1x2048x1024) (k0_off1 i) S1x256x1024.size (k0_off1_inb i))

/-- The point's head's slab `[1, 2048, 64]` of a cache `[16, 2048, 64]`. -/
abbrev slab {e : EltTy} (i : grid0.Coords) (xs : S16x2048x64.Idx → Elt F e) : S1x2048x64.Idx → Elt F e :=
  View.ld xs (Rect.unit (s := S16x2048x64) (k0_off2 i) S1x2048x64.size (k0_off2_inb i))

/-- The exponentials of the tile's scores less their row's greatest, from the loaded blocks. -/
abbrev expT (i : grid0.Coords) (x0 : Vec F S1x2048x1024 .f32) (x5 : Vec F S1x64x1024 .f32) (x6 : Vec F S1x1x64 .f32)
    (kc : Vec F S16x2048x64 .f32) : FVec F S256x2048 .f32 := k0_pay43 (xRows i x0) x5 x6 (slab i kc)
/-- Their row sums, copied along the row. -/
abbrev sumT (i : grid0.Coords) (x0 : Vec F S1x2048x1024 .f32) (x5 : Vec F S1x64x1024 .f32) (x6 : Vec F S1x1x64 .f32)
    (kc : Vec F S16x2048x64 .f32) : FVec F S256x2048 .f32 := k0_pay44 (xRows i x0) x5 x6 (slab i kc)

theorem out_B_9 (c : Dev nD) (i : grid0.Coords) (arg3 : Memref sig .tc .vmem S1x2048x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S1x1x64 .f32) (harg9 : arg9.IsWhole) (arg10 : Memref sig .tc .vmem S1x1024x64 .f32) (harg10 : arg10.IsWhole) (arg11 : Memref sig .tc .vmem S1x1024 .f32) (harg11 : arg11.IsWhole) (arg12 : Memref sig .tc .vmem S1x1x256x2048 .f32) (harg12 : arg12.IsWhole) (arg13 : Memref sig .tc .vmem S1x256x1024 .f32) (harg13 : arg13.IsWhole) (arg14 : Memref sig .tc .vmem S16x2048x64 .f32) (harg14 : arg14.IsWhole) (arg15 : Memref sig .tc .vmem S16x2048x64 .bf16) (harg15 : arg15.IsWhole) (arg16 : Memref sig .tc .vmem S256x1024 .f32) (harg16 : arg16.IsWhole) (hc0 : ¬cond0_0 i) (hc1 : ¬cond0_1 i) (hc2 : ¬cond0_2 i)
    (x0 : Vec F S1x2048x1024 .f32) (x1 : Vec F S1024x1024 .f32) (x2 : Vec F S1024x1024 .f32) (x3 : Vec F S1x1024 .f32) (x4 : Vec F S1x1024 .f32) (x5 : Vec F S1x64x1024 .f32) (x6 : Vec F S1x1x64 .f32) (x7 : Vec F S1x1024x64 .f32) (x8 : Vec F S1x1024 .f32) (xs0 : Vec F S16x2048x64 .f32) (xs1 : Vec F S16x2048x64 .bf16) (xs2 : Vec F S256x1024 .f32) :
    out0_B_9 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2 = k0_pay2 (expT i x0 x5 x6 xs0) (sumT i x0 x5 x6 xs0) := by
  unfold out0_B_9
  rw [View.read_writes_eq_canon _ _ _ (cover0_B_9 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2)]
  unfold kernelRun0_B
  dsimp only
  sl_unfold_words
  rw [View.canon_unit_zero hz4]
  simp only [View.readAt_eq_ld, harg3.read_unread, harg8.read_unread, harg9.read_unread, harg10.read_unread, harg11.read_unread, harg14.read_unread, harg15.read_unread, harg16.read_unread, View.ld_unit_zero (S := S1x64x1024) hz3, View.ld_unit_zero (S := S1x1x64) hz3, View.ld_unit_zero (S := S1x1024x64) hz3, View.ld_unit_zero (S := S1x1024) hz2, View.ld_unit_zero (S := S256x1024) hz2]
  rfl

theorem acc_B (c : Dev nD) (i : grid0.Coords) (arg3 : Memref sig .tc .vmem S1x2048x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S1x1x64 .f32) (harg9 : arg9.IsWhole) (arg10 : Memref sig .tc .vmem S1x1024x64 .f32) (harg10 : arg10.IsWhole) (arg11 : Memref sig .tc .vmem S1x1024 .f32) (harg11 : arg11.IsWhole) (arg12 : Memref sig .tc .vmem S1x1x256x2048 .f32) (harg12 : arg12.IsWhole) (arg13 : Memref sig .tc .vmem S1x256x1024 .f32) (harg13 : arg13.IsWhole) (arg14 : Memref sig .tc .vmem S16x2048x64 .f32) (harg14 : arg14.IsWhole) (arg15 : Memref sig .tc .vmem S16x2048x64 .bf16) (harg15 : arg15.IsWhole) (arg16 : Memref sig .tc .vmem S256x1024 .f32) (harg16 : arg16.IsWhole) (hc0 : ¬cond0_0 i) (hc1 : ¬cond0_1 i) (hc2 : ¬cond0_2 i)
    (x0 : Vec F S1x2048x1024 .f32) (x1 : Vec F S1024x1024 .f32) (x2 : Vec F S1024x1024 .f32) (x3 : Vec F S1x1024 .f32) (x4 : Vec F S1x1024 .f32) (x5 : Vec F S1x64x1024 .f32) (x6 : Vec F S1x1x64 .f32) (x7 : Vec F S1x1024x64 .f32) (x8 : Vec F S1x1024 .f32) (xs0 : Vec F S16x2048x64 .f32) (xs1 : Vec F S16x2048x64 .bf16) (xs2 : Vec F S256x1024 .f32) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2 = k0_pay3 (expT i x0 x5 x6 xs0) (sumT i x0 x5 x6 xs0) (slab i xs1) x7 xs2 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2)]
  unfold kernelRun0_B
  dsimp only
  sl_unfold_words
  rw [View.canon_unit_zero hz2]
  simp only [View.readAt_eq_ld, harg3.read_unread, harg8.read_unread, harg9.read_unread, harg10.read_unread, harg11.read_unread, harg14.read_unread, harg15.read_unread, harg16.read_unread, View.ld_unit_zero (S := S1x64x1024) hz3, View.ld_unit_zero (S := S1x1x64) hz3, View.ld_unit_zero (S := S1x1024x64) hz3, View.ld_unit_zero (S := S1x1024) hz2, View.ld_unit_zero (S := S256x1024) hz2]
  rfl

theorem out_C_9 (c : Dev nD) (i : grid0.Coords) (arg3 : Memref sig .tc .vmem S1x2048x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S1x1x64 .f32) (harg9 : arg9.IsWhole) (arg10 : Memref sig .tc .vmem S1x1024x64 .f32) (harg10 : arg10.IsWhole) (arg11 : Memref sig .tc .vmem S1x1024 .f32) (harg11 : arg11.IsWhole) (arg12 : Memref sig .tc .vmem S1x1x256x2048 .f32) (harg12 : arg12.IsWhole) (arg13 : Memref sig .tc .vmem S1x256x1024 .f32) (harg13 : arg13.IsWhole) (arg14 : Memref sig .tc .vmem S16x2048x64 .f32) (harg14 : arg14.IsWhole) (arg15 : Memref sig .tc .vmem S16x2048x64 .bf16) (harg15 : arg15.IsWhole) (arg16 : Memref sig .tc .vmem S256x1024 .f32) (harg16 : arg16.IsWhole) (hc0 : ¬cond0_0 i) (hc1 : ¬cond0_1 i) (hc2 : cond0_2 i)
    (x0 : Vec F S1x2048x1024 .f32) (x1 : Vec F S1024x1024 .f32) (x2 : Vec F S1024x1024 .f32) (x3 : Vec F S1x1024 .f32) (x4 : Vec F S1x1024 .f32) (x5 : Vec F S1x64x1024 .f32) (x6 : Vec F S1x1x64 .f32) (x7 : Vec F S1x1024x64 .f32) (x8 : Vec F S1x1024 .f32) (xs0 : Vec F S16x2048x64 .f32) (xs1 : Vec F S16x2048x64 .bf16) (xs2 : Vec F S256x1024 .f32) :
    out0_C_9 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2 = k0_pay2 (expT i x0 x5 x6 xs0) (sumT i x0 x5 x6 xs0) := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2)]
  unfold kernelRun0_C
  dsimp only
  sl_unfold_words
  rw [View.canon_unit_zero hz4]
  simp only [View.readAt_eq_ld, harg3.read_unread, harg8.read_unread, harg9.read_unread, harg10.read_unread, harg11.read_unread, harg14.read_unread, harg15.read_unread, harg16.read_unread, View.ld_unit_zero (S := S1x64x1024) hz3, View.ld_unit_zero (S := S1x1x64) hz3, View.ld_unit_zero (S := S1x1024x64) hz3, View.ld_unit_zero (S := S1x1024) hz2, View.ld_unit_zero (S := S256x1024) hz2]
  rfl

theorem acc_C (c : Dev nD) (i : grid0.Coords) (arg3 : Memref sig .tc .vmem S1x2048x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S1x1x64 .f32) (harg9 : arg9.IsWhole) (arg10 : Memref sig .tc .vmem S1x1024x64 .f32) (harg10 : arg10.IsWhole) (arg11 : Memref sig .tc .vmem S1x1024 .f32) (harg11 : arg11.IsWhole) (arg12 : Memref sig .tc .vmem S1x1x256x2048 .f32) (harg12 : arg12.IsWhole) (arg13 : Memref sig .tc .vmem S1x256x1024 .f32) (harg13 : arg13.IsWhole) (arg14 : Memref sig .tc .vmem S16x2048x64 .f32) (harg14 : arg14.IsWhole) (arg15 : Memref sig .tc .vmem S16x2048x64 .bf16) (harg15 : arg15.IsWhole) (arg16 : Memref sig .tc .vmem S256x1024 .f32) (harg16 : arg16.IsWhole) (hc0 : ¬cond0_0 i) (hc1 : ¬cond0_1 i) (hc2 : cond0_2 i)
    (x0 : Vec F S1x2048x1024 .f32) (x1 : Vec F S1024x1024 .f32) (x2 : Vec F S1024x1024 .f32) (x3 : Vec F S1x1024 .f32) (x4 : Vec F S1x1024 .f32) (x5 : Vec F S1x64x1024 .f32) (x6 : Vec F S1x1x64 .f32) (x7 : Vec F S1x1024x64 .f32) (x8 : Vec F S1x1024 .f32) (xs0 : Vec F S16x2048x64 .f32) (xs1 : Vec F S16x2048x64 .bf16) (xs2 : Vec F S256x1024 .f32) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2 = k0_pay3 (expT i x0 x5 x6 xs0) (sumT i x0 x5 x6 xs0) (slab i xs1) x7 xs2 := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2)]
  unfold kernelRun0_C
  dsimp only
  sl_unfold_words
  sl_unfold_run_names
  rw [View.canon_unit_zero hz2]
  simp only [View.readAt_eq_ld, harg3.read_unread, harg8.read_unread, harg9.read_unread, harg10.read_unread, harg11.read_unread, harg14.read_unread, harg15.read_unread, harg16.read_unread, View.ld_unit_zero (S := S1x64x1024) hz3, View.ld_unit_zero (S := S1x1x64) hz3, View.ld_unit_zero (S := S1x1024x64) hz3, View.ld_unit_zero (S := S1x1024) hz2, View.ld_unit_zero (S := S256x1024) hz2]
  rfl

theorem out_C_10 (c : Dev nD) (i : grid0.Coords) (arg3 : Memref sig .tc .vmem S1x2048x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S1x1x64 .f32) (harg9 : arg9.IsWhole) (arg10 : Memref sig .tc .vmem S1x1024x64 .f32) (harg10 : arg10.IsWhole) (arg11 : Memref sig .tc .vmem S1x1024 .f32) (harg11 : arg11.IsWhole) (arg12 : Memref sig .tc .vmem S1x1x256x2048 .f32) (harg12 : arg12.IsWhole) (arg13 : Memref sig .tc .vmem S1x256x1024 .f32) (harg13 : arg13.IsWhole) (arg14 : Memref sig .tc .vmem S16x2048x64 .f32) (harg14 : arg14.IsWhole) (arg15 : Memref sig .tc .vmem S16x2048x64 .bf16) (harg15 : arg15.IsWhole) (arg16 : Memref sig .tc .vmem S256x1024 .f32) (harg16 : arg16.IsWhole) (hc0 : ¬cond0_0 i) (hc1 : ¬cond0_1 i) (hc2 : cond0_2 i)
    (x0 : Vec F S1x2048x1024 .f32) (x1 : Vec F S1024x1024 .f32) (x2 : Vec F S1024x1024 .f32) (x3 : Vec F S1x1024 .f32) (x4 : Vec F S1x1024 .f32) (x5 : Vec F S1x64x1024 .f32) (x6 : Vec F S1x1x64 .f32) (x7 : Vec F S1x1024x64 .f32) (x8 : Vec F S1x1024 .f32) (xs0 : Vec F S16x2048x64 .f32) (xs1 : Vec F S16x2048x64 .bf16) (xs2 : Vec F S256x1024 .f32) :
    out0_C_10 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2 = k0_pay4 (k0_pay3 (expT i x0 x5 x6 xs0) (sumT i x0 x5 x6 xs0) (slab i xs1) x7 xs2) x8 := by
  unfold out0_C_10
  rw [View.read_writes_eq_canon _ _ _ (cover0_C_10 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2)]
  unfold kernelRun0_C
  dsimp only
  sl_unfold_words
  sl_unfold_run_names
  rw [View.canon_unit_zero hz3, View.readCov_unit_zero _ hz2]
  simp only [View.readAt_eq_ld, harg3.read_unread, harg8.read_unread, harg9.read_unread, harg10.read_unread, harg11.read_unread, harg14.read_unread, harg15.read_unread, harg16.read_unread, View.ld_unit_zero (S := S1x64x1024) hz3, View.ld_unit_zero (S := S1x1x64) hz3, View.ld_unit_zero (S := S1x1024x64) hz3, View.ld_unit_zero (S := S1x1024) hz2, View.ld_unit_zero (S := S256x1024) hz2]
  rfl

theorem out_D_9 (c : Dev nD) (i : grid0.Coords) (arg3 : Memref sig .tc .vmem S1x2048x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S1x1x64 .f32) (harg9 : arg9.IsWhole) (arg10 : Memref sig .tc .vmem S1x1024x64 .f32) (harg10 : arg10.IsWhole) (arg11 : Memref sig .tc .vmem S1x1024 .f32) (harg11 : arg11.IsWhole) (arg12 : Memref sig .tc .vmem S1x1x256x2048 .f32) (harg12 : arg12.IsWhole) (arg13 : Memref sig .tc .vmem S1x256x1024 .f32) (harg13 : arg13.IsWhole) (arg14 : Memref sig .tc .vmem S16x2048x64 .f32) (harg14 : arg14.IsWhole) (arg15 : Memref sig .tc .vmem S16x2048x64 .bf16) (harg15 : arg15.IsWhole) (arg16 : Memref sig .tc .vmem S256x1024 .f32) (harg16 : arg16.IsWhole) (hc0 : ¬cond0_0 i) (hc1 : cond0_1 i) (hc2 : ¬cond0_2 i)
    (x0 : Vec F S1x2048x1024 .f32) (x1 : Vec F S1024x1024 .f32) (x2 : Vec F S1024x1024 .f32) (x3 : Vec F S1x1024 .f32) (x4 : Vec F S1x1024 .f32) (x5 : Vec F S1x64x1024 .f32) (x6 : Vec F S1x1x64 .f32) (x7 : Vec F S1x1024x64 .f32) (x8 : Vec F S1x1024 .f32) (xs0 : Vec F S16x2048x64 .f32) (xs1 : Vec F S16x2048x64 .bf16) :
    out0_D_9 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 = k0_pay2 (expT i x0 x5 x6 xs0) (sumT i x0 x5 x6 xs0) := by
  unfold out0_D_9
  rw [View.read_writes_eq_canon _ _ _ (cover0_D_9 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1)]
  unfold kernelRun0_D
  dsimp only
  sl_unfold_words
  rw [View.canon_unit_zero hz4]
  simp only [View.readAt_eq_ld, harg3.read_unread, harg8.read_unread, harg9.read_unread, harg10.read_unread, harg11.read_unread, harg14.read_unread, harg15.read_unread, harg16.read_unread, View.ld_unit_zero (S := S1x64x1024) hz3, View.ld_unit_zero (S := S1x1x64) hz3, View.ld_unit_zero (S := S1x1024x64) hz3, View.ld_unit_zero (S := S1x1024) hz2, View.ld_unit_zero (S := S256x1024) hz2]
  rfl

theorem acc_D (c : Dev nD) (i : grid0.Coords) (arg3 : Memref sig .tc .vmem S1x2048x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S1x1x64 .f32) (harg9 : arg9.IsWhole) (arg10 : Memref sig .tc .vmem S1x1024x64 .f32) (harg10 : arg10.IsWhole) (arg11 : Memref sig .tc .vmem S1x1024 .f32) (harg11 : arg11.IsWhole) (arg12 : Memref sig .tc .vmem S1x1x256x2048 .f32) (harg12 : arg12.IsWhole) (arg13 : Memref sig .tc .vmem S1x256x1024 .f32) (harg13 : arg13.IsWhole) (arg14 : Memref sig .tc .vmem S16x2048x64 .f32) (harg14 : arg14.IsWhole) (arg15 : Memref sig .tc .vmem S16x2048x64 .bf16) (harg15 : arg15.IsWhole) (arg16 : Memref sig .tc .vmem S256x1024 .f32) (harg16 : arg16.IsWhole) (hc0 : ¬cond0_0 i) (hc1 : cond0_1 i) (hc2 : ¬cond0_2 i)
    (x0 : Vec F S1x2048x1024 .f32) (x1 : Vec F S1024x1024 .f32) (x2 : Vec F S1024x1024 .f32) (x3 : Vec F S1x1024 .f32) (x4 : Vec F S1x1024 .f32) (x5 : Vec F S1x64x1024 .f32) (x6 : Vec F S1x1x64 .f32) (x7 : Vec F S1x1024x64 .f32) (x8 : Vec F S1x1024 .f32) (xs0 : Vec F S16x2048x64 .f32) (xs1 : Vec F S16x2048x64 .bf16) :
    sout0_D_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 = k0_pay3 (expT i x0 x5 x6 xs0) (sumT i x0 x5 x6 xs0) (slab i xs1) x7 (k0_pay42 (F := F)) := by
  unfold sout0_D_2
  rw [View.read_writes_eq_canon _ _ _ (scover0_D_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1)]
  unfold kernelRun0_D
  dsimp only
  sl_unfold_words
  sl_unfold_run_names
  rw [View.canon_cons_unit_zero hz2, View.readCov_unit_zero _ hz2]
  simp only [View.readAt_eq_ld, harg3.read_unread, harg8.read_unread, harg9.read_unread, harg10.read_unread, harg11.read_unread, harg14.read_unread, harg15.read_unread, harg16.read_unread, View.ld_unit_zero (S := S1x64x1024) hz3, View.ld_unit_zero (S := S1x1x64) hz3, View.ld_unit_zero (S := S1x1024x64) hz3, View.ld_unit_zero (S := S1x1024) hz2, View.ld_unit_zero (S := S256x1024) hz2]
  rfl

/-! ## The first point of a batch: the slabs it reads are of the caches it has just stored -/

theorem keysRead_A (c : Dev nD) (i : grid0.Coords) (arg3 : Memref sig .tc .vmem S1x2048x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S1x1x64 .f32) (harg9 : arg9.IsWhole) (arg10 : Memref sig .tc .vmem S1x1024x64 .f32) (harg10 : arg10.IsWhole) (arg11 : Memref sig .tc .vmem S1x1024 .f32) (harg11 : arg11.IsWhole) (arg12 : Memref sig .tc .vmem S1x1x256x2048 .f32) (harg12 : arg12.IsWhole) (arg13 : Memref sig .tc .vmem S1x256x1024 .f32) (harg13 : arg13.IsWhole) (arg14 : Memref sig .tc .vmem S16x2048x64 .f32) (harg14 : arg14.IsWhole) (arg15 : Memref sig .tc .vmem S16x2048x64 .bf16) (harg15 : arg15.IsWhole) (arg16 : Memref sig .tc .vmem S256x1024 .f32) (harg16 : arg16.IsWhole) (hc0 : cond0_0 i) (hc1 : cond0_1 i) (hc2 : ¬cond0_2 i)
    (x0 : Vec F S1x2048x1024 .f32) (x1 : Vec F S1024x1024 .f32) (x2 : Vec F S1024x1024 .f32) (x3 : Vec F S1x1024 .f32) (x4 : Vec F S1x1024 .f32) (x5 : Vec F S1x64x1024 .f32) (x6 : Vec F S1x1x64 .f32) (x7 : Vec F S1x1024x64 .f32) (x8 : Vec F S1x1024 .f32)  :
    arg14.view.read (Elt F) (arg14.view.writes (Elt F) arg14.view.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8).2.2.1)
      = sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8), View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)]

theorem valuesRead_A (c : Dev nD) (i : grid0.Coords) (arg3 : Memref sig .tc .vmem S1x2048x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S1x1x64 .f32) (harg9 : arg9.IsWhole) (arg10 : Memref sig .tc .vmem S1x1024x64 .f32) (harg10 : arg10.IsWhole) (arg11 : Memref sig .tc .vmem S1x1024 .f32) (harg11 : arg11.IsWhole) (arg12 : Memref sig .tc .vmem S1x1x256x2048 .f32) (harg12 : arg12.IsWhole) (arg13 : Memref sig .tc .vmem S1x256x1024 .f32) (harg13 : arg13.IsWhole) (arg14 : Memref sig .tc .vmem S16x2048x64 .f32) (harg14 : arg14.IsWhole) (arg15 : Memref sig .tc .vmem S16x2048x64 .bf16) (harg15 : arg15.IsWhole) (arg16 : Memref sig .tc .vmem S256x1024 .f32) (harg16 : arg16.IsWhole) (hc0 : cond0_0 i) (hc1 : cond0_1 i) (hc2 : ¬cond0_2 i)
    (x0 : Vec F S1x2048x1024 .f32) (x1 : Vec F S1024x1024 .f32) (x2 : Vec F S1024x1024 .f32) (x3 : Vec F S1x1024 .f32) (x4 : Vec F S1x1024 .f32) (x5 : Vec F S1x64x1024 .f32) (x6 : Vec F S1x1x64 .f32) (x7 : Vec F S1x1024x64 .f32) (x8 : Vec F S1x1024 .f32)  :
    arg15.view.read (Elt F) (arg15.view.writes (Elt F) arg15.view.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8).2.2.2.1)
      = sout0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8), View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)]

theorem out_A_9 (c : Dev nD) (i : grid0.Coords) (arg3 : Memref sig .tc .vmem S1x2048x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S1x1x64 .f32) (harg9 : arg9.IsWhole) (arg10 : Memref sig .tc .vmem S1x1024x64 .f32) (harg10 : arg10.IsWhole) (arg11 : Memref sig .tc .vmem S1x1024 .f32) (harg11 : arg11.IsWhole) (arg12 : Memref sig .tc .vmem S1x1x256x2048 .f32) (harg12 : arg12.IsWhole) (arg13 : Memref sig .tc .vmem S1x256x1024 .f32) (harg13 : arg13.IsWhole) (arg14 : Memref sig .tc .vmem S16x2048x64 .f32) (harg14 : arg14.IsWhole) (arg15 : Memref sig .tc .vmem S16x2048x64 .bf16) (harg15 : arg15.IsWhole) (arg16 : Memref sig .tc .vmem S256x1024 .f32) (harg16 : arg16.IsWhole) (hc0 : cond0_0 i) (hc1 : cond0_1 i) (hc2 : ¬cond0_2 i)
    (x0 : Vec F S1x2048x1024 .f32) (x1 : Vec F S1024x1024 .f32) (x2 : Vec F S1024x1024 .f32) (x3 : Vec F S1x1024 .f32) (x4 : Vec F S1x1024 .f32) (x5 : Vec F S1x64x1024 .f32) (x6 : Vec F S1x1x64 .f32) (x7 : Vec F S1x1024x64 .f32) (x8 : Vec F S1x1024 .f32)  :
    out0_A_9 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 = k0_pay2 (expT i x0 x5 x6 (sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)) (sumT i x0 x5 x6 (sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)) := by
  rw [← keysRead_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8]
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)]
  unfold kernelRun0_A
  dsimp only
  sl_unfold_words
  rw [View.canon_unit_zero hz4]
  simp only [View.readAt_eq_ld, harg3.read_unread, harg8.read_unread, harg9.read_unread, harg10.read_unread, harg11.read_unread, harg14.read_unread, harg15.read_unread, harg16.read_unread, View.ld_unit_zero (S := S1x64x1024) hz3, View.ld_unit_zero (S := S1x1x64) hz3, View.ld_unit_zero (S := S1x1024x64) hz3, View.ld_unit_zero (S := S1x1024) hz2, View.ld_unit_zero (S := S256x1024) hz2]
  rfl

theorem acc_A (c : Dev nD) (i : grid0.Coords) (arg3 : Memref sig .tc .vmem S1x2048x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S1x1x64 .f32) (harg9 : arg9.IsWhole) (arg10 : Memref sig .tc .vmem S1x1024x64 .f32) (harg10 : arg10.IsWhole) (arg11 : Memref sig .tc .vmem S1x1024 .f32) (harg11 : arg11.IsWhole) (arg12 : Memref sig .tc .vmem S1x1x256x2048 .f32) (harg12 : arg12.IsWhole) (arg13 : Memref sig .tc .vmem S1x256x1024 .f32) (harg13 : arg13.IsWhole) (arg14 : Memref sig .tc .vmem S16x2048x64 .f32) (harg14 : arg14.IsWhole) (arg15 : Memref sig .tc .vmem S16x2048x64 .bf16) (harg15 : arg15.IsWhole) (arg16 : Memref sig .tc .vmem S256x1024 .f32) (harg16 : arg16.IsWhole) (hc0 : cond0_0 i) (hc1 : cond0_1 i) (hc2 : ¬cond0_2 i)
    (x0 : Vec F S1x2048x1024 .f32) (x1 : Vec F S1024x1024 .f32) (x2 : Vec F S1024x1024 .f32) (x3 : Vec F S1x1024 .f32) (x4 : Vec F S1x1024 .f32) (x5 : Vec F S1x64x1024 .f32) (x6 : Vec F S1x1x64 .f32) (x7 : Vec F S1x1024x64 .f32) (x8 : Vec F S1x1024 .f32)  :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8
      = k0_pay3 (expT i x0 x5 x6 (sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)) (sumT i x0 x5 x6 (sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)) (slab i (sout0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)) x7 (k0_pay42 (F := F)) := by
  rw [← keysRead_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8, ← valuesRead_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8]
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)]
  unfold kernelRun0_A
  dsimp only
  sl_unfold_words
  sl_unfold_run_names
  rw [View.canon_cons_unit_zero hz2, View.readCov_unit_zero _ hz2]
  simp only [View.readAt_eq_ld, harg3.read_unread, harg8.read_unread, harg9.read_unread, harg10.read_unread, harg11.read_unread, harg14.read_unread, harg15.read_unread, harg16.read_unread, View.ld_unit_zero (S := S1x64x1024) hz3, View.ld_unit_zero (S := S1x1x64) hz3, View.ld_unit_zero (S := S1x1024x64) hz3, View.ld_unit_zero (S := S1x1024) hz2, View.ld_unit_zero (S := S256x1024) hz2]
  rfl

/-! ## The two offset loads at coordinates -/

/-- Row `q` of the query tile is row `256 · (the point's tile) + q` of the input block. -/
theorem xRows_apply (i : grid0.Coords) (x0 : Vec F S1x2048x1024 .f32) (q : Fin 256) (c' : Fin 1024) (r : Fin 2048)
    (hr : r.val = 256 * (i 1).val + q.val) :
    xRows i x0 (Idealize.ShloMosaic.ValueIdx.ix3 (0 : Fin 1) q c') = x0 (Idealize.ShloMosaic.ValueIdx.ix3 (0 : Fin 1) r c') := by
  show x0 _ = x0 _
  refine congrArg x0 (funext fun a => Fin.ext ?_)
  match a with
  | ⟨0, _⟩ => show k0_off1 i 0 + 1 * 0 = 0; rw [k0_off1_eq]; rfl
  | ⟨1, _⟩ => show k0_off1 i 1 + 1 * q.val = r.val; rw [k0_off1_eq, hr]; show 256 * (i 1).val + 1 * q.val = _; omega
  | ⟨2, _⟩ => show k0_off1 i 2 + 1 * c'.val = c'.val; rw [k0_off1_eq]; show 0 + 1 * c'.val = _; omega

/-- The slab read is slab `h` of the cache, `h` the point's head. -/
theorem slab_apply {e : EltTy} (i : grid0.Coords) (xs : S16x2048x64.Idx → Elt F e) (h : Fin 16) (hh : h.val = (i 2).val)
    (k : Fin 2048) (d : Fin 64) :
    slab i xs (Idealize.ShloMosaic.ValueIdx.ix3 (0 : Fin 1) k d) = xs (Idealize.ShloMosaic.ValueIdx.ix3 h k d) := by
  show xs _ = xs _
  refine congrArg xs (funext fun a => Fin.ext ?_)
  match a with
  | ⟨0, _⟩ => show k0_off2 i 0 + 1 * 0 = h.val; rw [k0_off2_eq, hh]; rfl
  | ⟨1, _⟩ => show k0_off2 i 1 + 1 * k.val = k.val; rw [k0_off2_eq]; show 0 + 1 * k.val = _; omega
  | ⟨2, _⟩ => show k0_off2 i 2 + 1 * d.val = d.val; rw [k0_off2_eq]; show 0 + 1 * d.val = _; omega

end Cert.KernelIdeal.Pieces

end
-- ==== Proof.LibRowsTimesRows.lean ====
/-
  A product of an `R × n` matrix with the rows of a `k × n` matrix, read at an index, over the extended reals.

  When both operands are contracted on their SECOND axis (no batch axis) — the product `A · Bᵀ` taken without
  materialising the transpose — a product accumulated into the zero matrix is, at row `q` and column `o`, the sum
  over `c : Fin n` of `A (q, c) * B (o, c)`: the zero accumulator contributes `0 + _`, and the contraction index, a
  one-axis multi-index, is re-indexed by its one coordinate. The statement quantifies over the well-formedness proof
  only, so it applies to any record with these six lists. Nothing here needs an entry to be finite.
-/
import Idealize.ShloMosaic.PureOps.Ideal
import Idealize.ShloMosaic.PureOps.Ideal.Laws
import Idealize.ShloMosaic.Lib.ValueIdx

noncomputable section

namespace Cert.RowsTimesRows

open Idealize.ShloMosaic Idealize.ShloMosaic.ValueIdx

/-- The dimension numbers of `A · Bᵀ` for `A : R × n` and `B : k × n`, for any proof that they are well formed. -/
abbrev rowsDims (R n k : Nat)
    (wf : DotDims.WF (⟨2, ![R, n]⟩ : Shape) ⟨2, ![k, n]⟩ ⟨2, ![R, k]⟩ [1] [1] [0] [0] [] []) :
    DotDims (⟨2, ![R, n]⟩ : Shape) ⟨2, ![k, n]⟩ ⟨2, ![R, k]⟩ :=
  { lhsContracting := [1], rhsContracting := [1], lhsNonContracting := [0], rhsNonContracting := [0],
    lhsBatch := [], rhsBatch := [], wf := wf }

theorem rowsDims_contr_rank {R n k : Nat} (wf) : (rowsDims R n k wf).contr.rank = 1 := rfl

theorem rowsDims_contr_size {R n k : Nat} (wf) :
    (rowsDims R n k wf).contr.size ⟨0, by rw [rowsDims_contr_rank]; exact Nat.one_pos⟩ = n := rfl

/-- The contraction index of such a product is one coordinate in `Fin n`. -/
abbrev rowsContr {R n k : Nat} (wf) : (rowsDims R n k wf).contr.Idx ≃ Fin n :=
  contrEquiv1 (rowsDims R n k wf) n (rowsDims_contr_rank wf) (rowsDims_contr_size wf)

/-- The left operand's index at output `(q, o)` and contraction coordinate `c` is `(q, c)`. -/
theorem rowsDims_lhsIdx {R n k : Nat} (wf) (q : Fin R) (o : Fin k) (c : Fin n) :
    (rowsDims R n k wf).lhsIdx (ix2 q o) ((rowsContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (rowsDims R n k wf).lhsBatch from List.not_mem_nil),
      dif_pos (show (⟨0, h0⟩ : Fin (⟨2, ![R, n]⟩ : Shape).rank) ∈ (rowsDims R n k wf).lhsNonContracting from
        List.mem_singleton.mpr rfl)]
    rfl
  | ⟨1, h1⟩ =>
    exact ((rowsDims R n k wf).lhsIdx_val_of_single (cl := ⟨1, h1⟩) rfl _ _).trans
      (contrEquiv1_symm_val (rowsDims R n k wf) n (rowsDims_contr_rank wf) (rowsDims_contr_size wf) c)

/-- The right operand's index there is `(o, c)`: its first axis is the output's second. -/
theorem rowsDims_rhsIdx {R n k : Nat} (wf) (q : Fin R) (o : Fin k) (c : Fin n) :
    (rowsDims R n k wf).rhsIdx (ix2 q o) ((rowsContr wf).symm c) = ix2 o c := by
  funext a
  apply Fin.ext
  match a with
  | ⟨0, h0⟩ =>
    unfold DotDims.rhsIdx
    rw [dif_neg (show ¬(⟨0, h0⟩ : Fin (⟨2, ![k, n]⟩ : Shape).rank) ∈ (rowsDims R n k wf).rhsBatch from List.not_mem_nil),
      dif_pos (show (⟨0, h0⟩ : Fin (⟨2, ![k, n]⟩ : Shape).rank) ∈ (rowsDims R n k wf).rhsNonContracting from
        List.mem_singleton.mpr rfl)]
    rfl
  | ⟨1, h1⟩ =>
    exact ((rowsDims R n k wf).rhsIdx_val_of_single (cr := ⟨1, h1⟩) rfl _ _).trans
      (contrEquiv1_symm_val (rowsDims R n k wf) n (rowsDims_contr_rank wf) (rowsDims_contr_size wf) c)

/-- A product `A · Bᵀ` accumulated into the zero matrix, at `(q, o)`: the sum over the shared second axis. -/
theorem rowsMatmul_zero_apply {R n k : Nat} {φ₁ φ₂ : FTy} (wf) (prec : Option ContractPrecision)
    (A : FVec Ideal (⟨2, ![R, n]⟩ : Shape) φ₁) (B : FVec Ideal (⟨2, ![k, n]⟩ : Shape) φ₂) (q : Fin R) (o : Fin k) :
    FloatOps.matmul (rowsDims R n k wf) prec A B (constant (F := Ideal) (⟨2, ![R, k]⟩ : Shape) .f32 0x00000000#32) (ix2 q o)
      = ∑ c : Fin n, A (ix2 q c) * B (ix2 o c) := by
  rw [Ideal.matmul_constant_zero_apply, ← Equiv.sum_comp (rowsContr wf).symm]
  refine Finset.sum_congr rfl fun c _ => ?_
  rw [rowsDims_lhsIdx, rowsDims_rhsIdx]

end Cert.RowsTimesRows

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.HeadStep.lean ====
/-
  One grid point's arithmetic, entry by entry, over the extended reals.

  At a grid point the body holds 256 rows of the input (`xq`), one head's query weight (`wq`, 64 rows) and bias
  (`bq`), that head's 64 key lanes for all 2048 tokens (`kc`) and value lanes (`vc`), and the head's slab of the
  output weight (`ow`). It forms the scaled queries, the scores against every key, each row's greatest score, the
  exponentials of the scores less that, their row sums and the quotients (the softmax weights), then the weighted sum
  of the values and its product with the output weight's slab, added to what the accumulator held. Each of those is read
  here at explicit coordinates as the textbook sum. The first point of a batch also forms the keys and values of every
  feature from the whole input block: one sum per entry plus a bias, and head `h`'s lanes are features `64 h + d`.
-/
import proofs.«173047_j62036507623685_2_alg».proof.Proof.Gen.KernelIdeal.Skeleton
import proofs.«173047_j62036507623685_2_alg».proof.Proof.LibRowsTimesRows
import proofs.«173047_j62036507623685_2_alg».proof.Proof.LibPlainMatmul
import proofs.«173047_j62036507623685_2_alg».proof.Proof.LibRowForms
import proofs.«173047_j62036507623685_2_alg».proof.Proof.LibColumnForms
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KernelIdeal.HeadStep

open Cert.KernelIdeal Cert.KernelIdeal.Gen Idealize.ShloMosaic Idealize.ShloMosaic.ValueIdx

/-! ## The four products read at an entry -/

theorem qProduct_apply (A : FVec Ideal S256x1024 .f32) (B : FVec Ideal S64x1024 .f32) (q : Fin 256) (d : Fin 64) :
    matmul dot_S256x1024_S64x1024_S256x64_1_1_0_0_n_n (some .fp32) A B (constant S256x64 .f32 0x00000000#32) (ix2 q d)
      = ∑ c : Fin 1024, A (ix2 q c) * B (ix2 d c) :=
  Cert.RowsTimesRows.rowsMatmul_zero_apply dot_S256x1024_S64x1024_S256x64_1_1_0_0_n_n_wf (some .fp32) A B q d

theorem scoreProduct_apply (A : FVec Ideal S256x64 .f32) (B : FVec Ideal S2048x64 .f32) (q : Fin 256) (k : Fin 2048) :
    matmul dot_S256x64_S2048x64_S256x2048_1_1_0_0_n_n (some .fp32) A B (constant S256x2048 .f32 0x00000000#32) (ix2 q k)
      = ∑ d : Fin 64, A (ix2 q d) * B (ix2 k d) :=
  Cert.RowsTimesRows.rowsMatmul_zero_apply dot_S256x64_S2048x64_S256x2048_1_1_0_0_n_n_wf (some .fp32) A B q k

theorem valueProduct_apply (A : FVec Ideal S256x2048 .bf16) (B : FVec Ideal S2048x64 .bf16) (q : Fin 256) (d : Fin 64) :
    matmul dot_S256x2048_S2048x64_S256x64_1_0_0_1_n_n none A B (constant S256x64 .f32 0x00000000#32) (ix2 q d)
      = ∑ k : Fin 2048, A (ix2 q k) * B (ix2 k d) :=
  Cert.PointConv.plainMatmul_zero_apply dot_S256x2048_S2048x64_S256x64_1_0_0_1_n_n_wf none A B q d

theorem outProduct_apply (A : FVec Ideal S256x64 .bf16) (B : FVec Ideal S64x1024 .bf16) (q : Fin 256) (f : Fin 1024) :
    matmul dot_S256x64_S64x1024_S256x1024_1_0_0_1_n_n none A B (constant S256x1024 .f32 0x00000000#32) (ix2 q f)
      = ∑ d : Fin 64, A (ix2 q d) * B (ix2 d f) :=
  Cert.PointConv.plainMatmul_zero_apply dot_S256x64_S64x1024_S256x1024_1_0_0_1_n_n_wf none A B q f

theorem keyProduct_apply (A : FVec Ideal S2048x1024 .f32) (B : FVec Ideal S1024x1024 .f32) (s : Fin 2048) (e : Fin 1024) :
    matmul dot_S2048x1024_S1024x1024_S2048x1024_1_1_0_0_n_n (some .fp32) A B (constant S2048x1024 .f32 0x00000000#32) (ix2 s e)
      = ∑ c : Fin 1024, A (ix2 s c) * B (ix2 e c) :=
  Cert.RowsTimesRows.rowsMatmul_zero_apply dot_S2048x1024_S1024x1024_S2048x1024_1_1_0_0_n_n_wf (some .fp32) A B s e

theorem valProduct_apply (A : FVec Ideal S2048x1024 .bf16) (B : FVec Ideal S1024x1024 .bf16) (s : Fin 2048) (e : Fin 1024) :
    matmul dot_S2048x1024_S1024x1024_S2048x1024_1_0_0_1_n_n none A B (constant S2048x1024 .f32 0x00000000#32) (ix2 s e)
      = ∑ c : Fin 1024, A (ix2 s c) * B (ix2 c e) :=
  Cert.PointConv.plainMatmul_zero_apply dot_S2048x1024_S1024x1024_S2048x1024_1_0_0_1_n_n_wf none A B s e

/-- A matrix laid out as `[1, 1, a, b]` reads, at `(u, u', i, j)`, the matrix at `(i, j)`. -/
theorem cast_ab_11ab_apply {α : Type} {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']; simp)

/-! ## Queries, scores and softmax weights of the tile -/

section Tile
variable (xq : Vec Ideal S1x256x1024 .f32) (wq : Vec Ideal S1x64x1024 .f32) (bq : Vec Ideal S1x1x64 .f32)
  (kc : Vec Ideal S1x2048x64 .f32)

/-- The scaled queries of the tile's 256 rows. -/
def qTile : FVec Ideal S256x64 .f32 :=
  mulf (addf (matmul dot_S256x1024_S64x1024_S256x64_1_1_0_0_n_n (some .fp32)
        (shapeCast S256x1024 xq shapeCasts_S1x256x1024_S256x1024 : FVec Ideal S256x1024 .f32)
        (shapeCast S64x1024 wq shapeCasts_S1x64x1024_S64x1024 : FVec Ideal S64x1024 .f32)
        (constant S256x64 .f32 0x00000000#32))
      (broadcastTo S256x64 (shapeCast S1x64 bq shapeCasts_S1x1x64_S1x64 : FVec Ideal S1x64 .f32) broadcasts_S1x64_S256x64))
    (broadcast S256x64 (Scalar.ofBits .f32 0x3E000000#32))

theorem qTile_apply (q : Fin 256) (d : Fin 64) :
    qTile xq wq bq (ix2 q d)
      = ((∑ c : Fin 1024, xq (ix3 (0 : Fin 1) q c) * wq (ix3 (0 : Fin 1) d c)) + bq (ix3 (0 : Fin 1) (0 : Fin 1) d))
          * Ideal.ofBits .f32 0x3E000000#32 := by
  unfold qTile
  rw [mulf_apply, addf_apply, broadcast_apply, qProduct_apply, broadcastTo_1b_ab_apply, shapeCast_1ab_ab_apply]
  congr 2
  exact Finset.sum_congr rfl fun c _ => by rw [shapeCast_1ab_ab_apply, shapeCast_1ab_ab_apply]

/-- The scores of the tile's rows against every key token. -/
def sTile : FVec Ideal S256x2048 .f32 :=
  matmul dot_S256x64_S2048x64_S256x2048_1_1_0_0_n_n (some .fp32) (qTile xq wq bq)
    (shapeCast S2048x64 kc shapeCasts_S1x2048x64_S2048x64 : FVec Ideal S2048x64 .f32) (constant S256x2048 .f32 0x00000000#32)

theorem sTile_apply (q : Fin 256) (k : Fin 2048) :
    sTile xq wq bq kc (ix2 q k) = ∑ d : Fin 64, qTile xq wq bq (ix2 q d) * kc (ix3 (0 : Fin 1) k d) := by
  unfold sTile
  rw [scoreProduct_apply]
  exact Finset.sum_congr rfl fun d _ => by rw [shapeCast_1ab_ab_apply]

/-- Each row's greatest score. -/
def mTile : FVec Ideal S256 .f32 :=
  multiReduction .maximumf [1] S256 (sTile xq wq bq kc) 0xFF800000#32 reduces_S256x2048_S256 (.inl rfl) rfl

theorem mTile_apply (q : Fin 256) :
    mTile xq wq bq kc (ix1 q)
      = (Finset.univ : Finset (Fin 2048)).fold max (Ideal.ofBits .f32 0xFF800000#32) (fun k => sTile xq wq bq kc (ix2 q k)) :=
  Cert.RowForms.multiReduction_max_rows (sTile xq wq bq kc) reduces_S256x2048_S256 q

/-- The exponentials of the scores less their row's greatest. -/
def eTile : FVec Ideal S256x2048 .f32 :=
  exp (subf (sTile xq wq bq kc)
    (broadcastTo S256x2048 (shapeCast S256x1 (mTile xq wq bq kc) shapeCasts_S256_S256x1) broadcasts_S256x1_S256x2048))

theorem eTile_apply (q : Fin 256) (k : Fin 2048) :
    eTile xq wq bq kc (ix2 q k) = Ideal.exp (sTile xq wq bq kc (ix2 q k) - mTile xq wq bq kc (ix1 q)) := by
  unfold eTile
  show Ideal.exp (sTile xq wq bq kc (ix2 q k) - broadcastTo S256x2048 _ broadcasts_S256x1_S256x2048 (ix2 q k)) = _
  rw [Cert.ColumnForms.broadcastTo_a1_ab_apply, Cert.ColumnForms.shapeCast_a_a1_apply]

/-- The row sums of the exponentials. -/
def lTile : FVec Ideal S256 .f32 :=
  multiReduction .add [1] S256 (eTile xq wq bq kc) 0x00000000#32 reduces_S256x2048_S256 (.inl rfl) rfl

theorem lTile_apply (q : Fin 256) : lTile xq wq bq kc (ix1 q) = ∑ k : Fin 2048, eTile xq wq bq kc (ix2 q k) :=
  Cert.RowForms.multiReduction_add_rows (eTile xq wq bq kc) reduces_S256x2048_S256 q

set_option maxRecDepth 65536 in
theorem pay43_eq : k0_pay43 xq wq bq kc = eTile xq wq bq kc := rfl

theorem pay44_apply (q : Fin 256) (k : Fin 2048) :
    k0_pay44 xq wq bq kc (ix2 q k) = ∑ k' : Fin 2048, eTile xq wq bq kc (ix2 q k') := by
  show broadcastTo S256x2048 (shapeCast S256x1 (lTile xq wq bq kc) shapeCasts_S256_S256x1) broadcasts_S256x1_S256x2048 (ix2 q k) = _
  rw [Cert.ColumnForms.broadcastTo_a1_ab_apply, Cert.ColumnForms.shapeCast_a_a1_apply, lTile_apply]

end Tile

/-! ## The stored blocks -/

/-- The softmax weights' block: the quotient of each exponential by its row's sum. -/
theorem pay2_apply (v30 v33 : FVec Ideal S256x2048 .f32) (u u' : Fin 1) (q : Fin 256) (k : Fin 2048) :
    k0_pay2 v30 v33 (ix4 u u' q k) = Ideal.div (v30 (ix2 q k)) (v33 (ix2 q k)) := by
  unfold k0_pay2 k0_pay1
  rw [cast_ab_11ab_apply, divf_apply]

/-- The head's output at the tile: the weighted sum of the value lanes. -/
def aoTile (v30 v33 : FVec Ideal S256x2048 .f32) (vc : Vec Ideal S1x2048x64 .bf16) : FVec Ideal S256x64 .f32 :=
  matmul dot_S256x2048_S2048x64_S256x64_1_0_0_1_n_n none (truncf .bf16 (k0_pay1 v30 v33) bitsLt_bf16_f32)
    (shapeCast S2048x64 vc shapeCasts_S1x2048x64_S2048x64 : FVec Ideal S2048x64 .bf16) (constant S256x64 .f32 0x00000000#32)

theorem aoTile_apply (v30 v33 : FVec Ideal S256x2048 .f32) (vc : Vec Ideal S1x2048x64 .bf16) (q : Fin 256) (d : Fin 64) :
    aoTile v30 v33 vc (ix2 q d)
      = ∑ k : Fin 2048, Ideal.div (v30 (ix2 q k)) (v33 (ix2 q k)) * vc (ix3 (0 : Fin 1) k d) := by
  unfold aoTile
  rw [valueProduct_apply]
  exact Finset.sum_congr rfl fun k _ => by rw [truncf_apply, shapeCast_1ab_ab_apply]; rfl

/-- The accumulator after the point: what it held plus the head's output times the output weight's slab. -/
theorem pay3_apply (v30 v33 : FVec Ideal S256x2048 .f32) (vc : Vec Ideal S1x2048x64 .bf16) (ow : Vec Ideal S1x1024x64 .f32)
    (acc : Vec Ideal S256x1024 .f32) (q : Fin 256) (f : Fin 1024) :
    k0_pay3 v30 v33 vc ow acc (ix2 q f)
      = acc (ix2 q f) + ∑ d : Fin 64, aoTile v30 v33 vc (ix2 q d) * ow (ix3 (0 : Fin 1) f d) := by
  show shapeCast S256x1024 (addf acc (matmul dot_S256x64_S64x1024_S256x1024_1_0_0_1_n_n none
      (truncf .bf16 (aoTile v30 v33 vc) bitsLt_bf16_f32)
      (transpose S64x1024 [1, 0] (truncf .bf16 (shapeCast S1024x64 ow shapeCasts_S1x1024x64_S1024x64 : FVec Ideal S1024x64 .f32) bitsLt_bf16_f32)
        transposes_S1024x64_p1_0_S64x1024)
      (constant S256x1024 .f32 0x00000000#32))) shapeCasts_S256x1024_S256x1024 (ix2 q f) = _
  rw [shapeCast_self, addf_apply, outProduct_apply]
  congr 1
  exact Finset.sum_congr rfl fun d _ => by
    rw [truncf_apply, transpose_ix2_apply, truncf_apply, shapeCast_1ab_ab_apply]

/-- The result block: the accumulator plus the output bias copied down the rows. -/
theorem pay4_apply (acc : Vec Ideal S256x1024 .f32) (ob : Vec Ideal S1x1024 .f32) (u : Fin 1) (q : Fin 256) (f : Fin 1024) :
    k0_pay4 acc ob (ix3 u q f) = acc (ix2 q f) + ob (ix2 (0 : Fin 1) f) := by
  unfold k0_pay4
  rw [shapeCast_ab_1ab_apply, addf_apply, broadcastTo_1b_ab_apply, shapeCast_self]

/-- The cleared accumulator. -/
theorem pay42_apply (q : Fin 256) (f : Fin 1024) : k0_pay42 (F := Ideal) (ix2 q f) = 0 := by
  unfold k0_pay42
  rw [shapeCast_self, broadcast_apply]
  exact Ideal.ofBits_zero_f32

/-! ## The keys and values of a batch -/

theorem pay6_apply (x : Vec Ideal S1x2048x1024 .f32) (wk : Vec Ideal S1024x1024 .f32) (bk : Vec Ideal S1x1024 .f32)
    (s : Fin 2048) (e : Fin 1024) :
    k0_pay6 x wk bk (ix2 s e) = (∑ c : Fin 1024, x (ix3 (0 : Fin 1) s c) * wk (ix2 e c)) + bk (ix2 (0 : Fin 1) e) := by
  unfold k0_pay6 k0_pay5
  rw [addf_apply, keyProduct_apply, broadcastTo_1b_ab_apply, shapeCast_self, shapeCast_self]
  congr 1
  exact Finset.sum_congr rfl fun c _ => by rw [shapeCast_1ab_ab_apply]

theorem pay7_apply (x : Vec Ideal S1x2048x1024 .f32) (wv : Vec Ideal S1024x1024 .f32) (bv : Vec Ideal S1x1024 .f32)
    (s : Fin 2048) (e : Fin 1024) :
    k0_pay7 x wv bv (ix2 s e) = (∑ c : Fin 1024, x (ix3 (0 : Fin 1) s c) * wv (ix2 e c)) + bv (ix2 (0 : Fin 1) e) := by
  unfold k0_pay7 k0_pay5
  rw [truncf_apply, addf_apply, valProduct_apply, broadcastTo_1b_ab_apply, shapeCast_self, shapeCast_self]
  congr 1
  exact Finset.sum_congr rfl fun c _ => by
    rw [truncf_apply, shapeCast_1ab_ab_apply, transpose_ix2_apply, truncf_apply]

/-- Sixty-four consecutive columns of a `[2048, 1024]` matrix, laid out as `[1, 2048, 64]`: at `(u, s, d)` the matrix at
    `(s, off + d)`. -/
theorem headSlice_apply {φ : FTy} (v : FVec Ideal S2048x1024 φ) (off : ℕ) (h : S2048x1024.Slices ![0, off] S2048x64)
    (h' : S2048x64.ShapeCasts S1x2048x64) (u : Fin 1) (s : Fin 2048) (d : Fin 64) (e : Fin 1024) (he : e.val = off + d.val) :
    shapeCast S1x2048x64 (extractStridedSlice S2048x64 ![0, off] v h) h' (ix3 u s d) = v (ix2 s e) := by
  rw [shapeCast_ab_1ab_apply]
  exact slice2_axis1_apply off v h s d e he

end Cert.KernelIdeal.HeadStep

end
-- ==== Proof.LibBlockedSum.lean ====
/-
  A finite sum taken block by block: an axis of `n = nb · bs` positions cut into `nb` consecutive blocks of `bs`.

  `blkIdx hn bs k q` is position `q` of block `k` (that is `bs · k + q`), `blockSum hn bs g k` the sum of `g` over block
  `k`, and `partialSum hn bs g k` the sum over the blocks `0 … k`.  In any commutative monoid the partial sums obey the
  recurrence of an accumulator that adds one block per step (`partialSum_zero`, `partialSum_succ`), and the partial
  sum after the last block is the sum over the whole axis (`partialSum_last`): the pairs (block, position in the
  block) enumerate the axis exactly once.  Only associativity and commutativity of the addition are used, so all of
  this holds on the extended reals as it stands, with no finiteness assumption.  This is the arithmetic of a matrix
  product whose contracted axis is visited block by block into an accumulator.
-/
import Mathlib.Algebra.BigOperators.Fin
import Mathlib.Algebra.BigOperators.Intervals
import Mathlib.Logic.Equiv.Fin.Basic

namespace BlockedSum

/-- Position `q` of block `k` on an axis of `n` positions cut into blocks of `bs` (reduced modulo `n` so that it is a
    position for every `k`; for a block that exists nothing is reduced: `blkIdx_val`). -/
def blkIdx {n : ℕ} (hn : 0 < n) (bs : ℕ) (k : ℕ) (q : Fin bs) : Fin n := ⟨(bs * k + q.val) % n, Nat.mod_lt _ hn⟩

theorem blkIdx_val {n nb bs : ℕ} (hn : 0 < n) (h : nb * bs = n) {k : ℕ} (hk : k < nb) (q : Fin bs) :
    (blkIdx hn bs k q).val = bs * k + q.val := by
  show (bs * k + q.val) % n = _
  apply Nat.mod_eq_of_lt
  have hq := q.isLt
  calc bs * k + q.val < bs * k + bs := by omega
    _ = bs * (k + 1) := (Nat.mul_succ bs k).symm
    _ ≤ bs * nb := Nat.mul_le_mul_left bs hk
    _ = n := by rw [Nat.mul_comm]; exact h

/-- The pairs (block, position in the block) are the positions of the axis. -/
def blkEquiv {n nb bs : ℕ} (h : nb * bs = n) : Fin nb × Fin bs ≃ Fin n := finProdFinEquiv.trans (finCongr h)

theorem blkEquiv_apply {n nb bs : ℕ} (hn : 0 < n) (h : nb * bs = n) (k : Fin nb) (q : Fin bs) :
    blkEquiv h (k, q) = blkIdx hn bs k.val q := by
  apply Fin.ext
  rw [blkIdx_val hn h k.isLt]
  show q.val + bs * k.val = _
  omega

variable {M : Type*} [AddCommMonoid M] {n : ℕ}

/-- The sum of `g` over block `k`. -/
def blockSum (hn : 0 < n) (bs : ℕ) (g : Fin n → M) (k : ℕ) : M := ∑ q : Fin bs, g (blkIdx hn bs k q)

/-- The sum of `g` over the blocks `0 … k`. -/
def partialSum (hn : 0 < n) (bs : ℕ) (g : Fin n → M) (k : ℕ) : M := ∑ k' ∈ Finset.range (k + 1), blockSum hn bs g k'

theorem partialSum_zero (hn : 0 < n) (bs : ℕ) (g : Fin n → M) : partialSum hn bs g 0 = blockSum hn bs g 0 := by
  unfold partialSum
  rw [Finset.sum_range_one]

theorem partialSum_succ (hn : 0 < n) (bs : ℕ) (g : Fin n → M) (k : ℕ) :
    partialSum hn bs g (k + 1) = partialSum hn bs g k + blockSum hn bs g (k + 1) := by
  unfold partialSum
  rw [Finset.sum_range_succ]

/-- All the blocks together are the whole axis. -/
theorem partialSum_last {nb bs : ℕ} (hn : 0 < n) (h : nb * bs = n) (g : Fin n → M) {k : ℕ} (hk : k + 1 = nb) :
    partialSum hn bs g k = ∑ i : Fin n, g i := by
  unfold partialSum
  rw [hk]
  calc ∑ k' ∈ Finset.range nb, blockSum hn bs g k'
      = ∑ k' : Fin nb, blockSum hn bs g k'.val := (Fin.sum_univ_eq_sum_range (fun k' => blockSum hn bs g k') nb).symm
    _ = ∑ k' : Fin nb, ∑ q : Fin bs, g (blkEquiv h (k', q)) := by simp only [blockSum, blkEquiv_apply hn h]
    _ = ∑ p : Fin nb × Fin bs, g (blkEquiv h p) := (Fintype.sum_prod_type (fun p : Fin nb × Fin bs => g (blkEquiv h p))).symm
    _ = ∑ i : Fin n, g i := (blkEquiv h).sum_comp g

end BlockedSum
-- ==== Proof.OutAccum.lean ====
/-
  The output projection taken head by head.

  The result's entry is a sum over the 1024 features of the heads' outputs laid side by side. Feature `64 h + d` is lane
  `d` of head `h`, so the 1024 terms fall into 16 consecutive blocks of 64, block `h` being head `h`'s own product with
  its slab of the output weight. An accumulator that starts from head 0's block and adds one head's block per step
  holds, after head `h`, the sum of the blocks `0 … h`, and after head 15 the whole sum. Only the associativity and
  commutativity of the addition of the extended reals are used: no entry is assumed finite.
-/
import proofs.«173047_j62036507623685_2_alg».proof.Proof.AttnSpec
import proofs.«173047_j62036507623685_2_alg».proof.Proof.LibBlockedSum

noncomputable section

open scoped BigOperators

namespace Cert.AttnSpec

section
variable (x : Fin 2 → Fin 2048 → Fin 1024 → EReal)
variable (wq : Fin 16 → Fin 64 → Fin 1024 → EReal) (bq : Fin 16 → Fin 64 → EReal)
variable (wk : Fin 1024 → Fin 1024 → EReal) (bk : Fin 1024 → EReal)
variable (wv : Fin 1024 → Fin 1024 → EReal) (bv : Fin 1024 → EReal)
variable (wo : Fin 16 → Fin 1024 → Fin 64 → EReal) (bo : Fin 1024 → EReal)

theorem pos1024 : 0 < 1024 := by decide

/-- Position `d` of block `h` of the 1024 features is feature `64 h + d`. -/
theorem blkIdx_eq_col (h : Fin 16) (d : Fin 64) : BlockedSum.blkIdx pos1024 64 h.val d = col h d :=
  Fin.ext (BlockedSum.blkIdx_val (nb := 16) pos1024 rfl h.isLt d)

/-- Head `h`'s contribution to entry `(q, f)`: its output times its slab of the output weight. -/
def headTerm (b : Fin 2) (q : Fin 2048) (f : Fin 1024) (h : Fin 16) : EReal :=
  ∑ d : Fin 64, headOut x wq bq wk bk wv bv b h q d * wo h f d

/-- Block `h` of the projection's terms is head `h`'s contribution. -/
theorem blockSum_outTerm (b : Fin 2) (q : Fin 2048) (f : Fin 1024) (h : Fin 16) :
    BlockedSum.blockSum pos1024 64 (fun e => outTerm x wq bq wk bk wv bv wo b q f e) h.val
      = headTerm x wq bq wk bk wv bv wo b q f h := by
  unfold BlockedSum.blockSum headTerm
  refine Finset.sum_congr rfl fun d _ => ?_
  rw [blkIdx_eq_col]
  unfold outTerm
  dsimp only
  rw [headOf_col, laneOf_col]

/-- The accumulator after head `h`: the contributions of heads `0 … h`. -/
def accAfter (b : Fin 2) (q : Fin 2048) (f : Fin 1024) (h : ℕ) : EReal :=
  BlockedSum.partialSum pos1024 64 (fun e => outTerm x wq bq wk bk wv bv wo b q f e) h

/-- Cleared, then head 0 added. -/
theorem accAfter_zero (b : Fin 2) (q : Fin 2048) (f : Fin 1024) :
    accAfter x wq bq wk bk wv bv wo b q f 0 = 0 + headTerm x wq bq wk bk wv bv wo b q f 0 := by
  unfold accAfter
  rw [BlockedSum.partialSum_zero, zero_add]
  exact blockSum_outTerm x wq bq wk bk wv bv wo b q f 0

/-- One more head added. -/
theorem accAfter_succ (b : Fin 2) (q : Fin 2048) (f : Fin 1024) (h : Fin 16) (k : ℕ) (hk : k + 1 = h.val) :
    accAfter x wq bq wk bk wv bv wo b q f h.val
      = accAfter x wq bq wk bk wv bv wo b q f k + headTerm x wq bq wk bk wv bv wo b q f h := by
  unfold accAfter
  rw [← hk, BlockedSum.partialSum_succ, hk]
  exact congrArg _ (blockSum_outTerm x wq bq wk bk wv bv wo b q f h)

/-- After the last head the accumulator holds the whole projection: adding the bias gives the result's entry. -/
theorem output_eq_accAfter (b : Fin 2) (q : Fin 2048) (f : Fin 1024) :
    accAfter x wq bq wk bk wv bv wo b q f 15 + bo f = output x wq bq wk bk wv bv wo bo b q f := by
  unfold accAfter output
  rw [BlockedSum.partialSum_last (nb := 16) pos1024 rfl _ rfl]

end

end Cert.AttnSpec

end
-- ==== Proof.HeadBridge.lean ====
/-
  One grid point against the specification.

  Suppose the blocks a point loads hold the specification's arrays at the point's batch `b`, head `h` and query rows
  `row q`: the input rows, the head's query weight and bias, the head's 64 lanes of the batch's keys and of its values,
  and the head's slab of the output weight. Then the point's scaled queries, scores, greatest score per row, exponentials
  and quotients are the specification's, term by term; the block of softmax weights it stores is the specification's
  `weight`; and the accumulator it stores is what it held plus the head's contribution `headTerm`. Every step is a
  rewriting of a finite sum's terms: nothing is assumed finite.
-/
import proofs.«173047_j62036507623685_2_alg».proof.Proof.HeadStep
import proofs.«173047_j62036507623685_2_alg».proof.Proof.OutAccum

noncomputable section

open scoped BigOperators

namespace Cert.KernelIdeal.HeadBridge

open Cert.KernelIdeal Cert.KernelIdeal.Gen Cert.KernelIdeal.HeadStep Cert.AttnSpec Idealize.ShloMosaic Idealize.ShloMosaic.ValueIdx

theorem qTile_eq (x : Fin 2 → Fin 2048 → Fin 1024 → EReal) (wq : Fin 16 → Fin 64 → Fin 1024 → EReal) (bq : Fin 16 → Fin 64 → EReal)
    (wk : Fin 1024 → Fin 1024 → EReal) (bk : Fin 1024 → EReal) (wv : Fin 1024 → Fin 1024 → EReal) (bv : Fin 1024 → EReal)
    (wo : Fin 16 → Fin 1024 → Fin 64 → EReal) (b : Fin 2) (h : Fin 16) (row : Fin 256 → Fin 2048)
    (xq : Vec Ideal S1x256x1024 .f32) (wqB : Vec Ideal S1x64x1024 .f32) (bqB : Vec Ideal S1x1x64 .f32) (kc : Vec Ideal S1x2048x64 .f32)
    (hx : ∀ (q : Fin 256) (c : Fin 1024), xq (ix3 (0 : Fin 1) q c) = x b (row q) c)
    (hwq : ∀ (d : Fin 64) (c : Fin 1024), wqB (ix3 (0 : Fin 1) d c) = wq h d c)
    (hbq : ∀ d : Fin 64, bqB (ix3 (0 : Fin 1) (0 : Fin 1) d) = bq h d) (q : Fin 256) (d : Fin 64) :
    qTile xq wqB bqB (ix2 q d) = query x wq bq b h (row q) d := by
  rw [qTile_apply]
  unfold query
  rw [hbq]
  congr 2
  exact Finset.sum_congr rfl fun c _ => by rw [hx, hwq]

theorem sTile_eq (x : Fin 2 → Fin 2048 → Fin 1024 → EReal) (wq : Fin 16 → Fin 64 → Fin 1024 → EReal) (bq : Fin 16 → Fin 64 → EReal)
    (wk : Fin 1024 → Fin 1024 → EReal) (bk : Fin 1024 → EReal) (wv : Fin 1024 → Fin 1024 → EReal) (bv : Fin 1024 → EReal)
    (wo : Fin 16 → Fin 1024 → Fin 64 → EReal) (b : Fin 2) (h : Fin 16) (row : Fin 256 → Fin 2048)
    (xq : Vec Ideal S1x256x1024 .f32) (wqB : Vec Ideal S1x64x1024 .f32) (bqB : Vec Ideal S1x1x64 .f32) (kc : Vec Ideal S1x2048x64 .f32)
    (hx : ∀ (q : Fin 256) (c : Fin 1024), xq (ix3 (0 : Fin 1) q c) = x b (row q) c)
    (hwq : ∀ (d : Fin 64) (c : Fin 1024), wqB (ix3 (0 : Fin 1) d c) = wq h d c)
    (hbq : ∀ d : Fin 64, bqB (ix3 (0 : Fin 1) (0 : Fin 1) d) = bq h d)
    (hk : ∀ (k : Fin 2048) (d : Fin 64), kc (ix3 (0 : Fin 1) k d) = key x wk bk b k (col h d)) (q : Fin 256) (k : Fin 2048) :
    sTile xq wqB bqB kc (ix2 q k) = score x wq bq wk bk b h (row q) k := by
  rw [sTile_apply]
  unfold score
  exact Finset.sum_congr rfl fun d _ => by
    rw [qTile_eq x wq bq wk bk wv bv wo b h row xq wqB bqB kc hx hwq hbq q d, hk]

theorem mTile_eq (x : Fin 2 → Fin 2048 → Fin 1024 → EReal) (wq : Fin 16 → Fin 64 → Fin 1024 → EReal) (bq : Fin 16 → Fin 64 → EReal)
    (wk : Fin 1024 → Fin 1024 → EReal) (bk : Fin 1024 → EReal) (wv : Fin 1024 → Fin 1024 → EReal) (bv : Fin 1024 → EReal)
    (wo : Fin 16 → Fin 1024 → Fin 64 → EReal) (b : Fin 2) (h : Fin 16) (row : Fin 256 → Fin 2048)
    (xq : Vec Ideal S1x256x1024 .f32) (wqB : Vec Ideal S1x64x1024 .f32) (bqB : Vec Ideal S1x1x64 .f32) (kc : Vec Ideal S1x2048x64 .f32)
    (hx : ∀ (q : Fin 256) (c : Fin 1024), xq (ix3 (0 : Fin 1) q c) = x b (row q) c)
    (hwq : ∀ (d : Fin 64) (c : Fin 1024), wqB (ix3 (0 : Fin 1) d c) = wq h d c)
    (hbq : ∀ d : Fin 64, bqB (ix3 (0 : Fin 1) (0 : Fin 1) d) = bq h d)
    (hk : ∀ (k : Fin 2048) (d : Fin 64), kc (ix3 (0 : Fin 1) k d) = key x wk bk b k (col h d)) (q : Fin 256) :
    mTile xq wqB bqB kc (ix1 q) = rowMax x wq bq wk bk b h (row q) := by
  rw [mTile_apply]
  unfold rowMax
  exact congrArg (fun g => Finset.fold max (Ideal.ofBits .f32 0xFF800000#32) g (Finset.univ : Finset (Fin 2048)))
    (funext fun k => sTile_eq x wq bq wk bk wv bv wo b h row xq wqB bqB kc hx hwq hbq hk q k)

theorem eTile_eq (x : Fin 2 → Fin 2048 → Fin 1024 → EReal) (wq : Fin 16 → Fin 64 → Fin 1024 → EReal) (bq : Fin 16 → Fin 64 → EReal)
    (wk : Fin 1024 → Fin 1024 → EReal) (bk : Fin 1024 → EReal) (wv : Fin 1024 → Fin 1024 → EReal) (bv : Fin 1024 → EReal)
    (wo : Fin 16 → Fin 1024 → Fin 64 → EReal) (b : Fin 2) (h : Fin 16) (row : Fin 256 → Fin 2048)
    (xq : Vec Ideal S1x256x1024 .f32) (wqB : Vec Ideal S1x64x1024 .f32) (bqB : Vec Ideal S1x1x64 .f32) (kc : Vec Ideal S1x2048x64 .f32)
    (hx : ∀ (q : Fin 256) (c : Fin 1024), xq (ix3 (0 : Fin 1) q c) = x b (row q) c)
    (hwq : ∀ (d : Fin 64) (c : Fin 1024), wqB (ix3 (0 : Fin 1) d c) = wq h d c)
    (hbq : ∀ d : Fin 64, bqB (ix3 (0 : Fin 1) (0 : Fin 1) d) = bq h d)
    (hk : ∀ (k : Fin 2048) (d : Fin 64), kc (ix3 (0 : Fin 1) k d) = key x wk bk b k (col h d)) (q : Fin 256) (k : Fin 2048) :
    eTile xq wqB bqB kc (ix2 q k) = expo x wq bq wk bk b h (row q) k := by
  rw [eTile_apply, sTile_eq x wq bq wk bk wv bv wo b h row xq wqB bqB kc hx hwq hbq hk q k,
    mTile_eq x wq bq wk bk wv bv wo b h row xq wqB bqB kc hx hwq hbq hk q]
  rfl

/-- The quotient of an exponential by its row's sum is the specification's softmax weight. -/
theorem quotient_eq (x : Fin 2 → Fin 2048 → Fin 1024 → EReal) (wq : Fin 16 → Fin 64 → Fin 1024 → EReal) (bq : Fin 16 → Fin 64 → EReal)
    (wk : Fin 1024 → Fin 1024 → EReal) (bk : Fin 1024 → EReal) (wv : Fin 1024 → Fin 1024 → EReal) (bv : Fin 1024 → EReal)
    (wo : Fin 16 → Fin 1024 → Fin 64 → EReal) (b : Fin 2) (h : Fin 16) (row : Fin 256 → Fin 2048)
    (xq : Vec Ideal S1x256x1024 .f32) (wqB : Vec Ideal S1x64x1024 .f32) (bqB : Vec Ideal S1x1x64 .f32) (kc : Vec Ideal S1x2048x64 .f32)
    (hx : ∀ (q : Fin 256) (c : Fin 1024), xq (ix3 (0 : Fin 1) q c) = x b (row q) c)
    (hwq : ∀ (d : Fin 64) (c : Fin 1024), wqB (ix3 (0 : Fin 1) d c) = wq h d c)
    (hbq : ∀ d : Fin 64, bqB (ix3 (0 : Fin 1) (0 : Fin 1) d) = bq h d)
    (hk : ∀ (k : Fin 2048) (d : Fin 64), kc (ix3 (0 : Fin 1) k d) = key x wk bk b k (col h d)) (q : Fin 256) (k : Fin 2048) :
    Ideal.div (k0_pay43 xq wqB bqB kc (ix2 q k)) (k0_pay44 xq wqB bqB kc (ix2 q k)) = weight x wq bq wk bk b h (row q) k := by
  rw [pay44_apply, pay43_eq]
  unfold weight
  rw [eTile_eq x wq bq wk bk wv bv wo b h row xq wqB bqB kc hx hwq hbq hk q k]
  exact congrArg _ (Finset.sum_congr rfl fun k' _ => eTile_eq x wq bq wk bk wv bv wo b h row xq wqB bqB kc hx hwq hbq hk q k')

/-- The block of softmax weights the point stores. -/
theorem weights_block (x : Fin 2 → Fin 2048 → Fin 1024 → EReal) (wq : Fin 16 → Fin 64 → Fin 1024 → EReal) (bq : Fin 16 → Fin 64 → EReal)
    (wk : Fin 1024 → Fin 1024 → EReal) (bk : Fin 1024 → EReal) (wv : Fin 1024 → Fin 1024 → EReal) (bv : Fin 1024 → EReal)
    (wo : Fin 16 → Fin 1024 → Fin 64 → EReal) (b : Fin 2) (h : Fin 16) (row : Fin 256 → Fin 2048)
    (xq : Vec Ideal S1x256x1024 .f32) (wqB : Vec Ideal S1x64x1024 .f32) (bqB : Vec Ideal S1x1x64 .f32) (kc : Vec Ideal S1x2048x64 .f32)
    (hx : ∀ (q : Fin 256) (c : Fin 1024), xq (ix3 (0 : Fin 1) q c) = x b (row q) c)
    (hwq : ∀ (d : Fin 64) (c : Fin 1024), wqB (ix3 (0 : Fin 1) d c) = wq h d c)
    (hbq : ∀ d : Fin 64, bqB (ix3 (0 : Fin 1) (0 : Fin 1) d) = bq h d)
    (hk : ∀ (k : Fin 2048) (d : Fin 64), kc (ix3 (0 : Fin 1) k d) = key x wk bk b k (col h d)) (u u' : Fin 1) (q : Fin 256) (k : Fin 2048) :
    k0_pay2 (k0_pay43 xq wqB bqB kc) (k0_pay44 xq wqB bqB kc) (ix4 u u' q k) = weight x wq bq wk bk b h (row q) k := by
  rw [pay2_apply]
  exact quotient_eq x wq bq wk bk wv bv wo b h row xq wqB bqB kc hx hwq hbq hk q k

/-- The head's output at the tile is the specification's. -/
theorem ao_eq (x : Fin 2 → Fin 2048 → Fin 1024 → EReal) (wq : Fin 16 → Fin 64 → Fin 1024 → EReal) (bq : Fin 16 → Fin 64 → EReal)
    (wk : Fin 1024 → Fin 1024 → EReal) (bk : Fin 1024 → EReal) (wv : Fin 1024 → Fin 1024 → EReal) (bv : Fin 1024 → EReal)
    (wo : Fin 16 → Fin 1024 → Fin 64 → EReal) (b : Fin 2) (h : Fin 16) (row : Fin 256 → Fin 2048)
    (xq : Vec Ideal S1x256x1024 .f32) (wqB : Vec Ideal S1x64x1024 .f32) (bqB : Vec Ideal S1x1x64 .f32) (kc : Vec Ideal S1x2048x64 .f32)
    (hx : ∀ (q : Fin 256) (c : Fin 1024), xq (ix3 (0 : Fin 1) q c) = x b (row q) c)
    (hwq : ∀ (d : Fin 64) (c : Fin 1024), wqB (ix3 (0 : Fin 1) d c) = wq h d c)
    (hbq : ∀ d : Fin 64, bqB (ix3 (0 : Fin 1) (0 : Fin 1) d) = bq h d)
    (hk : ∀ (k : Fin 2048) (d : Fin 64), kc (ix3 (0 : Fin 1) k d) = key x wk bk b k (col h d))
    (vc : Vec Ideal S1x2048x64 .bf16) (hv : ∀ (k : Fin 2048) (d : Fin 64), vc (ix3 (0 : Fin 1) k d) = value x wv bv b k (col h d)) (q : Fin 256) (d : Fin 64) :
    aoTile (k0_pay43 xq wqB bqB kc) (k0_pay44 xq wqB bqB kc) vc (ix2 q d) = headOut x wq bq wk bk wv bv b h (row q) d := by
  rw [aoTile_apply]
  unfold headOut
  exact Finset.sum_congr rfl fun k _ => by
    rw [quotient_eq x wq bq wk bk wv bv wo b h row xq wqB bqB kc hx hwq hbq hk q k, hv]

/-- The accumulator the point stores: what it held plus the head's contribution. -/
theorem acc_block (x : Fin 2 → Fin 2048 → Fin 1024 → EReal) (wq : Fin 16 → Fin 64 → Fin 1024 → EReal) (bq : Fin 16 → Fin 64 → EReal)
    (wk : Fin 1024 → Fin 1024 → EReal) (bk : Fin 1024 → EReal) (wv : Fin 1024 → Fin 1024 → EReal) (bv : Fin 1024 → EReal)
    (wo : Fin 16 → Fin 1024 → Fin 64 → EReal) (b : Fin 2) (h : Fin 16) (row : Fin 256 → Fin 2048)
    (xq : Vec Ideal S1x256x1024 .f32) (wqB : Vec Ideal S1x64x1024 .f32) (bqB : Vec Ideal S1x1x64 .f32) (kc : Vec Ideal S1x2048x64 .f32)
    (hx : ∀ (q : Fin 256) (c : Fin 1024), xq (ix3 (0 : Fin 1) q c) = x b (row q) c)
    (hwq : ∀ (d : Fin 64) (c : Fin 1024), wqB (ix3 (0 : Fin 1) d c) = wq h d c)
    (hbq : ∀ d : Fin 64, bqB (ix3 (0 : Fin 1) (0 : Fin 1) d) = bq h d)
    (hk : ∀ (k : Fin 2048) (d : Fin 64), kc (ix3 (0 : Fin 1) k d) = key x wk bk b k (col h d))
    (vc : Vec Ideal S1x2048x64 .bf16) (hv : ∀ (k : Fin 2048) (d : Fin 64), vc (ix3 (0 : Fin 1) k d) = value x wv bv b k (col h d))
    (owB : Vec Ideal S1x1024x64 .f32) (how : ∀ (f : Fin 1024) (d : Fin 64), owB (ix3 (0 : Fin 1) f d) = wo h f d) (acc : Vec Ideal S256x1024 .f32) (q : Fin 256) (f : Fin 1024) :
    k0_pay3 (k0_pay43 xq wqB bqB kc) (k0_pay44 xq wqB bqB kc) vc owB acc (ix2 q f)
      = acc (ix2 q f) + headTerm x wq bq wk bk wv bv wo b (row q) f h := by
  rw [pay3_apply]
  unfold headTerm
  exact congrArg _ (Finset.sum_congr rfl fun d _ => by
    rw [ao_eq x wq bq wk bk wv bv wo b h row xq wqB bqB kc hx hwq hbq hk vc hv q d, how])

end Cert.KernelIdeal.HeadBridge

end
-- ==== Proof.PointStep.lean ====
/-
  A grid point's stored blocks as the specification's entries, from what its loaded blocks and the caches hold.

  Point `(b, sq, h)` reads rows `256 sq … 256 sq + 255` of batch `b`'s input block and slab `h` of the key and value
  caches. If the input block, the head's query weight and bias and the head's output-weight slab hold the
  specification's arrays, and the caches hold batch `b`'s keys and values for every head, then: the block of softmax
  weights the point stores is the specification's `weight` at `(b, h, 256 sq + q, k)`; the accumulator it stores is
  what the accumulator held plus head `h`'s contribution; and the result block it stores after the last head is
  the accumulator plus the output bias.
-/
import proofs.«173047_j62036507623685_2_alg».proof.Proof.Pieces
import proofs.«173047_j62036507623685_2_alg».proof.Proof.HeadBridge

noncomputable section

open scoped BigOperators

namespace Cert.KernelIdeal.PointStep

open Cert.KernelIdeal Cert.KernelIdeal.Gen Cert.KernelIdeal.Pieces Cert.KernelIdeal.HeadStep Cert.AttnSpec
open Idealize.ShloMosaic Idealize.ShloMosaic.ValueIdx

theorem point_weights (x : Fin 2 → Fin 2048 → Fin 1024 → EReal) (wq : Fin 16 → Fin 64 → Fin 1024 → EReal) (bq : Fin 16 → Fin 64 → EReal)
    (wk : Fin 1024 → Fin 1024 → EReal) (bk : Fin 1024 → EReal) (wv : Fin 1024 → Fin 1024 → EReal) (bv : Fin 1024 → EReal)
    (wo : Fin 16 → Fin 1024 → Fin 64 → EReal)
    (i : grid0.Coords) (b : Fin 2) (h : Fin 16) (sq : ℕ) (hi1 : (i 1).val = sq) (hi2 : (i 2).val = h.val)
    (row : Fin 256 → Fin 2048) (hrow : ∀ q : Fin 256, (row q).val = 256 * sq + q.val)
    (x0 : Vec Ideal S1x2048x1024 .f32) (x5 : Vec Ideal S1x64x1024 .f32) (x6 : Vec Ideal S1x1x64 .f32)
    (KC : Vec Ideal S16x2048x64 .f32)
    (h0 : ∀ (s : Fin 2048) (c' : Fin 1024), x0 (ix3 (0 : Fin 1) s c') = x b s c')
    (h5 : ∀ (d : Fin 64) (c' : Fin 1024), x5 (ix3 (0 : Fin 1) d c') = wq h d c')
    (h6 : ∀ d : Fin 64, x6 (ix3 (0 : Fin 1) (0 : Fin 1) d) = bq h d)
    (hK : ∀ (h' : Fin 16) (s : Fin 2048) (d : Fin 64), KC (ix3 h' s d) = key x wk bk b s (col h' d)) (u u' : Fin 1) (q : Fin 256) (k : Fin 2048) :
    k0_pay2 (expT i x0 x5 x6 KC) (sumT i x0 x5 x6 KC) (ix4 u u' q k) = weight x wq bq wk bk b h (row q) k :=
  HeadBridge.weights_block x wq bq wk bk wv bv wo b h row (xRows i x0) x5 x6 (slab i KC)
    (fun q c' => (xRows_apply i x0 q c' (row q) (by rw [hrow, hi1])).trans (h0 (row q) c')) h5 h6 (fun k d => (slab_apply i KC h hi2.symm k d).trans (hK h k d)) u u' q k

theorem point_acc (x : Fin 2 → Fin 2048 → Fin 1024 → EReal) (wq : Fin 16 → Fin 64 → Fin 1024 → EReal) (bq : Fin 16 → Fin 64 → EReal)
    (wk : Fin 1024 → Fin 1024 → EReal) (bk : Fin 1024 → EReal) (wv : Fin 1024 → Fin 1024 → EReal) (bv : Fin 1024 → EReal)
    (wo : Fin 16 → Fin 1024 → Fin 64 → EReal)
    (i : grid0.Coords) (b : Fin 2) (h : Fin 16) (sq : ℕ) (hi1 : (i 1).val = sq) (hi2 : (i 2).val = h.val)
    (row : Fin 256 → Fin 2048) (hrow : ∀ q : Fin 256, (row q).val = 256 * sq + q.val)
    (x0 : Vec Ideal S1x2048x1024 .f32) (x5 : Vec Ideal S1x64x1024 .f32) (x6 : Vec Ideal S1x1x64 .f32)
    (KC : Vec Ideal S16x2048x64 .f32)
    (h0 : ∀ (s : Fin 2048) (c' : Fin 1024), x0 (ix3 (0 : Fin 1) s c') = x b s c')
    (h5 : ∀ (d : Fin 64) (c' : Fin 1024), x5 (ix3 (0 : Fin 1) d c') = wq h d c')
    (h6 : ∀ d : Fin 64, x6 (ix3 (0 : Fin 1) (0 : Fin 1) d) = bq h d)
    (hK : ∀ (h' : Fin 16) (s : Fin 2048) (d : Fin 64), KC (ix3 h' s d) = key x wk bk b s (col h' d))
    (VC : Vec Ideal S16x2048x64 .bf16) (hV : ∀ (h' : Fin 16) (s : Fin 2048) (d : Fin 64), VC (ix3 h' s d) = value x wv bv b s (col h' d))
    (x7 : Vec Ideal S1x1024x64 .f32) (h7 : ∀ (f : Fin 1024) (d : Fin 64), x7 (ix3 (0 : Fin 1) f d) = wo h f d)
    (acc : Vec Ideal S256x1024 .f32) (q : Fin 256) (f : Fin 1024) :
    k0_pay3 (expT i x0 x5 x6 KC) (sumT i x0 x5 x6 KC) (slab i VC) x7 acc (ix2 q f)
      = acc (ix2 q f) + headTerm x wq bq wk bk wv bv wo b (row q) f h :=
  HeadBridge.acc_block x wq bq wk bk wv bv wo b h row (xRows i x0) x5 x6 (slab i KC)
    (fun q c' => (xRows_apply i x0 q c' (row q) (by rw [hrow, hi1])).trans (h0 (row q) c')) h5 h6 (fun k d => (slab_apply i KC h hi2.symm k d).trans (hK h k d))
    (slab i VC) (fun k d => (slab_apply i VC h hi2.symm k d).trans (hV h k d)) x7 h7 acc q f

/-- The keys the first point of a batch forms, at an entry. -/
theorem point_key (x : Fin 2 → Fin 2048 → Fin 1024 → EReal) (wq : Fin 16 → Fin 64 → Fin 1024 → EReal) (bq : Fin 16 → Fin 64 → EReal)
    (wk : Fin 1024 → Fin 1024 → EReal) (bk : Fin 1024 → EReal) (wv : Fin 1024 → Fin 1024 → EReal) (bv : Fin 1024 → EReal)
    (wo : Fin 16 → Fin 1024 → Fin 64 → EReal) (b : Fin 2)
    (x0 : Vec Ideal S1x2048x1024 .f32) (x1 : Vec Ideal S1024x1024 .f32) (x3 : Vec Ideal S1x1024 .f32)
    (h0 : ∀ (s : Fin 2048) (c' : Fin 1024), x0 (ix3 (0 : Fin 1) s c') = x b s c')
    (h1 : ∀ (e c' : Fin 1024), x1 (ix2 e c') = wk e c') (h3 : ∀ e : Fin 1024, x3 (ix2 (0 : Fin 1) e) = bk e)
    (s : Fin 2048) (e : Fin 1024) : k0_pay6 x0 x1 x3 (ix2 s e) = key x wk bk b s e := by
  rw [pay6_apply]
  unfold key
  rw [h3]
  exact congrArg (· + bk e) (Finset.sum_congr rfl fun c' _ => by rw [h0, h1])

/-- The values the first point of a batch forms, at an entry. -/
theorem point_value (x : Fin 2 → Fin 2048 → Fin 1024 → EReal) (wq : Fin 16 → Fin 64 → Fin 1024 → EReal) (bq : Fin 16 → Fin 64 → EReal)
    (wk : Fin 1024 → Fin 1024 → EReal) (bk : Fin 1024 → EReal) (wv : Fin 1024 → Fin 1024 → EReal) (bv : Fin 1024 → EReal)
    (wo : Fin 16 → Fin 1024 → Fin 64 → EReal) (b : Fin 2)
    (x0 : Vec Ideal S1x2048x1024 .f32) (x2 : Vec Ideal S1024x1024 .f32) (x4 : Vec Ideal S1x1024 .f32)
    (h0 : ∀ (s : Fin 2048) (c' : Fin 1024), x0 (ix3 (0 : Fin 1) s c') = x b s c')
    (h2 : ∀ (e c' : Fin 1024), x2 (ix2 e c') = wv e c') (h4 : ∀ e : Fin 1024, x4 (ix2 (0 : Fin 1) e) = bv e)
    (s : Fin 2048) (e : Fin 1024) : k0_pay7 x0 x2 x4 (ix2 s e) = value x wv bv b s e := by
  rw [pay7_apply]
  unfold value
  rw [h4]
  exact congrArg (· + bv e) (Finset.sum_congr rfl fun c' _ => by rw [h0, h2])

end Cert.KernelIdeal.PointStep

end
-- ==== Proof.BlockReads.lean ====
/-
  What each window's block reads of its array at a grid point, by coordinates, and that the result windows' blocks
  cover their arrays.

  The grid is `2 × 8 × 16`: point `t = 128 b + 16 s + h` is batch `b`, row block `s` (256 query rows), head `h`.
  The input's block is batch `b` whole; the key and value weights, their biases and the output bias are read whole;
  the query weight, the query bias and the output weight are read at head `h`. The weights' result block is batch
  `b`, head `h`, rows `256 s … 256 s + 255`, written back at every point; the output's result block is batch `b`,
  rows `256 s … 256 s + 255`, written back at the last head. A block's coordinate on an axis is the block index
  times the block's size plus the coordinate inside the block.
-/
import proofs.«173047_j62036507623685_2_alg».proof.Proof.Gen.KernelIdeal.Frame
import Idealize.ShloMosaic.Lib.Pipeline.Value
import Idealize.ShloMosaic.Lib.ValueIdx

set_option maxRecDepth 16384

noncomputable section

namespace Cert.KernelIdeal.BlockReads

open Cert.KernelIdeal Cert.KernelIdeal.Gen Idealize.ShloMosaic Idealize.ShloMosaic.ValueIdx Idealize.ShloMosaic.Tactic
open Idealize.ShloMosaic.TcCoe Idealize.SL.Sem
open Idealize.ShloMosaic.Pipeline (Dat)

variable (m : (ℓ : Loc nD τ sig) → Buf (Elt Ideal) ℓ) (c : Dev nD)

/-- The grid has 256 points. -/
theorem lt256 (t : Fin cfg0.N) : t.val < 256 := lt_of_lt_of_eq t.isLt Gen.N_0

/-- A point's batch. -/
abbrev ptB (t : Fin cfg0.N) : Fin 2 := ⟨t.val / 128, by have := lt256 t; omega⟩
/-- A point's row block. -/
abbrev ptS (t : Fin cfg0.N) : Fin 8 := ⟨(t.val / 16) % 8, Nat.mod_lt _ (by decide)⟩
/-- A point's head. -/
abbrev ptH (t : Fin cfg0.N) : Fin 16 := ⟨t.val % 16, Nat.mod_lt _ (by decide)⟩
/-- Row `q` of a point's row block, as a row of the array. -/
abbrev ptRow (t : Fin cfg0.N) (q : Fin 256) : Fin 2048 := ⟨256 * ((t.val / 16) % 8) + q.val, by have := q.isLt; omega⟩

/-! ## The input blocks -/

/-- The input's block index: the batch. -/
theorem idx_x : ∀ t : Fin cfg0.N, win0_0.index t (0 : Fin 3) = t.val / 128 ∧ win0_0.index t (1 : Fin 3) = 0 ∧ win0_0.index t (2 : Fin 3) = 0 :=
  (by decide +kernel : ∀ t : Fin grid0.N, _)

/-- The input's block at a point is the point's batch. -/
theorem blk_x (t : Fin cfg0.N) (s : Fin 2048) (c' : Fin 1024) :
    (Gen.iblk m c 0 t : Vec Ideal S1x2048x1024 .f32) (ix3 (0 : Fin 1) s c')
      = (Gen.V m c main_arg0 : S2x2048x1024.Idx → EReal) (ix3 (ptB t) s c') := by
  obtain ⟨e0, e1, e2⟩ := idx_x t
  unfold Gen.iblk
  rw [View.read_apply]
  show Gen.V m c main_arg0 _ = Gen.V m c main_arg0 _
  congr 1
  funext a
  apply Fin.ext
  match a with
  | ⟨0, _⟩ => show win0_0.index t (0 : Fin 3) * 1 + 1 * 0 = t.val / 128; omega
  | ⟨1, _⟩ => show win0_0.index t (1 : Fin 3) * 2048 + 1 * s.val = s.val; omega
  | ⟨2, _⟩ => show win0_0.index t (2 : Fin 3) * 1024 + 1 * c'.val = c'.val; omega

/-- The key weight's block index: zero. -/
theorem idx_wk : ∀ t : Fin cfg0.N, win0_1.index t (0 : Fin 2) = 0 ∧ win0_1.index t (1 : Fin 2) = 0 :=
  (by decide +kernel : ∀ t : Fin grid0.N, _)

/-- The key weight is read whole at every point. -/
theorem blk_wk (t : Fin cfg0.N) (e c' : Fin 1024) :
    (Gen.iblk m c 1 t : Vec Ideal S1024x1024 .f32) (ix2 e c')
      = (Gen.V m c main_v2 : S1024x1024.Idx → EReal) (ix2 e c') := by
  obtain ⟨e0, e1⟩ := idx_wk t
  unfold Gen.iblk
  rw [View.read_apply]
  show Gen.V m c main_v2 _ = Gen.V m c main_v2 _
  congr 1
  funext a
  apply Fin.ext
  match a with
  | ⟨0, _⟩ => show win0_1.index t (0 : Fin 2) * 1024 + 1 * e.val = e.val; omega
  | ⟨1, _⟩ => show win0_1.index t (1 : Fin 2) * 1024 + 1 * c'.val = c'.val; omega

/-- The value weight's block index: zero. -/
theorem idx_wv : ∀ t : Fin cfg0.N, win0_2.index t (0 : Fin 2) = 0 ∧ win0_2.index t (1 : Fin 2) = 0 :=
  (by decide +kernel : ∀ t : Fin grid0.N, _)

/-- The value weight is read whole at every point. -/
theorem blk_wv (t : Fin cfg0.N) (e c' : Fin 1024) :
    (Gen.iblk m c 2 t : Vec Ideal S1024x1024 .f32) (ix2 e c')
      = (Gen.V m c main_v3 : S1024x1024.Idx → EReal) (ix2 e c') := by
  obtain ⟨e0, e1⟩ := idx_wv t
  unfold Gen.iblk
  rw [View.read_apply]
  show Gen.V m c main_v3 _ = Gen.V m c main_v3 _
  congr 1
  funext a
  apply Fin.ext
  match a with
  | ⟨0, _⟩ => show win0_2.index t (0 : Fin 2) * 1024 + 1 * e.val = e.val; omega
  | ⟨1, _⟩ => show win0_2.index t (1 : Fin 2) * 1024 + 1 * c'.val = c'.val; omega

/-- The key bias's block index: zero. -/
theorem idx_bk : ∀ t : Fin cfg0.N, win0_3.index t (0 : Fin 2) = 0 ∧ win0_3.index t (1 : Fin 2) = 0 :=
  (by decide +kernel : ∀ t : Fin grid0.N, _)

/-- The key bias is read whole at every point. -/
theorem blk_bk (t : Fin cfg0.N) (e : Fin 1024) :
    (Gen.iblk m c 3 t : Vec Ideal S1x1024 .f32) (ix2 (0 : Fin 1) e)
      = (Gen.V m c main_v7 : S1x1024.Idx → EReal) (ix2 (0 : Fin 1) e) := by
  obtain ⟨e0, e1⟩ := idx_bk t
  unfold Gen.iblk
  rw [View.read_apply]
  show Gen.V m c main_v7 _ = Gen.V m c main_v7 _
  congr 1
  funext a
  apply Fin.ext
  match a with
  | ⟨0, _⟩ => show win0_3.index t (0 : Fin 2) * 1 + 1 * 0 = 0; omega
  | ⟨1, _⟩ => show win0_3.index t (1 : Fin 2) * 1024 + 1 * e.val = e.val; omega

/-- The value bias's block index: zero. -/
theorem idx_bv : ∀ t : Fin cfg0.N, win0_4.index t (0 : Fin 2) = 0 ∧ win0_4.index t (1 : Fin 2) = 0 :=
  (by decide +kernel : ∀ t : Fin grid0.N, _)

/-- The value bias is read whole at every point. -/
theorem blk_bv (t : Fin cfg0.N) (e : Fin 1024) :
    (Gen.iblk m c 4 t : Vec Ideal S1x1024 .f32) (ix2 (0 : Fin 1) e)
      = (Gen.V m c main_v9 : S1x1024.Idx → EReal) (ix2 (0 : Fin 1) e) := by
  obtain ⟨e0, e1⟩ := idx_bv t
  unfold Gen.iblk
  rw [View.read_apply]
  show Gen.V m c main_v9 _ = Gen.V m c main_v9 _
  congr 1
  funext a
  apply Fin.ext
  match a with
  | ⟨0, _⟩ => show win0_4.index t (0 : Fin 2) * 1 + 1 * 0 = 0; omega
  | ⟨1, _⟩ => show win0_4.index t (1 : Fin 2) * 1024 + 1 * e.val = e.val; omega

/-- The query weight's block index: the head. -/
theorem idx_wq : ∀ t : Fin cfg0.N, win0_5.index t (0 : Fin 3) = t.val % 16 ∧ win0_5.index t (1 : Fin 3) = 0 ∧ win0_5.index t (2 : Fin 3) = 0 :=
  (by decide +kernel : ∀ t : Fin grid0.N, _)

/-- The query weight's block at a point is the point's head. -/
theorem blk_wq (t : Fin cfg0.N) (d : Fin 64) (c' : Fin 1024) :
    (Gen.iblk m c 5 t : Vec Ideal S1x64x1024 .f32) (ix3 (0 : Fin 1) d c')
      = (Gen.V m c main_v1 : S16x64x1024.Idx → EReal) (ix3 (ptH t) d c') := by
  obtain ⟨e0, e1, e2⟩ := idx_wq t
  unfold Gen.iblk
  rw [View.read_apply]
  show Gen.V m c main_v1 _ = Gen.V m c main_v1 _
  congr 1
  funext a
  apply Fin.ext
  match a with
  | ⟨0, _⟩ => show win0_5.index t (0 : Fin 3) * 1 + 1 * 0 = t.val % 16; omega
  | ⟨1, _⟩ => show win0_5.index t (1 : Fin 3) * 64 + 1 * d.val = d.val; omega
  | ⟨2, _⟩ => show win0_5.index t (2 : Fin 3) * 1024 + 1 * c'.val = c'.val; omega

/-- The query bias's block index: the head. -/
theorem idx_bq : ∀ t : Fin cfg0.N, win0_6.index t (0 : Fin 3) = t.val % 16 ∧ win0_6.index t (1 : Fin 3) = 0 ∧ win0_6.index t (2 : Fin 3) = 0 :=
  (by decide +kernel : ∀ t : Fin grid0.N, _)

/-- The query bias's block at a point is the point's head. -/
theorem blk_bq (t : Fin cfg0.N) (d : Fin 64) :
    (Gen.iblk m c 6 t : Vec Ideal S1x1x64 .f32) (ix3 (0 : Fin 1) (0 : Fin 1) d)
      = (Gen.V m c main_v5 : S16x1x64.Idx → EReal) (ix3 (ptH t) (0 : Fin 1) d) := by
  obtain ⟨e0, e1, e2⟩ := idx_bq t
  unfold Gen.iblk
  rw [View.read_apply]
  show Gen.V m c main_v5 _ = Gen.V m c main_v5 _
  congr 1
  funext a
  apply Fin.ext
  match a with
  | ⟨0, _⟩ => show win0_6.index t (0 : Fin 3) * 1 + 1 * 0 = t.val % 16; omega
  | ⟨1, _⟩ => show win0_6.index t (1 : Fin 3) * 1 + 1 * 0 = 0; omega
  | ⟨2, _⟩ => show win0_6.index t (2 : Fin 3) * 64 + 1 * d.val = d.val; omega

/-- The output weight's block index: the head. -/
theorem idx_wo : ∀ t : Fin cfg0.N, win0_7.index t (0 : Fin 3) = t.val % 16 ∧ win0_7.index t (1 : Fin 3) = 0 ∧ win0_7.index t (2 : Fin 3) = 0 :=
  (by decide +kernel : ∀ t : Fin grid0.N, _)

/-- The output weight's block at a point is the point's head. -/
theorem blk_wo (t : Fin cfg0.N) (f : Fin 1024) (d : Fin 64) :
    (Gen.iblk m c 7 t : Vec Ideal S1x1024x64 .f32) (ix3 (0 : Fin 1) f d)
      = (Gen.V m c main_v11 : S16x1024x64.Idx → EReal) (ix3 (ptH t) f d) := by
  obtain ⟨e0, e1, e2⟩ := idx_wo t
  unfold Gen.iblk
  rw [View.read_apply]
  show Gen.V m c main_v11 _ = Gen.V m c main_v11 _
  congr 1
  funext a
  apply Fin.ext
  match a with
  | ⟨0, _⟩ => show win0_7.index t (0 : Fin 3) * 1 + 1 * 0 = t.val % 16; omega
  | ⟨1, _⟩ => show win0_7.index t (1 : Fin 3) * 1024 + 1 * f.val = f.val; omega
  | ⟨2, _⟩ => show win0_7.index t (2 : Fin 3) * 64 + 1 * d.val = d.val; omega

/-- The output bias's block index: zero. -/
theorem idx_bo : ∀ t : Fin cfg0.N, win0_8.index t (0 : Fin 2) = 0 ∧ win0_8.index t (1 : Fin 2) = 0 :=
  (by decide +kernel : ∀ t : Fin grid0.N, _)

/-- The output bias is read whole at every point. -/
theorem blk_bo (t : Fin cfg0.N) (f : Fin 1024) :
    (Gen.iblk m c 8 t : Vec Ideal S1x1024 .f32) (ix2 (0 : Fin 1) f)
      = (Gen.V m c main_v12 : S1x1024.Idx → EReal) (ix2 (0 : Fin 1) f) := by
  obtain ⟨e0, e1⟩ := idx_bo t
  unfold Gen.iblk
  rw [View.read_apply]
  show Gen.V m c main_v12 _ = Gen.V m c main_v12 _
  congr 1
  funext a
  apply Fin.ext
  match a with
  | ⟨0, _⟩ => show win0_8.index t (0 : Fin 2) * 1 + 1 * 0 = 0; omega
  | ⟨1, _⟩ => show win0_8.index t (1 : Fin 2) * 1024 + 1 * f.val = f.val; omega

/-! ## The result blocks -/

/-- The weights' result block index: batch, head, row block. -/
theorem idx_w : ∀ t : Fin cfg0.N, win0_9.index t (0 : Fin 4) = t.val / 128 ∧ win0_9.index t (1 : Fin 4) = t.val % 16
    ∧ win0_9.index t (2 : Fin 4) = (t.val / 16) % 8 ∧ win0_9.index t (3 : Fin 4) = 0 :=
  (by decide +kernel : ∀ t : Fin grid0.N, _)

/-- The output's result block index: batch, row block. -/
theorem idx_o : ∀ t : Fin cfg0.N, win0_10.index t (0 : Fin 3) = t.val / 128 ∧ win0_10.index t (1 : Fin 3) = (t.val / 16) % 8
    ∧ win0_10.index t (2 : Fin 3) = 0 :=
  (by decide +kernel : ∀ t : Fin grid0.N, _)

/-- A block that holds, entry by entry, the point's batch, head and rows of a whole-array function is what the
    weights' result window reads of that function at the point. -/
theorem cut9_eq (G : S2x16x2048x2048.Idx → EReal) (t : Fin cfg0.N) (B : Vec Ideal S1x1x256x2048 .f32)
    (hB : ∀ (q : Fin 256) (k : Fin 2048), B (ix4 (0 : Fin 1) (0 : Fin 1) q k) = G (ix4 (ptB t) (ptH t) (ptRow t q) k)) :
    (cfg0.win 9).cut (grid0.coords t) B = ((cfg0.win 9).blk t).view.read (Elt Ideal) G := by
  obtain ⟨e0, e1, e2, e3⟩ := idx_w t
  funext j
  rw [View.read_apply]
  have h0 : (j 0).val < 1 := (j 0).isLt
  have h1 : (j 1).val < 1 := (j 1).isLt
  have h2 : (j 2).val < 256 := (j 2).isLt
  have h3 : (j 3).val < 2048 := (j 3).isLt
  have hl : (cfg0.win 9).cut (grid0.coords t) B j = B (ix4 (0 : Fin 1) (0 : Fin 1) ⟨(j 2).val, h2⟩ ⟨(j 3).val, h3⟩) := by
    show B _ = B _
    congr 1
    funext a
    apply Fin.ext
    match a with
    | ⟨0, _⟩ => show (j 0).val = 0; omega
    | ⟨1, _⟩ => show (j 1).val = 0; omega
    | ⟨2, _⟩ => rfl
    | ⟨3, _⟩ => rfl
  rw [hl, hB]
  show G _ = G _
  congr 1
  funext a
  apply Fin.ext
  match a with
  | ⟨0, _⟩ => show t.val / 128 = win0_9.index t (0 : Fin 4) * 1 + 1 * (j 0).val; omega
  | ⟨1, _⟩ => show t.val % 16 = win0_9.index t (1 : Fin 4) * 1 + 1 * (j 1).val; omega
  | ⟨2, _⟩ => show 256 * ((t.val / 16) % 8) + (j 2).val = win0_9.index t (2 : Fin 4) * 256 + 1 * (j 2).val; omega
  | ⟨3, _⟩ => show (j 3).val = win0_9.index t (3 : Fin 4) * 2048 + 1 * (j 3).val; omega

/-- A block that holds, entry by entry, the point's batch and rows of a whole-array function is what the output's
    result window reads of that function at the point. -/
theorem cut10_eq (G : S2x2048x1024.Idx → EReal) (t : Fin cfg0.N) (B : Vec Ideal S1x256x1024 .f32)
    (hB : ∀ (q : Fin 256) (f : Fin 1024), B (ix3 (0 : Fin 1) q f) = G (ix3 (ptB t) (ptRow t q) f)) :
    (cfg0.win 10).cut (grid0.coords t) B = ((cfg0.win 10).blk t).view.read (Elt Ideal) G := by
  obtain ⟨e0, e1, e2⟩ := idx_o t
  funext j
  rw [View.read_apply]
  have h0 : (j 0).val < 1 := (j 0).isLt
  have h1 : (j 1).val < 256 := (j 1).isLt
  have h2 : (j 2).val < 1024 := (j 2).isLt
  have hl : (cfg0.win 10).cut (grid0.coords t) B j = B (ix3 (0 : Fin 1) ⟨(j 1).val, h1⟩ ⟨(j 2).val, h2⟩) := by
    show B _ = B _
    congr 1
    funext a
    apply Fin.ext
    match a with
    | ⟨0, _⟩ => show (j 0).val = 0; omega
    | ⟨1, _⟩ => rfl
    | ⟨2, _⟩ => rfl
  rw [hl, hB]
  show G _ = G _
  congr 1
  funext a
  apply Fin.ext
  match a with
  | ⟨0, _⟩ => show t.val / 128 = win0_10.index t (0 : Fin 3) * 1 + 1 * (j 0).val; omega
  | ⟨1, _⟩ => show 256 * ((t.val / 16) % 8) + (j 1).val = win0_10.index t (1 : Fin 3) * 256 + 1 * (j 1).val; omega
  | ⟨2, _⟩ => show (j 2).val = win0_10.index t (2 : Fin 3) * 1024 + 1 * (j 2).val; omega

/-! ## The result blocks cover their arrays -/

/-- An index of the weights' result is in point `t`'s block iff each coordinate is in the block's range on its axis. -/
theorem mem_blk9 (t : Fin cfg0.N) (i : S2x16x2048x2048.Idx) :
    i ∈ ((cfg0.win 9).blk t).view.set ↔ ∀ a : Fin 4, win0_9.index t a * S1x1x256x2048.size a ≤ (i a).val ∧ (i a).val < win0_9.index t a * S1x1x256x2048.size a + S1x1x256x2048.size a := by
  show i ∈ ((View.whole main_v13_0).slice (win0_9.rect t)).set ↔ _
  rw [View.set_slice_whole, Rect.mem_set_unit]
  exact Iff.rfl

/-- An index of the output is in point `t`'s block iff each coordinate is in the block's range on its axis. -/
theorem mem_blk10 (t : Fin cfg0.N) (i : S2x2048x1024.Idx) :
    i ∈ ((cfg0.win 10).blk t).view.set ↔ ∀ a : Fin 3, win0_10.index t a * S1x256x1024.size a ≤ (i a).val ∧ (i a).val < win0_10.index t a * S1x256x1024.size a + S1x256x1024.size a := by
  show i ∈ ((View.whole main_v13_1).slice (win0_10.rect t)).set ↔ _
  rw [View.set_slice_whole, Rect.mem_set_unit]
  exact Iff.rfl

/-- Every index of the weights' result is in the block of the point of its batch, its rows' block and its head. -/
theorem cover9 : ∀ i : S2x16x2048x2048.Idx, ∃ t : Fin cfg0.N, (cfg0.win 9).flush t = true ∧ i ∈ ((cfg0.win 9).blk t).view.set := by
  intro i
  have hi0 : (i 0).val < 2 := (i 0).isLt
  have hi1 : (i 1).val < 16 := (i 1).isLt
  have hi2 : (i 2).val < 2048 := (i 2).isLt
  have hi3 : (i 3).val < 2048 := (i 3).isLt
  have hN : cfg0.N = 256 := Gen.N_0
  have ht : 128 * (i 0).val + 16 * ((i 2).val / 256) + (i 1).val < cfg0.N := by rw [hN]; omega
  refine ⟨⟨128 * (i 0).val + 16 * ((i 2).val / 256) + (i 1).val, ht⟩, Gen.flush0_9 _, ?_⟩
  obtain ⟨e0, e1, e2, e3⟩ := idx_w ⟨128 * (i 0).val + 16 * ((i 2).val / 256) + (i 1).val, ht⟩
  rw [mem_blk9]
  intro a
  match a with
  | ⟨0, _⟩ => show win0_9.index _ (0 : Fin 4) * 1 ≤ (i 0).val ∧ (i 0).val < win0_9.index _ (0 : Fin 4) * 1 + 1; rw [e0]; show (128 * (i 0).val + 16 * ((i 2).val / 256) + (i 1).val) / 128 * 1 ≤ (i 0).val ∧ (i 0).val < (128 * (i 0).val + 16 * ((i 2).val / 256) + (i 1).val) / 128 * 1 + 1; omega
  | ⟨1, _⟩ => show win0_9.index _ (1 : Fin 4) * 1 ≤ (i 1).val ∧ (i 1).val < win0_9.index _ (1 : Fin 4) * 1 + 1; rw [e1]; show (128 * (i 0).val + 16 * ((i 2).val / 256) + (i 1).val) % 16 * 1 ≤ (i 1).val ∧ (i 1).val < (128 * (i 0).val + 16 * ((i 2).val / 256) + (i 1).val) % 16 * 1 + 1; omega
  | ⟨2, _⟩ => show win0_9.index _ (2 : Fin 4) * 256 ≤ (i 2).val ∧ (i 2).val < win0_9.index _ (2 : Fin 4) * 256 + 256; rw [e2]; show (128 * (i 0).val + 16 * ((i 2).val / 256) + (i 1).val) / 16 % 8 * 256 ≤ (i 2).val ∧ (i 2).val < (128 * (i 0).val + 16 * ((i 2).val / 256) + (i 1).val) / 16 % 8 * 256 + 256; omega
  | ⟨3, _⟩ => show win0_9.index _ (3 : Fin 4) * 2048 ≤ (i 3).val ∧ (i 3).val < win0_9.index _ (3 : Fin 4) * 2048 + 2048; rw [e3]; omega

/-- Every index of the output is in the block of the last head's point of its batch and its rows' block. -/
theorem cover10 : ∀ i : S2x2048x1024.Idx, ∃ t : Fin cfg0.N, (cfg0.win 10).flush t = true ∧ i ∈ ((cfg0.win 10).blk t).view.set := by
  intro i
  have hi0 : (i 0).val < 2 := (i 0).isLt
  have hi1 : (i 1).val < 2048 := (i 1).isLt
  have hi2 : (i 2).val < 1024 := (i 2).isLt
  have hN : cfg0.N = 256 := Gen.N_0
  have ht : 128 * (i 0).val + 16 * ((i 1).val / 256) + 15 < cfg0.N := by rw [hN]; omega
  refine ⟨⟨128 * (i 0).val + 16 * ((i 1).val / 256) + 15, ht⟩, (Gen.flush0_10 _).mpr (by show (128 * (i 0).val + 16 * ((i 1).val / 256) + 15) % 16 = 15; omega), ?_⟩
  obtain ⟨e0, e1, e2⟩ := idx_o ⟨128 * (i 0).val + 16 * ((i 1).val / 256) + 15, ht⟩
  rw [mem_blk10]
  intro a
  match a with
  | ⟨0, _⟩ => show win0_10.index _ (0 : Fin 3) * 1 ≤ (i 0).val ∧ (i 0).val < win0_10.index _ (0 : Fin 3) * 1 + 1; rw [e0]; show (128 * (i 0).val + 16 * ((i 1).val / 256) + 15) / 128 * 1 ≤ (i 0).val ∧ (i 0).val < (128 * (i 0).val + 16 * ((i 1).val / 256) + 15) / 128 * 1 + 1; omega
  | ⟨1, _⟩ => show win0_10.index _ (1 : Fin 3) * 256 ≤ (i 1).val ∧ (i 1).val < win0_10.index _ (1 : Fin 3) * 256 + 256; rw [e1]; show (128 * (i 0).val + 16 * ((i 1).val / 256) + 15) / 16 % 8 * 256 ≤ (i 1).val ∧ (i 1).val < (128 * (i 0).val + 16 * ((i 1).val / 256) + 15) / 16 % 8 * 256 + 256; omega
  | ⟨2, _⟩ => show win0_10.index _ (2 : Fin 3) * 1024 ≤ (i 2).val ∧ (i 2).val < win0_10.index _ (2 : Fin 3) * 1024 + 1024; rw [e2]; omega

/-- So when every write-back of the weights' result is the block of one whole-array function, the array ends holding it. -/
theorem final9 (G : S2x16x2048x2048.Idx → EReal)
    (h : ∀ t, (cfg0.win 9).flush t = true → (Gen.dats m 0 c).flushed 9 t = ((cfg0.win 9).blk t).view.read (Elt Ideal) G) :
    (Gen.dats m 0 c).arrAt 9 cfg0.N = G :=
  (Gen.dats m 0 c).arrAt_eq_of_cover 9 G h cover9

/-- So when every write-back of the output is the block of one whole-array function, the array ends holding it. -/
theorem final10 (G : S2x2048x1024.Idx → EReal)
    (h : ∀ t, (cfg0.win 10).flush t = true → (Gen.dats m 0 c).flushed 10 t = ((cfg0.win 10).blk t).view.read (Elt Ideal) G) :
    (Gen.dats m 0 c).arrAt 10 cfg0.N = G :=
  (Gen.dats m 0 c).arrAt_eq_of_cover 10 G h cover10

end Cert.KernelIdeal.BlockReads

end
-- ==== Proof.WindowArrays.lean ====
/-
  The arrays the kernel's windows read, at coordinates.

  Before the kernel runs, the fused input weight `[3072, 1024]` is cut into its three blocks of 1024 rows (the first
  regrouped as `[16, 64, 1024]`), the fused bias `[3072]` into its three blocks of 1024 entries (the first regrouped
  as `[16, 1, 64]`, the others as one row `[1, 1024]`), the output weight `[1024, 1024]` has its columns regrouped
  as `[1024, 16, 64]` and its first two axes exchanged, and the output bias becomes one row. A slice reads the operand
  at the index shifted by the offset, a regrouping at the index with the same row-major position, and the exchange of
  axes at the index with the two coordinates swapped; so each array, read at coordinates, is one entry of an argument.
-/
import proofs.«173047_j62036507623685_2_alg».proof.Proof.Gen.KernelIdeal.Frame
import proofs.«173047_j62036507623685_2_alg».proof.Proof.AttnSpec
import Idealize.ShloMosaic.Lib.Pipeline.Value
import Idealize.ShloMosaic.Lib.ValueIdx

set_option maxRecDepth 16384

noncomputable section

namespace Cert.KernelIdeal.WindowArrays

open Cert.KernelIdeal Cert.KernelIdeal.Gen Idealize.ShloMosaic Idealize.ShloMosaic.ValueIdx Idealize.ShloMosaic.Tactic
open Idealize.ShloMosaic.TcCoe

variable (m : (ℓ : Loc nD τ sig) → Buf (Elt Ideal) ℓ) (c : Dev nD)

/-- The input is as launched: nothing before the kernel writes it. -/
theorem win_x : Gen.V m c main_arg0 = m ((c : Thread nD τ).loc main_arg0) := Gen.V_main_arg0 m c

/-- The key weight is rows `1024 + e` of the fused weight. -/
theorem win_wk (e c' : Fin 1024) :
    (Gen.V m c main_v2 : S1024x1024.Idx → EReal) (ix2 e c') = Cert.AttnSpec.wkOf (m ((c : Thread nD τ).loc main_arg3)) e c' := by
  have h : (Gen.V m c main_v2 : S1024x1024.Idx → EReal)
      = extractStridedSlice S1024x1024 ![1024, 0] (m ((c : Thread nD τ).loc main_arg3) : S3072x1024.Idx → EReal)
          Cert.KernelIdeal.Facts₀.slices_S3072x1024_S1024x1024_1024_0 := by
    dsimp only [Gen.V, Gen.hostOps0]; after_results <;> rfl
  rw [h]
  exact extractStridedSlice_apply _ _ _ _ (ix2 (Cert.AttnSpec.rowK e) c') (fun a => match a with
    | ⟨0, _⟩ => by show 1024 + e.val = 1024 + e.val; rfl
    | ⟨1, _⟩ => by show c'.val = 0 + c'.val; omega)

/-- The value weight is rows `2048 + e` of the fused weight. -/
theorem win_wv (e c' : Fin 1024) :
    (Gen.V m c main_v3 : S1024x1024.Idx → EReal) (ix2 e c') = Cert.AttnSpec.wvOf (m ((c : Thread nD τ).loc main_arg3)) e c' := by
  have h : (Gen.V m c main_v3 : S1024x1024.Idx → EReal)
      = extractStridedSlice S1024x1024 ![2048, 0] (m ((c : Thread nD τ).loc main_arg3) : S3072x1024.Idx → EReal)
          Cert.KernelIdeal.Facts₀.slices_S3072x1024_S1024x1024_2048_0 := by
    dsimp only [Gen.V, Gen.hostOps0]; after_results <;> rfl
  rw [h]
  exact extractStridedSlice_apply _ _ _ _ (ix2 (Cert.AttnSpec.rowV e) c') (fun a => match a with
    | ⟨0, _⟩ => by show 2048 + e.val = 2048 + e.val; rfl
    | ⟨1, _⟩ => by show c'.val = 0 + c'.val; omega)

/-- The key bias is entries `1024 + e` of the fused bias, laid as one row. -/
theorem win_bk (e : Fin 1024) :
    (Gen.V m c main_v7 : S1x1024.Idx → EReal) (ix2 (0 : Fin 1) e) = Cert.AttnSpec.bkOf (m ((c : Thread nD τ).loc main_arg4)) e := by
  have h : (Gen.V m c main_v7 : S1x1024.Idx → EReal)
      = shapeCast S1x1024 (extractStridedSlice S1024 ![1024] (m ((c : Thread nD τ).loc main_arg4) : S3072.Idx → EReal)
          Cert.KernelIdeal.Facts₀.slices_S3072_S1024_1024) Cert.KernelIdeal.Facts₀.shapeCasts_S1024_S1x1024 := by
    dsimp only [Gen.V, Gen.hostOps0]; after_results <;> rfl
  rw [h]
  refine (shapeCast_apply _ _ (ix2 (0 : Fin 1) e) (ix1 e) ?_).trans ?_
  · rw [Shape.rowMajor_val_one, Shape.rowMajor_val_two]
    show e.val = 0 * 1024 + e.val
    omega
  · exact extractStridedSlice_apply _ _ _ _ (ix1 (Cert.AttnSpec.rowK e)) (fun a => match a with
      | ⟨0, _⟩ => by show 1024 + e.val = 1024 + e.val; rfl)

/-- The value bias is entries `2048 + e` of the fused bias, laid as one row. -/
theorem win_bv (e : Fin 1024) :
    (Gen.V m c main_v9 : S1x1024.Idx → EReal) (ix2 (0 : Fin 1) e) = Cert.AttnSpec.bvOf (m ((c : Thread nD τ).loc main_arg4)) e := by
  have h : (Gen.V m c main_v9 : S1x1024.Idx → EReal)
      = shapeCast S1x1024 (extractStridedSlice S1024 ![2048] (m ((c : Thread nD τ).loc main_arg4) : S3072.Idx → EReal)
          Cert.KernelIdeal.Facts₀.slices_S3072_S1024_2048) Cert.KernelIdeal.Facts₀.shapeCasts_S1024_S1x1024 := by
    dsimp only [Gen.V, Gen.hostOps0]; after_results <;> rfl
  rw [h]
  refine (shapeCast_apply _ _ (ix2 (0 : Fin 1) e) (ix1 e) ?_).trans ?_
  · rw [Shape.rowMajor_val_one, Shape.rowMajor_val_two]
    show e.val = 0 * 1024 + e.val
    omega
  · exact extractStridedSlice_apply _ _ _ _ (ix1 (Cert.AttnSpec.rowV e)) (fun a => match a with
      | ⟨0, _⟩ => by show 2048 + e.val = 2048 + e.val; rfl)

/-- The query weight of head `h`, lane `d` is row `64 h + d` of the fused weight. -/
theorem win_wq (h : Fin 16) (d : Fin 64) (c' : Fin 1024) :
    (Gen.V m c main_v1 : S16x64x1024.Idx → EReal) (ix3 h d c') = Cert.AttnSpec.wqOf (m ((c : Thread nD τ).loc main_arg3)) h d c' := by
  have e1 : (Gen.V m c main_v1 : S16x64x1024.Idx → EReal)
      = shapeCast S16x64x1024 (extractStridedSlice S1024x1024 ![0, 0] (m ((c : Thread nD τ).loc main_arg3) : S3072x1024.Idx → EReal)
          Cert.KernelIdeal.Facts₀.slices_S3072x1024_S1024x1024_0_0) Cert.KernelIdeal.Facts₀.shapeCasts_S1024x1024_S16x64x1024 := by
    dsimp only [Gen.V, Gen.hostOps0]; after_results <;> rfl
  rw [e1]
  refine (shapeCast_apply _ _ (ix3 h d c') (ix2 (Cert.AttnSpec.col h d) c') ?_).trans ?_
  · rw [Shape.rowMajor_val_two, Shape.rowMajor_val_three]
    show (64 * h.val + d.val) * 1024 + c'.val = (h.val * 64 + d.val) * 1024 + c'.val
    omega
  · exact extractStridedSlice_apply _ _ _ _ (ix2 (Cert.AttnSpec.rowQ h d) c') (fun a => match a with
      | ⟨0, _⟩ => by show 64 * h.val + d.val = 0 + (64 * h.val + d.val); omega
      | ⟨1, _⟩ => by show c'.val = 0 + c'.val; omega)

/-- The query bias of head `h`, lane `d` is entry `64 h + d` of the fused bias. -/
theorem win_bq (h : Fin 16) (d : Fin 64) :
    (Gen.V m c main_v5 : S16x1x64.Idx → EReal) (ix3 h (0 : Fin 1) d) = Cert.AttnSpec.bqOf (m ((c : Thread nD τ).loc main_arg4)) h d := by
  have e1 : (Gen.V m c main_v5 : S16x1x64.Idx → EReal)
      = shapeCast S16x1x64 (extractStridedSlice S1024 ![0] (m ((c : Thread nD τ).loc main_arg4) : S3072.Idx → EReal)
          Cert.KernelIdeal.Facts₀.slices_S3072_S1024_0) Cert.KernelIdeal.Facts₀.shapeCasts_S1024_S16x1x64 := by
    dsimp only [Gen.V, Gen.hostOps0]; after_results <;> rfl
  rw [e1]
  refine (shapeCast_apply _ _ (ix3 h (0 : Fin 1) d) (ix1 (Cert.AttnSpec.col h d)) ?_).trans ?_
  · rw [Shape.rowMajor_val_one, Shape.rowMajor_val_three]
    show 64 * h.val + d.val = (h.val * 1 + 0) * 64 + d.val
    omega
  · exact extractStridedSlice_apply _ _ _ _ (ix1 (Cert.AttnSpec.rowQ h d)) (fun a => match a with
      | ⟨0, _⟩ => by show 64 * h.val + d.val = 0 + (64 * h.val + d.val); omega)

/-- The output weight of head `h` at feature `f`, lane `d` is entry `(f, 64 h + d)` of the output weight. -/
theorem win_wo (h : Fin 16) (f : Fin 1024) (d : Fin 64) :
    (Gen.V m c main_v11 : S16x1024x64.Idx → EReal) (ix3 h f d) = Cert.AttnSpec.woOf (m ((c : Thread nD τ).loc main_arg5)) h f d := by
  have e1 : (Gen.V m c main_v11 : S16x1024x64.Idx → EReal)
      = transpose S16x1024x64 [1, 0, 2] (shapeCast S1024x16x64 (m ((c : Thread nD τ).loc main_arg5) : S1024x1024.Idx → EReal)
          Cert.KernelIdeal.Facts₀.shapeCasts_S1024x1024_S1024x16x64) Cert.KernelIdeal.Facts₀.transposes_S1024x16x64_S16x1024x64_1_0_2 := by
    dsimp only [Gen.V, Gen.hostOps0]; after_results <;> rfl
  rw [e1]
  refine (transpose_apply _ _ _ (ix3 h f d) (ix3 f h d) (fun b => match b with
    | ⟨0, _⟩ => rfl
    | ⟨1, _⟩ => rfl
    | ⟨2, _⟩ => rfl)).trans ?_
  refine shapeCast_apply _ _ (ix3 f h d) (ix2 f (Cert.AttnSpec.col h d)) ?_
  rw [Shape.rowMajor_val_two, Shape.rowMajor_val_three]
  show f.val * 1024 + (64 * h.val + d.val) = (f.val * 16 + h.val) * 64 + d.val
  omega

/-- The output bias, laid as one row. -/
theorem win_bo (f : Fin 1024) :
    (Gen.V m c main_v12 : S1x1024.Idx → EReal) (ix2 (0 : Fin 1) f) = Cert.AttnSpec.boOf (m ((c : Thread nD τ).loc main_arg6)) f := by
  have e1 : (Gen.V m c main_v12 : S1x1024.Idx → EReal)
      = shapeCast S1x1024 (m ((c : Thread nD τ).loc main_arg6) : S1024.Idx → EReal) Cert.KernelIdeal.Facts₀.shapeCasts_S1024_S1x1024 := by
    dsimp only [Gen.V, Gen.hostOps0]; after_results <;> rfl
  rw [e1]
  refine shapeCast_apply _ _ (ix2 (0 : Fin 1) f) (ix1 f) ?_
  rw [Shape.rowMajor_val_one, Shape.rowMajor_val_two]
  show f.val = 0 * 1024 + f.val
  omega

end Cert.KernelIdeal.WindowArrays

end
-- ==== Proof.CacheA.lean ====
/-
  What the first grid point of a batch leaves in the two carried scratch buffers.

  That point computes every head's keys as one array of 2048 rows and 1024 columns (and likewise the values) and stores
  head `h`'s 64 columns `64 h .. 64 h + 63` as slab `h` of a scratch array of 16 slabs of 2048 rows and 64 lanes. Read
  back at slab `h`, row `s`, lane `d`, the scratch array therefore holds column `64 h + d` of row `s`: each of the
  sixteen stores writes the tile of ONE function of the scratch index that its rectangle names, and the sixteen
  rectangles cover the array.
-/
import proofs.«173047_j62036507623685_2_alg».proof.Proof.Gen.KernelIdeal.Frame
import proofs.«173047_j62036507623685_2_alg».proof.Proof.AttnSpec
import Idealize.ShloMosaic.Lib.Pipeline.Value
import Idealize.ShloMosaic.Lib.ValueLayout
import Idealize.ShloMosaic.Lib.ValueIdx
import Idealize.ShloMosaic.Lib.Tactic

noncomputable section

namespace Cert.KernelIdeal.CacheA

open Cert.KernelIdeal Cert.KernelIdeal.Gen Idealize.ShloMosaic Idealize.ShloMosaic.TcCoe Idealize.ShloMosaic.Tactic Idealize.SL.Sem
open Idealize.ShloMosaic.ValueIdx

/-! ## Sixteen column ranges as sixteen slabs -/

/-- An array of 2048 rows and 1024 columns read as 16 slabs of 64 columns: slab `h`, row `s`, lane `d` is column
    `64 h + d` of row `s`. -/
def slabs {α : Type} (kf : S2048x1024.Idx → α) : S16x2048x64.Idx → α := fun y =>
  kf (ix2 (n0 := 2048) (n1 := 1024) ⟨(y 1).val, (y 1).isLt⟩
    ⟨64 * (y 0).val + (y 2).val, by
      have h0 : (y 0).val < 16 := (y 0).isLt
      have h2 : (y 2).val < 64 := (y 2).isLt
      omega⟩)

theorem slabs_at {α : Type} (kf : S2048x1024.Idx → α) (h : Fin 16) (s : Fin 2048) (d : Fin 64) :
    slabs kf (ix3 h s d) = kf (ix2 s (Cert.AttnSpec.col h d)) := rfl

/-- One store's payload is the tile of `slabs kf` under its rectangle: columns `o .. o + 63` with `o = 64 hh`, given a
    leading unit axis, at a local index is `slabs kf` at the index of slab `hh` over it. -/
theorem slab_piece {α : Type} (kf : S2048x1024.Idx → α) (hh o : Nat) (ho : o = 64 * hh) (hlt : hh < 16)
    (hs : S2048x1024.Slices ![0, o] S2048x64) (hc : S2048x64.ShapeCasts S1x2048x64)
    (inb : ∀ a, (![hh, 0, 0] : Fin 3 → Nat) a + S1x2048x64.size a ≤ S16x2048x64.size a)
    (x : (Rect.unit (s := S16x2048x64) ![hh, 0, 0] S1x2048x64.size inb).shape.Idx) :
    shapeCast S1x2048x64 (extractStridedSlice S2048x64 ![0, o] kf hs) hc x
      = slabs kf ((Rect.unit (s := S16x2048x64) ![hh, 0, 0] S1x2048x64.size inb).emb x) := by
  obtain ⟨u, s, d, rfl⟩ : ∃ (u : Fin 1) (s : Fin 2048) (d : Fin 64), x = ix3 u s d := ⟨x 0, x 1, x 2, eq_ix3 x⟩
  have hu : u.val = 0 := by omega
  have hd := d.isLt
  refine (shapeCast_ab_1ab_apply (extractStridedSlice S2048x64 ![0, o] kf hs) hc u s d).trans ?_
  refine (slice2_axis1_apply o kf hs s d (⟨o + d.val, by omega⟩ : Fin 1024) rfl).trans ?_
  unfold slabs
  refine congrArg kf (funext fun a => Fin.ext ?_)
  match a with
  | ⟨0, _⟩ => show s.val = 0 + 1 * s.val; omega
  | ⟨1, _⟩ => show o + d.val = 64 * (hh + 1 * u.val) + (0 + 1 * d.val); omega

theorem hz3 : (![0, 0, 0] : Fin 3 → Nat) = fun _ => 0 := funext fun a => by fin_cases a <;> rfl
theorem hz2 : (![0, 0] : Fin 2 → Nat) = fun _ => 0 := funext fun a => by fin_cases a <;> rfl

variable {F : FTy → Type} [FloatOps F]

/-! ## The keys -/

/-- The sixteen pieces left in the key scratch, as a later load of the same point sees them: slab `h`, row `s`, lane `d`
    is the key of row `s` at column `64 h + d`. -/
theorem keys_canon_A (c : Dev nD) (i : grid0.Coords) (arg3 : Memref sig .tc .vmem S1x2048x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S1x1x64 .f32) (harg9 : arg9.IsWhole) (arg10 : Memref sig .tc .vmem S1x1024x64 .f32) (harg10 : arg10.IsWhole) (arg11 : Memref sig .tc .vmem S1x1024 .f32) (harg11 : arg11.IsWhole) (arg12 : Memref sig .tc .vmem S1x1x256x2048 .f32) (harg12 : arg12.IsWhole) (arg13 : Memref sig .tc .vmem S1x256x1024 .f32) (harg13 : arg13.IsWhole) (arg14 : Memref sig .tc .vmem S16x2048x64 .f32) (harg14 : arg14.IsWhole) (arg15 : Memref sig .tc .vmem S16x2048x64 .bf16) (harg15 : arg15.IsWhole) (arg16 : Memref sig .tc .vmem S256x1024 .f32) (harg16 : arg16.IsWhole) (hc0 : cond0_0 i) (hc1 : cond0_1 i) (hc2 : ¬cond0_2 i)
    (x0 : Vec F S1x2048x1024 .f32) (x1 : Vec F S1024x1024 .f32) (x2 : Vec F S1024x1024 .f32) (x3 : Vec F S1x1024 .f32) (x4 : Vec F S1x1024 .f32) (x5 : Vec F S1x64x1024 .f32) (x6 : Vec F S1x1x64 .f32) (x7 : Vec F S1x1024x64 .f32) (x8 : Vec F S1x1024 .f32)
    (h : Fin 16) (s : Fin 2048) (d : Fin 64) :
    View.canon (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8).2.2.1 (ix3 h s d)
      = k0_pay6 x0 x1 x3 (ix2 s (Cert.AttnSpec.col h d)) := by
  refine (View.canon_apply_of_pieces (slabs (k0_pay6 x0 x1 x3)) _ ?_ (ix3 h s d)
    (scover0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (ix3 h s d))).trans (slabs_at _ h s d)
  unfold kernelRun0_A
  dsimp only
  sl_unfold_run_names
  simp only [View.readAt_eq_ld, harg3.read_unread, harg4.read_unread, harg6.read_unread,
    View.ld_unit_zero (S := S1x2048x1024) hz3, View.ld_unit_zero (S := S1024x1024) hz2, View.ld_unit_zero (S := S1x1024) hz2]
  intro p hp
  simp only [List.mem_cons, List.not_mem_nil, or_false] at hp
  rcases hp with rfl | rfl | rfl | rfl | rfl | rfl | rfl | rfl | rfl | rfl | rfl | rfl | rfl | rfl | rfl | rfl
  · intro x; exact slab_piece (k0_pay6 x0 x1 x3) 15 960 rfl (by omega) slices_S2048x1024_o0_960_S2048x64 shapeCasts_S2048x64_S1x2048x64 inb_S16x2048x64_S1x2048x64_15_0_0 x
  · intro x; exact slab_piece (k0_pay6 x0 x1 x3) 14 896 rfl (by omega) slices_S2048x1024_o0_896_S2048x64 shapeCasts_S2048x64_S1x2048x64 inb_S16x2048x64_S1x2048x64_14_0_0 x
  · intro x; exact slab_piece (k0_pay6 x0 x1 x3) 13 832 rfl (by omega) slices_S2048x1024_o0_832_S2048x64 shapeCasts_S2048x64_S1x2048x64 inb_S16x2048x64_S1x2048x64_13_0_0 x
  · intro x; exact slab_piece (k0_pay6 x0 x1 x3) 12 768 rfl (by omega) slices_S2048x1024_o0_768_S2048x64 shapeCasts_S2048x64_S1x2048x64 inb_S16x2048x64_S1x2048x64_12_0_0 x
  · intro x; exact slab_piece (k0_pay6 x0 x1 x3) 11 704 rfl (by omega) slices_S2048x1024_o0_704_S2048x64 shapeCasts_S2048x64_S1x2048x64 inb_S16x2048x64_S1x2048x64_11_0_0 x
  · intro x; exact slab_piece (k0_pay6 x0 x1 x3) 10 640 rfl (by omega) slices_S2048x1024_o0_640_S2048x64 shapeCasts_S2048x64_S1x2048x64 inb_S16x2048x64_S1x2048x64_10_0_0 x
  · intro x; exact slab_piece (k0_pay6 x0 x1 x3) 9 576 rfl (by omega) slices_S2048x1024_o0_576_S2048x64 shapeCasts_S2048x64_S1x2048x64 inb_S16x2048x64_S1x2048x64_9_0_0 x
  · intro x; exact slab_piece (k0_pay6 x0 x1 x3) 8 512 rfl (by omega) slices_S2048x1024_o0_512_S2048x64 shapeCasts_S2048x64_S1x2048x64 inb_S16x2048x64_S1x2048x64_8_0_0 x
  · intro x; exact slab_piece (k0_pay6 x0 x1 x3) 7 448 rfl (by omega) slices_S2048x1024_o0_448_S2048x64 shapeCasts_S2048x64_S1x2048x64 inb_S16x2048x64_S1x2048x64_7_0_0 x
  · intro x; exact slab_piece (k0_pay6 x0 x1 x3) 6 384 rfl (by omega) slices_S2048x1024_o0_384_S2048x64 shapeCasts_S2048x64_S1x2048x64 inb_S16x2048x64_S1x2048x64_6_0_0 x
  · intro x; exact slab_piece (k0_pay6 x0 x1 x3) 5 320 rfl (by omega) slices_S2048x1024_o0_320_S2048x64 shapeCasts_S2048x64_S1x2048x64 inb_S16x2048x64_S1x2048x64_5_0_0 x
  · intro x; exact slab_piece (k0_pay6 x0 x1 x3) 4 256 rfl (by omega) slices_S2048x1024_o0_256_S2048x64 shapeCasts_S2048x64_S1x2048x64 inb_S16x2048x64_S1x2048x64_4_0_0 x
  · intro x; exact slab_piece (k0_pay6 x0 x1 x3) 3 192 rfl (by omega) slices_S2048x1024_o0_192_S2048x64 shapeCasts_S2048x64_S1x2048x64 inb_S16x2048x64_S1x2048x64_3_0_0 x
  · intro x; exact slab_piece (k0_pay6 x0 x1 x3) 2 128 rfl (by omega) slices_S2048x1024_o0_128_S2048x64 shapeCasts_S2048x64_S1x2048x64 inb_S16x2048x64_S1x2048x64_2_0_0 x
  · intro x; exact slab_piece (k0_pay6 x0 x1 x3) 1 64 rfl (by omega) slices_S2048x1024_o0_64_S2048x64 shapeCasts_S2048x64_S1x2048x64 inb_S16x2048x64_S1x2048x64_1_0_0 x
  · intro x; exact slab_piece (k0_pay6 x0 x1 x3) 0 0 rfl (by omega) slices_S2048x1024_o0_0_S2048x64 shapeCasts_S2048x64_S1x2048x64 inb_S16x2048x64_S1x2048x64_0_0_0 x

/-- What the first grid point leaves in the key scratch. -/
theorem keys_A (c : Dev nD) (i : grid0.Coords) (arg3 : Memref sig .tc .vmem S1x2048x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S1x1x64 .f32) (harg9 : arg9.IsWhole) (arg10 : Memref sig .tc .vmem S1x1024x64 .f32) (harg10 : arg10.IsWhole) (arg11 : Memref sig .tc .vmem S1x1024 .f32) (harg11 : arg11.IsWhole) (arg12 : Memref sig .tc .vmem S1x1x256x2048 .f32) (harg12 : arg12.IsWhole) (arg13 : Memref sig .tc .vmem S1x256x1024 .f32) (harg13 : arg13.IsWhole) (arg14 : Memref sig .tc .vmem S16x2048x64 .f32) (harg14 : arg14.IsWhole) (arg15 : Memref sig .tc .vmem S16x2048x64 .bf16) (harg15 : arg15.IsWhole) (arg16 : Memref sig .tc .vmem S256x1024 .f32) (harg16 : arg16.IsWhole) (hc0 : cond0_0 i) (hc1 : cond0_1 i) (hc2 : ¬cond0_2 i)
    (x0 : Vec F S1x2048x1024 .f32) (x1 : Vec F S1024x1024 .f32) (x2 : Vec F S1024x1024 .f32) (x3 : Vec F S1x1024 .f32) (x4 : Vec F S1x1024 .f32) (x5 : Vec F S1x64x1024 .f32) (x6 : Vec F S1x1x64 .f32) (x7 : Vec F S1x1024x64 .f32) (x8 : Vec F S1x1024 .f32)
    (h : Fin 16) (s : Fin 2048) (d : Fin 64) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (ix3 h s d)
      = k0_pay6 x0 x1 x3 (ix2 s (Cert.AttnSpec.col h d)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)]
  exact keys_canon_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 h s d

/-! ## The values -/

/-- The sixteen pieces left in the value scratch, as a later load of the same point sees them. -/
theorem values_canon_A (c : Dev nD) (i : grid0.Coords) (arg3 : Memref sig .tc .vmem S1x2048x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S1x1x64 .f32) (harg9 : arg9.IsWhole) (arg10 : Memref sig .tc .vmem S1x1024x64 .f32) (harg10 : arg10.IsWhole) (arg11 : Memref sig .tc .vmem S1x1024 .f32) (harg11 : arg11.IsWhole) (arg12 : Memref sig .tc .vmem S1x1x256x2048 .f32) (harg12 : arg12.IsWhole) (arg13 : Memref sig .tc .vmem S1x256x1024 .f32) (harg13 : arg13.IsWhole) (arg14 : Memref sig .tc .vmem S16x2048x64 .f32) (harg14 : arg14.IsWhole) (arg15 : Memref sig .tc .vmem S16x2048x64 .bf16) (harg15 : arg15.IsWhole) (arg16 : Memref sig .tc .vmem S256x1024 .f32) (harg16 : arg16.IsWhole) (hc0 : cond0_0 i) (hc1 : cond0_1 i) (hc2 : ¬cond0_2 i)
    (x0 : Vec F S1x2048x1024 .f32) (x1 : Vec F S1024x1024 .f32) (x2 : Vec F S1024x1024 .f32) (x3 : Vec F S1x1024 .f32) (x4 : Vec F S1x1024 .f32) (x5 : Vec F S1x64x1024 .f32) (x6 : Vec F S1x1x64 .f32) (x7 : Vec F S1x1024x64 .f32) (x8 : Vec F S1x1024 .f32)
    (h : Fin 16) (s : Fin 2048) (d : Fin 64) :
    View.canon (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8).2.2.2.1 (ix3 h s d)
      = k0_pay7 x0 x2 x4 (ix2 s (Cert.AttnSpec.col h d)) := by
  refine (View.canon_apply_of_pieces (slabs (k0_pay7 x0 x2 x4)) _ ?_ (ix3 h s d)
    (scover0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (ix3 h s d))).trans (slabs_at _ h s d)
  unfold kernelRun0_A
  dsimp only
  sl_unfold_run_names
  simp only [View.readAt_eq_ld, harg3.read_unread, harg5.read_unread, harg7.read_unread,
    View.ld_unit_zero (S := S1x2048x1024) hz3, View.ld_unit_zero (S := S1024x1024) hz2, View.ld_unit_zero (S := S1x1024) hz2]
  intro p hp
  simp only [List.mem_cons, List.not_mem_nil, or_false] at hp
  rcases hp with rfl | rfl | rfl | rfl | rfl | rfl | rfl | rfl | rfl | rfl | rfl | rfl | rfl | rfl | rfl | rfl
  · intro x; exact slab_piece (k0_pay7 x0 x2 x4) 15 960 rfl (by omega) slices_S2048x1024_o0_960_S2048x64 shapeCasts_S2048x64_S1x2048x64 inb_S16x2048x64_S1x2048x64_15_0_0 x
  · intro x; exact slab_piece (k0_pay7 x0 x2 x4) 14 896 rfl (by omega) slices_S2048x1024_o0_896_S2048x64 shapeCasts_S2048x64_S1x2048x64 inb_S16x2048x64_S1x2048x64_14_0_0 x
  · intro x; exact slab_piece (k0_pay7 x0 x2 x4) 13 832 rfl (by omega) slices_S2048x1024_o0_832_S2048x64 shapeCasts_S2048x64_S1x2048x64 inb_S16x2048x64_S1x2048x64_13_0_0 x
  · intro x; exact slab_piece (k0_pay7 x0 x2 x4) 12 768 rfl (by omega) slices_S2048x1024_o0_768_S2048x64 shapeCasts_S2048x64_S1x2048x64 inb_S16x2048x64_S1x2048x64_12_0_0 x
  · intro x; exact slab_piece (k0_pay7 x0 x2 x4) 11 704 rfl (by omega) slices_S2048x1024_o0_704_S2048x64 shapeCasts_S2048x64_S1x2048x64 inb_S16x2048x64_S1x2048x64_11_0_0 x
  · intro x; exact slab_piece (k0_pay7 x0 x2 x4) 10 640 rfl (by omega) slices_S2048x1024_o0_640_S2048x64 shapeCasts_S2048x64_S1x2048x64 inb_S16x2048x64_S1x2048x64_10_0_0 x
  · intro x; exact slab_piece (k0_pay7 x0 x2 x4) 9 576 rfl (by omega) slices_S2048x1024_o0_576_S2048x64 shapeCasts_S2048x64_S1x2048x64 inb_S16x2048x64_S1x2048x64_9_0_0 x
  · intro x; exact slab_piece (k0_pay7 x0 x2 x4) 8 512 rfl (by omega) slices_S2048x1024_o0_512_S2048x64 shapeCasts_S2048x64_S1x2048x64 inb_S16x2048x64_S1x2048x64_8_0_0 x
  · intro x; exact slab_piece (k0_pay7 x0 x2 x4) 7 448 rfl (by omega) slices_S2048x1024_o0_448_S2048x64 shapeCasts_S2048x64_S1x2048x64 inb_S16x2048x64_S1x2048x64_7_0_0 x
  · intro x; exact slab_piece (k0_pay7 x0 x2 x4) 6 384 rfl (by omega) slices_S2048x1024_o0_384_S2048x64 shapeCasts_S2048x64_S1x2048x64 inb_S16x2048x64_S1x2048x64_6_0_0 x
  · intro x; exact slab_piece (k0_pay7 x0 x2 x4) 5 320 rfl (by omega) slices_S2048x1024_o0_320_S2048x64 shapeCasts_S2048x64_S1x2048x64 inb_S16x2048x64_S1x2048x64_5_0_0 x
  · intro x; exact slab_piece (k0_pay7 x0 x2 x4) 4 256 rfl (by omega) slices_S2048x1024_o0_256_S2048x64 shapeCasts_S2048x64_S1x2048x64 inb_S16x2048x64_S1x2048x64_4_0_0 x
  · intro x; exact slab_piece (k0_pay7 x0 x2 x4) 3 192 rfl (by omega) slices_S2048x1024_o0_192_S2048x64 shapeCasts_S2048x64_S1x2048x64 inb_S16x2048x64_S1x2048x64_3_0_0 x
  · intro x; exact slab_piece (k0_pay7 x0 x2 x4) 2 128 rfl (by omega) slices_S2048x1024_o0_128_S2048x64 shapeCasts_S2048x64_S1x2048x64 inb_S16x2048x64_S1x2048x64_2_0_0 x
  · intro x; exact slab_piece (k0_pay7 x0 x2 x4) 1 64 rfl (by omega) slices_S2048x1024_o0_64_S2048x64 shapeCasts_S2048x64_S1x2048x64 inb_S16x2048x64_S1x2048x64_1_0_0 x
  · intro x; exact slab_piece (k0_pay7 x0 x2 x4) 0 0 rfl (by omega) slices_S2048x1024_o0_0_S2048x64 shapeCasts_S2048x64_S1x2048x64 inb_S16x2048x64_S1x2048x64_0_0_0 x

/-- What the first grid point leaves in the value scratch. -/
theorem values_A (c : Dev nD) (i : grid0.Coords) (arg3 : Memref sig .tc .vmem S1x2048x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S1x1x64 .f32) (harg9 : arg9.IsWhole) (arg10 : Memref sig .tc .vmem S1x1024x64 .f32) (harg10 : arg10.IsWhole) (arg11 : Memref sig .tc .vmem S1x1024 .f32) (harg11 : arg11.IsWhole) (arg12 : Memref sig .tc .vmem S1x1x256x2048 .f32) (harg12 : arg12.IsWhole) (arg13 : Memref sig .tc .vmem S1x256x1024 .f32) (harg13 : arg13.IsWhole) (arg14 : Memref sig .tc .vmem S16x2048x64 .f32) (harg14 : arg14.IsWhole) (arg15 : Memref sig .tc .vmem S16x2048x64 .bf16) (harg15 : arg15.IsWhole) (arg16 : Memref sig .tc .vmem S256x1024 .f32) (harg16 : arg16.IsWhole) (hc0 : cond0_0 i) (hc1 : cond0_1 i) (hc2 : ¬cond0_2 i)
    (x0 : Vec F S1x2048x1024 .f32) (x1 : Vec F S1024x1024 .f32) (x2 : Vec F S1024x1024 .f32) (x3 : Vec F S1x1024 .f32) (x4 : Vec F S1x1024 .f32) (x5 : Vec F S1x64x1024 .f32) (x6 : Vec F S1x1x64 .f32) (x7 : Vec F S1x1024x64 .f32) (x8 : Vec F S1x1024 .f32)
    (h : Fin 16) (s : Fin 2048) (d : Fin 64) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (ix3 h s d)
      = k0_pay7 x0 x2 x4 (ix2 s (Cert.AttnSpec.col h d)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)]
  exact values_canon_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 h s d

end Cert.KernelIdeal.CacheA

end
-- ==== Proof.GridInvariant.lean ====
/-
  What the buffers hold after every grid point.

  The 256 grid points run in order `t = 128 b + 16 s + h`: batch `b`, then row block `s` of 256 query rows, then head
  `h`. After point `t` the key and value caches hold batch `b`'s keys and values for every head (formed at the
  batch's first point and kept since), the accumulator holds the contributions of heads `0 … h` to rows
  `256 s … 256 s + 255` of the result, the block of softmax weights is the specification's at `(b, h)` and those
  rows, and after the last head the result block is the specification's at those rows. The proof is an induction on
  the point by the body's four control cases: the first point of a batch, the other head-0 points, the last head, and
  the heads between.
-/
import proofs.«173047_j62036507623685_2_alg».proof.Proof.PointStep
import proofs.«173047_j62036507623685_2_alg».proof.Proof.BlockReads
import proofs.«173047_j62036507623685_2_alg».proof.Proof.WindowArrays
import proofs.«173047_j62036507623685_2_alg».proof.Proof.CacheA

set_option maxRecDepth 16384

noncomputable section

open scoped BigOperators

namespace Cert.KernelIdeal.GridInvariant

open Cert.KernelIdeal Cert.KernelIdeal.Gen Cert.KernelIdeal.Pieces Cert.KernelIdeal.PointStep Cert.KernelIdeal.BlockReads
open Cert.KernelIdeal.WindowArrays Cert.KernelIdeal.HeadStep Cert.AttnSpec
open Idealize.ShloMosaic Idealize.ShloMosaic.ValueIdx Idealize.ShloMosaic.TcCoe Idealize.SL.Sem

variable (m : (ℓ : Loc nD τ sig) → Buf (Elt Ideal) ℓ) (c : Dev nD)

/-! ## The specification's arrays of this memory -/

abbrev sX := xOf (m ((c : Thread nD τ).loc main_arg0))
abbrev sWQ := wqOf (m ((c : Thread nD τ).loc main_arg3))
abbrev sBQ := bqOf (m ((c : Thread nD τ).loc main_arg4))
abbrev sWK := wkOf (m ((c : Thread nD τ).loc main_arg3))
abbrev sBK := bkOf (m ((c : Thread nD τ).loc main_arg4))
abbrev sWV := wvOf (m ((c : Thread nD τ).loc main_arg3))
abbrev sBV := bvOf (m ((c : Thread nD τ).loc main_arg4))
abbrev sWO := woOf (m ((c : Thread nD τ).loc main_arg5))
abbrev sBO := boOf (m ((c : Thread nD τ).loc main_arg6))

/-! ## What each window's block holds at a point, in the specification's arrays -/

theorem bx (t : Fin cfg0.N) (s : Fin 2048) (c' : Fin 1024) :
    (iblk m c 0 t : Vec Ideal S1x2048x1024 .f32) (ix3 (0 : Fin 1) s c') = sX m c (ptB t) s c' :=
  (blk_x m c t s c').trans (congrFun (win_x m c) _)
theorem bwk (t : Fin cfg0.N) (e c' : Fin 1024) : (iblk m c 1 t : Vec Ideal S1024x1024 .f32) (ix2 e c') = sWK m c e c' :=
  (blk_wk m c t e c').trans (win_wk m c e c')
theorem bwv (t : Fin cfg0.N) (e c' : Fin 1024) : (iblk m c 2 t : Vec Ideal S1024x1024 .f32) (ix2 e c') = sWV m c e c' :=
  (blk_wv m c t e c').trans (win_wv m c e c')
theorem bbk (t : Fin cfg0.N) (e : Fin 1024) : (iblk m c 3 t : Vec Ideal S1x1024 .f32) (ix2 (0 : Fin 1) e) = sBK m c e :=
  (blk_bk m c t e).trans (win_bk m c e)
theorem bbv (t : Fin cfg0.N) (e : Fin 1024) : (iblk m c 4 t : Vec Ideal S1x1024 .f32) (ix2 (0 : Fin 1) e) = sBV m c e :=
  (blk_bv m c t e).trans (win_bv m c e)
theorem bwq (t : Fin cfg0.N) (d : Fin 64) (c' : Fin 1024) :
    (iblk m c 5 t : Vec Ideal S1x64x1024 .f32) (ix3 (0 : Fin 1) d c') = sWQ m c (ptH t) d c' :=
  (blk_wq m c t d c').trans (win_wq m c (ptH t) d c')
theorem bbq (t : Fin cfg0.N) (d : Fin 64) :
    (iblk m c 6 t : Vec Ideal S1x1x64 .f32) (ix3 (0 : Fin 1) (0 : Fin 1) d) = sBQ m c (ptH t) d :=
  (blk_bq m c t d).trans (win_bq m c (ptH t) d)
theorem bwo (t : Fin cfg0.N) (f : Fin 1024) (d : Fin 64) :
    (iblk m c 7 t : Vec Ideal S1x1024x64 .f32) (ix3 (0 : Fin 1) f d) = sWO m c (ptH t) f d :=
  (blk_wo m c t f d).trans (win_wo m c (ptH t) f d)
theorem bbo (t : Fin cfg0.N) (f : Fin 1024) : (iblk m c 8 t : Vec Ideal S1x1024 .f32) (ix2 (0 : Fin 1) f) = sBO m c f :=
  (blk_bo m c t f).trans (win_bo m c f)

/-- A point's second and third grid coordinates are its row block and its head. -/
theorem coords12 : ∀ t : Fin cfg0.N, ((grid0.coords t) 1).val = (t.val / 16) % 8 ∧ ((grid0.coords t) 2).val = t.val % 16 :=
  (by decide +kernel : ∀ t : Fin grid0.N, _)

/-! ## The invariant -/

/-- What the five buffers hold after point `t`. -/
structure Inv (t : Fin cfg0.N) : Prop where
  keys : ∀ (h : Fin 16) (s : Fin 2048) (d : Fin 64),
    (outsAt0 m c t.val t.isLt).2.2.1 (ix3 h s d) = key (sX m c) (sWK m c) (sBK m c) (ptB t) s (col h d)
  vals : ∀ (h : Fin 16) (s : Fin 2048) (d : Fin 64),
    (outsAt0 m c t.val t.isLt).2.2.2.1 (ix3 h s d) = value (sX m c) (sWV m c) (sBV m c) (ptB t) s (col h d)
  acc : ∀ (q : Fin 256) (f : Fin 1024),
    (outsAt0 m c t.val t.isLt).2.2.2.2 (ix2 q f) = accAfter (sX m c) (sWQ m c) (sBQ m c) (sWK m c) (sBK m c) (sWV m c) (sBV m c) (sWO m c) (ptB t) (ptRow t q) f (t.val % 16)
  wts : ∀ (q : Fin 256) (k : Fin 2048),
    (outsAt0 m c t.val t.isLt).1 (ix4 (0 : Fin 1) (0 : Fin 1) q k)
      = weight (sX m c) (sWQ m c) (sBQ m c) (sWK m c) (sBK m c) (ptB t) (ptH t) (ptRow t q) k
  out : t.val % 16 = 15 → ∀ (q : Fin 256) (f : Fin 1024),
    (outsAt0 m c t.val t.isLt).2.1 (ix3 (0 : Fin 1) q f) = output (sX m c) (sWQ m c) (sBQ m c) (sWK m c) (sBK m c) (sWV m c) (sBV m c) (sWO m c) (sBO m c) (ptB t) (ptRow t q) f

/-- The point before `t`. -/
abbrev pred (t : Fin cfg0.N) : Fin cfg0.N := ⟨t.val - 1, Nat.lt_of_le_of_lt (Nat.sub_le _ _) t.isLt⟩

/-- The result block: the accumulator plus the output bias. -/
theorem point_out (acc : Vec Ideal S256x1024 .f32) (x8 : Vec Ideal S1x1024 .f32) (bo : Fin 1024 → EReal)
    (h8 : ∀ f : Fin 1024, x8 (ix2 (0 : Fin 1) f) = bo f) (u : Fin 1) (q : Fin 256) (f : Fin 1024) :
    k0_pay4 acc x8 (ix3 u q f) = acc (ix2 q f) + bo f := by
  rw [pay4_apply, h8]

/-! ## A case's buffers, one at a time

After a point of a given control case each of the five buffers holds that case's own term for it: the case equation,
read one component at a time. -/

set_option maxHeartbeats 1000000 in
theorem caseProj_A_1 (t : Fin cfg0.N) (h0 : t.val % 128 = 0) (h1 : t.val % 16 = 0) (h2 : ¬t.val % 16 = 15) (j : S1x1x256x2048.Idx) :
    (outsAt0 m c t.val t.isLt).1 j = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) j := by
  rw [outsAt0_A m c t h0 h1 h2]

set_option maxHeartbeats 1000000 in
theorem caseProj_A_221 (t : Fin cfg0.N) (h0 : t.val % 128 = 0) (h1 : t.val % 16 = 0) (h2 : ¬t.val % 16 = 15) (j : S16x2048x64.Idx) :
    (outsAt0 m c t.val t.isLt).2.2.1 j = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) j := by
  rw [outsAt0_A m c t h0 h1 h2]

set_option maxHeartbeats 1000000 in
theorem caseProj_A_2221 (t : Fin cfg0.N) (h0 : t.val % 128 = 0) (h1 : t.val % 16 = 0) (h2 : ¬t.val % 16 = 15) (j : S16x2048x64.Idx) :
    (outsAt0 m c t.val t.isLt).2.2.2.1 j = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) j := by
  rw [outsAt0_A m c t h0 h1 h2]

set_option maxHeartbeats 1000000 in
theorem caseProj_A_2222 (t : Fin cfg0.N) (h0 : t.val % 128 = 0) (h1 : t.val % 16 = 0) (h2 : ¬t.val % 16 = 15) (j : S256x1024.Idx) :
    (outsAt0 m c t.val t.isLt).2.2.2.2 j = sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) j := by
  rw [outsAt0_A m c t h0 h1 h2]

set_option maxHeartbeats 1000000 in
theorem caseProj_B_1 (t : Fin cfg0.N) (h0 : ¬t.val % 128 = 0) (h1 : ¬t.val % 16 = 0) (h2 : ¬t.val % 16 = 15) (j : S1x1x256x2048.Idx) :
    (outsAt0 m c t.val t.isLt).1 j = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 j := by
  rw [outsAt0_B m c t h0 h1 h2]

set_option maxHeartbeats 1000000 in
theorem caseProj_B_221 (t : Fin cfg0.N) (h0 : ¬t.val % 128 = 0) (h1 : ¬t.val % 16 = 0) (h2 : ¬t.val % 16 = 15) (j : S16x2048x64.Idx) :
    (outsAt0 m c t.val t.isLt).2.2.1 j = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 j := by
  rw [outsAt0_B m c t h0 h1 h2]

set_option maxHeartbeats 1000000 in
theorem caseProj_B_2221 (t : Fin cfg0.N) (h0 : ¬t.val % 128 = 0) (h1 : ¬t.val % 16 = 0) (h2 : ¬t.val % 16 = 15) (j : S16x2048x64.Idx) :
    (outsAt0 m c t.val t.isLt).2.2.2.1 j = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 j := by
  rw [outsAt0_B m c t h0 h1 h2]

set_option maxHeartbeats 1000000 in
theorem caseProj_B_2222 (t : Fin cfg0.N) (h0 : ¬t.val % 128 = 0) (h1 : ¬t.val % 16 = 0) (h2 : ¬t.val % 16 = 15) (j : S256x1024.Idx) :
    (outsAt0 m c t.val t.isLt).2.2.2.2 j = sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 j := by
  rw [outsAt0_B m c t h0 h1 h2]

set_option maxHeartbeats 1000000 in
theorem caseProj_C_1 (t : Fin cfg0.N) (h0 : ¬t.val % 128 = 0) (h1 : ¬t.val % 16 = 0) (h2 : t.val % 16 = 15) (j : S1x1x256x2048.Idx) :
    (outsAt0 m c t.val t.isLt).1 j = out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 j := by
  rw [outsAt0_C m c t h0 h1 h2]

set_option maxHeartbeats 1000000 in
theorem caseProj_C_21 (t : Fin cfg0.N) (h0 : ¬t.val % 128 = 0) (h1 : ¬t.val % 16 = 0) (h2 : t.val % 16 = 15) (j : S1x256x1024.Idx) :
    (outsAt0 m c t.val t.isLt).2.1 j = out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 j := by
  rw [outsAt0_C m c t h0 h1 h2]

set_option maxHeartbeats 1000000 in
theorem caseProj_C_221 (t : Fin cfg0.N) (h0 : ¬t.val % 128 = 0) (h1 : ¬t.val % 16 = 0) (h2 : t.val % 16 = 15) (j : S16x2048x64.Idx) :
    (outsAt0 m c t.val t.isLt).2.2.1 j = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 j := by
  rw [outsAt0_C m c t h0 h1 h2]

set_option maxHeartbeats 1000000 in
theorem caseProj_C_2221 (t : Fin cfg0.N) (h0 : ¬t.val % 128 = 0) (h1 : ¬t.val % 16 = 0) (h2 : t.val % 16 = 15) (j : S16x2048x64.Idx) :
    (outsAt0 m c t.val t.isLt).2.2.2.1 j = sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 j := by
  rw [outsAt0_C m c t h0 h1 h2]

set_option maxHeartbeats 1000000 in
theorem caseProj_C_2222 (t : Fin cfg0.N) (h0 : ¬t.val % 128 = 0) (h1 : ¬t.val % 16 = 0) (h2 : t.val % 16 = 15) (j : S256x1024.Idx) :
    (outsAt0 m c t.val t.isLt).2.2.2.2 j = sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 j := by
  rw [outsAt0_C m c t h0 h1 h2]

set_option maxHeartbeats 1000000 in
theorem caseProj_D_1 (t : Fin cfg0.N) (h0 : ¬t.val % 128 = 0) (h1 : t.val % 16 = 0) (h2 : ¬t.val % 16 = 15) (j : S1x1x256x2048.Idx) :
    (outsAt0 m c t.val t.isLt).1 j = out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 j := by
  rw [outsAt0_D m c t h0 h1 h2]

set_option maxHeartbeats 1000000 in
theorem caseProj_D_221 (t : Fin cfg0.N) (h0 : ¬t.val % 128 = 0) (h1 : t.val % 16 = 0) (h2 : ¬t.val % 16 = 15) (j : S16x2048x64.Idx) :
    (outsAt0 m c t.val t.isLt).2.2.1 j = sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 j := by
  rw [outsAt0_D m c t h0 h1 h2]

set_option maxHeartbeats 1000000 in
theorem caseProj_D_2221 (t : Fin cfg0.N) (h0 : ¬t.val % 128 = 0) (h1 : t.val % 16 = 0) (h2 : ¬t.val % 16 = 15) (j : S16x2048x64.Idx) :
    (outsAt0 m c t.val t.isLt).2.2.2.1 j = sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 j := by
  rw [outsAt0_D m c t h0 h1 h2]

set_option maxHeartbeats 1000000 in
theorem caseProj_D_2222 (t : Fin cfg0.N) (h0 : ¬t.val % 128 = 0) (h1 : t.val % 16 = 0) (h2 : ¬t.val % 16 = 15) (j : S256x1024.Idx) :
    (outsAt0 m c t.val t.isLt).2.2.2.2 j = sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 j := by
  rw [outsAt0_D m c t h0 h1 h2]

/-! ## The caches are kept after a batch's first point -/

/-- Before a point that is not a batch's first, the caches hold the point's own batch's keys and values. -/
theorem prevKV (t : Fin cfg0.N) (h0 : ¬t.val % 128 = 0) (prev : Inv m c (pred t)) :
    (∀ (h' : Fin 16) (s : Fin 2048) (d : Fin 64), (outsAt0 m c (t.val - 1) (Nat.lt_of_le_of_lt (Nat.sub_le _ _) t.isLt)).2.2.1 (ix3 h' s d) = key (sX m c) (sWK m c) (sBK m c) (ptB t) s (col h' d)) ∧ (∀ (h' : Fin 16) (s : Fin 2048) (d : Fin 64), (outsAt0 m c (t.val - 1) (Nat.lt_of_le_of_lt (Nat.sub_le _ _) t.isLt)).2.2.2.1 (ix3 h' s d) = value (sX m c) (sWV m c) (sBV m c) (ptB t) s (col h' d)) := by
  have hb : ptB (pred t) = ptB t := Fin.ext (by show (t.val - 1) / 128 = t.val / 128; omega)
  exact ⟨fun h' s d => (prev.keys h' s d).trans (by rw [hb]), fun h' s d => (prev.vals h' s d).trans (by rw [hb])⟩

/-! ## A head between the first and the last -/

set_option maxHeartbeats 1000000 in
theorem keys_B (t : Fin cfg0.N) (h0 : ¬t.val % 128 = 0) (h1 : ¬t.val % 16 = 0) (h2 : ¬t.val % 16 = 15) (prev : Inv m c (pred t)) (h' : Fin 16) (s : Fin 2048) (d : Fin 64) :
    (outsAt0 m c t.val t.isLt).2.2.1 (ix3 h' s d) = key (sX m c) (sWK m c) (sBK m c) (ptB t) s (col h' d) :=
  (caseProj_B_221 m c t h0 h1 h2 (ix3 h' s d)).trans ((prevKV m c t h0 prev).1 h' s d)

set_option maxHeartbeats 1000000 in
theorem vals_B (t : Fin cfg0.N) (h0 : ¬t.val % 128 = 0) (h1 : ¬t.val % 16 = 0) (h2 : ¬t.val % 16 = 15) (prev : Inv m c (pred t)) (h' : Fin 16) (s : Fin 2048) (d : Fin 64) :
    (outsAt0 m c t.val t.isLt).2.2.2.1 (ix3 h' s d) = value (sX m c) (sWV m c) (sBV m c) (ptB t) s (col h' d) :=
  (caseProj_B_2221 m c t h0 h1 h2 (ix3 h' s d)).trans ((prevKV m c t h0 prev).2 h' s d)

set_option maxHeartbeats 1000000 in
theorem acc_B (t : Fin cfg0.N) (h0 : ¬t.val % 128 = 0) (h1 : ¬t.val % 16 = 0) (h2 : ¬t.val % 16 = 15) (prev : Inv m c (pred t)) (q : Fin 256) (f : Fin 1024) :
    (outsAt0 m c t.val t.isLt).2.2.2.2 (ix2 q f) = accAfter (sX m c) (sWQ m c) (sBQ m c) (sWK m c) (sBK m c) (sWV m c) (sBV m c) (sWO m c) (ptB t) (ptRow t q) f (t.val % 16) := by
  obtain ⟨hK, hV⟩ := prevKV m c t h0 prev
  have hb : ptB (pred t) = ptB t := Fin.ext (by show (t.val - 1) / 128 = t.val / 128; omega)
  have hr : ∀ q, ptRow (pred t) q = ptRow t q := fun q => Fin.ext (by
    show 256 * (((t.val - 1) / 16) % 8) + q.val = 256 * ((t.val / 16) % 8) + q.val
    have : (t.val - 1) / 16 = t.val / 16 := by omega
    rw [this])
  refine (caseProj_B_2222 m c t h0 h1 h2 (ix2 q f)).trans
    ((congrFun (Pieces.acc_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 q f)).trans ?_)
  rw [point_acc (sX m c) (sWQ m c) (sBQ m c) (sWK m c) (sBK m c) (sWV m c) (sBV m c) (sWO m c) (grid0.coords t) (ptB t) (ptH t) ((t.val / 16) % 8) (coords12 t).1 (coords12 t).2
      (ptRow t) (fun q => rfl) (iblk m c 0 t) (iblk m c 5 t) (iblk m c 6 t) (outsAt0 m c (t.val - 1) (Nat.lt_of_le_of_lt (Nat.sub_le _ _) t.isLt)).2.2.1
      (bx m c t) (bwq m c t) (bbq m c t) hK
    (outsAt0 m c (t.val - 1) (Nat.lt_of_le_of_lt (Nat.sub_le _ _) t.isLt)).2.2.2.1 hV (iblk m c 7 t) (bwo m c t) (outsAt0 m c (t.val - 1) (Nat.lt_of_le_of_lt (Nat.sub_le _ _) t.isLt)).2.2.2.2 q f, prev.acc q f, hb, hr]
  exact (accAfter_succ (sX m c) (sWQ m c) (sBQ m c) (sWK m c) (sBK m c) (sWV m c) (sBV m c) (sWO m c) (ptB t) (ptRow t q) f (ptH t) ((t.val - 1) % 16) (by show (t.val - 1) % 16 + 1 = t.val % 16; omega)).symm

set_option maxHeartbeats 1000000 in
theorem wts_B (t : Fin cfg0.N) (h0 : ¬t.val % 128 = 0) (h1 : ¬t.val % 16 = 0) (h2 : ¬t.val % 16 = 15) (prev : Inv m c (pred t)) (q : Fin 256) (k : Fin 2048) :
    (outsAt0 m c t.val t.isLt).1 (ix4 (0 : Fin 1) (0 : Fin 1) q k) = weight (sX m c) (sWQ m c) (sBQ m c) (sWK m c) (sBK m c) (ptB t) (ptH t) (ptRow t q) k := by
  obtain ⟨hK, hV⟩ := prevKV m c t h0 prev
  refine (caseProj_B_1 m c t h0 h1 h2 (ix4 (0 : Fin 1) (0 : Fin 1) q k)).trans
    ((congrFun (Pieces.out_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix4 (0 : Fin 1) (0 : Fin 1) q k)).trans ?_)
  exact point_weights (sX m c) (sWQ m c) (sBQ m c) (sWK m c) (sBK m c) (sWV m c) (sBV m c) (sWO m c) (grid0.coords t) (ptB t) (ptH t) ((t.val / 16) % 8) (coords12 t).1 (coords12 t).2
      (ptRow t) (fun q => rfl) (iblk m c 0 t) (iblk m c 5 t) (iblk m c 6 t) (outsAt0 m c (t.val - 1) (Nat.lt_of_le_of_lt (Nat.sub_le _ _) t.isLt)).2.2.1
      (bx m c t) (bwq m c t) (bbq m c t) hK (0 : Fin 1) (0 : Fin 1) q k

/-! ## The last head -/

set_option maxHeartbeats 1000000 in
theorem keys_C (t : Fin cfg0.N) (h0 : ¬t.val % 128 = 0) (h1 : ¬t.val % 16 = 0) (h2 : t.val % 16 = 15) (prev : Inv m c (pred t)) (h' : Fin 16) (s : Fin 2048) (d : Fin 64) :
    (outsAt0 m c t.val t.isLt).2.2.1 (ix3 h' s d) = key (sX m c) (sWK m c) (sBK m c) (ptB t) s (col h' d) :=
  (caseProj_C_221 m c t h0 h1 h2 (ix3 h' s d)).trans ((prevKV m c t h0 prev).1 h' s d)

set_option maxHeartbeats 1000000 in
theorem vals_C (t : Fin cfg0.N) (h0 : ¬t.val % 128 = 0) (h1 : ¬t.val % 16 = 0) (h2 : t.val % 16 = 15) (prev : Inv m c (pred t)) (h' : Fin 16) (s : Fin 2048) (d : Fin 64) :
    (outsAt0 m c t.val t.isLt).2.2.2.1 (ix3 h' s d) = value (sX m c) (sWV m c) (sBV m c) (ptB t) s (col h' d) :=
  (caseProj_C_2221 m c t h0 h1 h2 (ix3 h' s d)).trans ((prevKV m c t h0 prev).2 h' s d)

set_option maxHeartbeats 1000000 in
theorem acc_C (t : Fin cfg0.N) (h0 : ¬t.val % 128 = 0) (h1 : ¬t.val % 16 = 0) (h2 : t.val % 16 = 15) (prev : Inv m c (pred t)) (q : Fin 256) (f : Fin 1024) :
    (outsAt0 m c t.val t.isLt).2.2.2.2 (ix2 q f) = accAfter (sX m c) (sWQ m c) (sBQ m c) (sWK m c) (sBK m c) (sWV m c) (sBV m c) (sWO m c) (ptB t) (ptRow t q) f (t.val % 16) := by
  obtain ⟨hK, hV⟩ := prevKV m c t h0 prev
  have hb : ptB (pred t) = ptB t := Fin.ext (by show (t.val - 1) / 128 = t.val / 128; omega)
  have hr : ∀ q, ptRow (pred t) q = ptRow t q := fun q => Fin.ext (by
    show 256 * (((t.val - 1) / 16) % 8) + q.val = 256 * ((t.val / 16) % 8) + q.val
    have : (t.val - 1) / 16 = t.val / 16 := by omega
    rw [this])
  refine (caseProj_C_2222 m c t h0 h1 h2 (ix2 q f)).trans
    ((congrFun (Pieces.acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 q f)).trans ?_)
  rw [point_acc (sX m c) (sWQ m c) (sBQ m c) (sWK m c) (sBK m c) (sWV m c) (sBV m c) (sWO m c) (grid0.coords t) (ptB t) (ptH t) ((t.val / 16) % 8) (coords12 t).1 (coords12 t).2
      (ptRow t) (fun q => rfl) (iblk m c 0 t) (iblk m c 5 t) (iblk m c 6 t) (outsAt0 m c (t.val - 1) (Nat.lt_of_le_of_lt (Nat.sub_le _ _) t.isLt)).2.2.1
      (bx m c t) (bwq m c t) (bbq m c t) hK
    (outsAt0 m c (t.val - 1) (Nat.lt_of_le_of_lt (Nat.sub_le _ _) t.isLt)).2.2.2.1 hV (iblk m c 7 t) (bwo m c t) (outsAt0 m c (t.val - 1) (Nat.lt_of_le_of_lt (Nat.sub_le _ _) t.isLt)).2.2.2.2 q f, prev.acc q f, hb, hr]
  exact (accAfter_succ (sX m c) (sWQ m c) (sBQ m c) (sWK m c) (sBK m c) (sWV m c) (sBV m c) (sWO m c) (ptB t) (ptRow t q) f (ptH t) ((t.val - 1) % 16) (by show (t.val - 1) % 16 + 1 = t.val % 16; omega)).symm

set_option maxHeartbeats 1000000 in
theorem wts_C (t : Fin cfg0.N) (h0 : ¬t.val % 128 = 0) (h1 : ¬t.val % 16 = 0) (h2 : t.val % 16 = 15) (prev : Inv m c (pred t)) (q : Fin 256) (k : Fin 2048) :
    (outsAt0 m c t.val t.isLt).1 (ix4 (0 : Fin 1) (0 : Fin 1) q k) = weight (sX m c) (sWQ m c) (sBQ m c) (sWK m c) (sBK m c) (ptB t) (ptH t) (ptRow t q) k := by
  obtain ⟨hK, hV⟩ := prevKV m c t h0 prev
  refine (caseProj_C_1 m c t h0 h1 h2 (ix4 (0 : Fin 1) (0 : Fin 1) q k)).trans
    ((congrFun (Pieces.out_C_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix4 (0 : Fin 1) (0 : Fin 1) q k)).trans ?_)
  exact point_weights (sX m c) (sWQ m c) (sBQ m c) (sWK m c) (sBK m c) (sWV m c) (sBV m c) (sWO m c) (grid0.coords t) (ptB t) (ptH t) ((t.val / 16) % 8) (coords12 t).1 (coords12 t).2
      (ptRow t) (fun q => rfl) (iblk m c 0 t) (iblk m c 5 t) (iblk m c 6 t) (outsAt0 m c (t.val - 1) (Nat.lt_of_le_of_lt (Nat.sub_le _ _) t.isLt)).2.2.1
      (bx m c t) (bwq m c t) (bbq m c t) hK (0 : Fin 1) (0 : Fin 1) q k

set_option maxHeartbeats 1000000 in
theorem out_C (t : Fin cfg0.N) (h0 : ¬t.val % 128 = 0) (h1 : ¬t.val % 16 = 0) (h2 : t.val % 16 = 15) (prev : Inv m c (pred t)) (q : Fin 256) (f : Fin 1024) :
    (outsAt0 m c t.val t.isLt).2.1 (ix3 (0 : Fin 1) q f) = output (sX m c) (sWQ m c) (sBQ m c) (sWK m c) (sBK m c) (sWV m c) (sBV m c) (sWO m c) (sBO m c) (ptB t) (ptRow t q) f := by
  obtain ⟨hK, hV⟩ := prevKV m c t h0 prev
  have hb : ptB (pred t) = ptB t := Fin.ext (by show (t.val - 1) / 128 = t.val / 128; omega)
  have hr : ∀ q, ptRow (pred t) q = ptRow t q := fun q => Fin.ext (by
    show 256 * (((t.val - 1) / 16) % 8) + q.val = 256 * ((t.val / 16) % 8) + q.val
    have : (t.val - 1) / 16 = t.val / 16 := by omega
    rw [this])
  refine (caseProj_C_21 m c t h0 h1 h2 (ix3 (0 : Fin 1) q f)).trans
    ((congrFun (Pieces.out_C_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix3 (0 : Fin 1) q f)).trans ?_)
  rw [point_out _ (iblk m c 8 t) (sBO m c) (bbo m c t) (0 : Fin 1) q f,
    point_acc (sX m c) (sWQ m c) (sBQ m c) (sWK m c) (sBK m c) (sWV m c) (sBV m c) (sWO m c) (grid0.coords t) (ptB t) (ptH t) ((t.val / 16) % 8) (coords12 t).1 (coords12 t).2
      (ptRow t) (fun q => rfl) (iblk m c 0 t) (iblk m c 5 t) (iblk m c 6 t) (outsAt0 m c (t.val - 1) (Nat.lt_of_le_of_lt (Nat.sub_le _ _) t.isLt)).2.2.1
      (bx m c t) (bwq m c t) (bbq m c t) hK
    (outsAt0 m c (t.val - 1) (Nat.lt_of_le_of_lt (Nat.sub_le _ _) t.isLt)).2.2.2.1 hV (iblk m c 7 t) (bwo m c t) (outsAt0 m c (t.val - 1) (Nat.lt_of_le_of_lt (Nat.sub_le _ _) t.isLt)).2.2.2.2 q f, prev.acc q f, hb, hr,
    ← accAfter_succ (sX m c) (sWQ m c) (sBQ m c) (sWK m c) (sBK m c) (sWV m c) (sBV m c) (sWO m c) (ptB t) (ptRow t q) f (ptH t) ((t.val - 1) % 16) (by show (t.val - 1) % 16 + 1 = t.val % 16; omega)]
  show accAfter (sX m c) (sWQ m c) (sBQ m c) (sWK m c) (sBK m c) (sWV m c) (sBV m c) (sWO m c) (ptB t) (ptRow t q) f (t.val % 16) + _ = _
  rw [h2]
  exact output_eq_accAfter (sX m c) (sWQ m c) (sBQ m c) (sWK m c) (sBK m c) (sWV m c) (sBV m c) (sWO m c) (sBO m c) (ptB t) (ptRow t q) f

/-! ## Head 0 of a later row block -/

set_option maxHeartbeats 1000000 in
theorem keys_D (t : Fin cfg0.N) (h0 : ¬t.val % 128 = 0) (h1 : t.val % 16 = 0) (h2 : ¬t.val % 16 = 15) (prev : Inv m c (pred t)) (h' : Fin 16) (s : Fin 2048) (d : Fin 64) :
    (outsAt0 m c t.val t.isLt).2.2.1 (ix3 h' s d) = key (sX m c) (sWK m c) (sBK m c) (ptB t) s (col h' d) :=
  (caseProj_D_221 m c t h0 h1 h2 (ix3 h' s d)).trans ((prevKV m c t h0 prev).1 h' s d)

set_option maxHeartbeats 1000000 in
theorem vals_D (t : Fin cfg0.N) (h0 : ¬t.val % 128 = 0) (h1 : t.val % 16 = 0) (h2 : ¬t.val % 16 = 15) (prev : Inv m c (pred t)) (h' : Fin 16) (s : Fin 2048) (d : Fin 64) :
    (outsAt0 m c t.val t.isLt).2.2.2.1 (ix3 h' s d) = value (sX m c) (sWV m c) (sBV m c) (ptB t) s (col h' d) :=
  (caseProj_D_2221 m c t h0 h1 h2 (ix3 h' s d)).trans ((prevKV m c t h0 prev).2 h' s d)

set_option maxHeartbeats 1000000 in
theorem acc_D (t : Fin cfg0.N) (h0 : ¬t.val % 128 = 0) (h1 : t.val % 16 = 0) (h2 : ¬t.val % 16 = 15) (prev : Inv m c (pred t)) (q : Fin 256) (f : Fin 1024) :
    (outsAt0 m c t.val t.isLt).2.2.2.2 (ix2 q f) = accAfter (sX m c) (sWQ m c) (sBQ m c) (sWK m c) (sBK m c) (sWV m c) (sBV m c) (sWO m c) (ptB t) (ptRow t q) f (t.val % 16) := by
  obtain ⟨hK, hV⟩ := prevKV m c t h0 prev
  have hh : ptH t = (0 : Fin 16) := Fin.ext h1
  refine (caseProj_D_2222 m c t h0 h1 h2 (ix2 q f)).trans
    ((congrFun (Pieces.acc_D (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1) (ix2 q f)).trans ?_)
  rw [point_acc (sX m c) (sWQ m c) (sBQ m c) (sWK m c) (sBK m c) (sWV m c) (sBV m c) (sWO m c) (grid0.coords t) (ptB t) (ptH t) ((t.val / 16) % 8) (coords12 t).1 (coords12 t).2
      (ptRow t) (fun q => rfl) (iblk m c 0 t) (iblk m c 5 t) (iblk m c 6 t) (outsAt0 m c (t.val - 1) (Nat.lt_of_le_of_lt (Nat.sub_le _ _) t.isLt)).2.2.1
      (bx m c t) (bwq m c t) (bbq m c t) hK
    (outsAt0 m c (t.val - 1) (Nat.lt_of_le_of_lt (Nat.sub_le _ _) t.isLt)).2.2.2.1 hV (iblk m c 7 t) (bwo m c t) (k0_pay42 (F := Ideal)) q f, pay42_apply, h1, hh]
  exact (accAfter_zero (sX m c) (sWQ m c) (sBQ m c) (sWK m c) (sBK m c) (sWV m c) (sBV m c) (sWO m c) (ptB t) (ptRow t q) f).symm

set_option maxHeartbeats 1000000 in
theorem wts_D (t : Fin cfg0.N) (h0 : ¬t.val % 128 = 0) (h1 : t.val % 16 = 0) (h2 : ¬t.val % 16 = 15) (prev : Inv m c (pred t)) (q : Fin 256) (k : Fin 2048) :
    (outsAt0 m c t.val t.isLt).1 (ix4 (0 : Fin 1) (0 : Fin 1) q k) = weight (sX m c) (sWQ m c) (sBQ m c) (sWK m c) (sBK m c) (ptB t) (ptH t) (ptRow t q) k := by
  obtain ⟨hK, hV⟩ := prevKV m c t h0 prev
  refine (caseProj_D_1 m c t h0 h1 h2 (ix4 (0 : Fin 1) (0 : Fin 1) q k)).trans
    ((congrFun (Pieces.out_D_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1) (ix4 (0 : Fin 1) (0 : Fin 1) q k)).trans ?_)
  exact point_weights (sX m c) (sWQ m c) (sBQ m c) (sWK m c) (sBK m c) (sWV m c) (sBV m c) (sWO m c) (grid0.coords t) (ptB t) (ptH t) ((t.val / 16) % 8) (coords12 t).1 (coords12 t).2
      (ptRow t) (fun q => rfl) (iblk m c 0 t) (iblk m c 5 t) (iblk m c 6 t) (outsAt0 m c (t.val - 1) (Nat.lt_of_le_of_lt (Nat.sub_le _ _) t.isLt)).2.2.1
      (bx m c t) (bwq m c t) (bbq m c t) hK (0 : Fin 1) (0 : Fin 1) q k

theorem step_B (t : Fin cfg0.N) (h0 : ¬t.val % 128 = 0) (h1 : ¬t.val % 16 = 0) (h2 : ¬t.val % 16 = 15) (prev : Inv m c (pred t)) : Inv m c t :=
  ⟨keys_B m c t h0 h1 h2 prev, vals_B m c t h0 h1 h2 prev, acc_B m c t h0 h1 h2 prev, wts_B m c t h0 h1 h2 prev, fun h15 => absurd h15 h2⟩

theorem step_C (t : Fin cfg0.N) (h0 : ¬t.val % 128 = 0) (h1 : ¬t.val % 16 = 0) (h2 : t.val % 16 = 15) (prev : Inv m c (pred t)) : Inv m c t :=
  ⟨keys_C m c t h0 h1 h2 prev, vals_C m c t h0 h1 h2 prev, acc_C m c t h0 h1 h2 prev, wts_C m c t h0 h1 h2 prev, fun _ => out_C m c t h0 h1 h2 prev⟩

theorem step_D (t : Fin cfg0.N) (h0 : ¬t.val % 128 = 0) (h1 : t.val % 16 = 0) (h2 : ¬t.val % 16 = 15) (prev : Inv m c (pred t)) : Inv m c t :=
  ⟨keys_D m c t h0 h1 h2 prev, vals_D m c t h0 h1 h2 prev, acc_D m c t h0 h1 h2 prev, wts_D m c t h0 h1 h2 prev, fun h15 => absurd h15 h2⟩

/-! ## The first point of a batch -/

set_option maxHeartbeats 1000000 in
theorem keys_A (t : Fin cfg0.N) (h0 : t.val % 128 = 0) (h1 : t.val % 16 = 0) (h2 : ¬t.val % 16 = 15) (h' : Fin 16) (s : Fin 2048) (d : Fin 64) :
    (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t)) (ix3 h' s d) = key (sX m c) (sWK m c) (sBK m c) (ptB t) s (col h' d) :=
  (CacheA.keys_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) h' s d).trans
    (point_key (sX m c) (sWQ m c) (sBQ m c) (sWK m c) (sBK m c) (sWV m c) (sBV m c) (sWO m c) (ptB t) (iblk m c 0 t) (iblk m c 1 t) (iblk m c 3 t) (bx m c t) (bwk m c t) (bbk m c t) s (col h' d))

set_option maxHeartbeats 1000000 in
theorem vals_A (t : Fin cfg0.N) (h0 : t.val % 128 = 0) (h1 : t.val % 16 = 0) (h2 : ¬t.val % 16 = 15) (h' : Fin 16) (s : Fin 2048) (d : Fin 64) :
    (sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t)) (ix3 h' s d) = value (sX m c) (sWV m c) (sBV m c) (ptB t) s (col h' d) :=
  (CacheA.values_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) h' s d).trans
    (point_value (sX m c) (sWQ m c) (sBQ m c) (sWK m c) (sBK m c) (sWV m c) (sBV m c) (sWO m c) (ptB t) (iblk m c 0 t) (iblk m c 2 t) (iblk m c 4 t) (bx m c t) (bwv m c t) (bbv m c t) s (col h' d))

set_option maxHeartbeats 1000000 in
theorem acc_A (t : Fin cfg0.N) (h0 : t.val % 128 = 0) (h1 : t.val % 16 = 0) (h2 : ¬t.val % 16 = 15) (q : Fin 256) (f : Fin 1024) :
    (outsAt0 m c t.val t.isLt).2.2.2.2 (ix2 q f) = accAfter (sX m c) (sWQ m c) (sBQ m c) (sWK m c) (sBK m c) (sWV m c) (sBV m c) (sWO m c) (ptB t) (ptRow t q) f (t.val % 16) := by
  have hh : ptH t = (0 : Fin 16) := Fin.ext h1
  refine (caseProj_A_2222 m c t h0 h1 h2 (ix2 q f)).trans
    ((congrFun (Pieces.acc_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t)) (ix2 q f)).trans ?_)
  rw [point_acc (sX m c) (sWQ m c) (sBQ m c) (sWK m c) (sBK m c) (sWV m c) (sBV m c) (sWO m c) (grid0.coords t) (ptB t) (ptH t) ((t.val / 16) % 8) (coords12 t).1 (coords12 t).2
      (ptRow t) (fun q => rfl) (iblk m c 0 t) (iblk m c 5 t) (iblk m c 6 t) (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t))
      (bx m c t) (bwq m c t) (bbq m c t) (keys_A m c t h0 h1 h2)
    (sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t)) (vals_A m c t h0 h1 h2) (iblk m c 7 t) (bwo m c t) (k0_pay42 (F := Ideal)) q f, pay42_apply, h1, hh]
  exact (accAfter_zero (sX m c) (sWQ m c) (sBQ m c) (sWK m c) (sBK m c) (sWV m c) (sBV m c) (sWO m c) (ptB t) (ptRow t q) f).symm

set_option maxHeartbeats 1000000 in
theorem wts_A (t : Fin cfg0.N) (h0 : t.val % 128 = 0) (h1 : t.val % 16 = 0) (h2 : ¬t.val % 16 = 15) (q : Fin 256) (k : Fin 2048) :
    (outsAt0 m c t.val t.isLt).1 (ix4 (0 : Fin 1) (0 : Fin 1) q k) = weight (sX m c) (sWQ m c) (sBQ m c) (sWK m c) (sBK m c) (ptB t) (ptH t) (ptRow t q) k := by
  refine (caseProj_A_1 m c t h0 h1 h2 (ix4 (0 : Fin 1) (0 : Fin 1) q k)).trans
    ((congrFun (Pieces.out_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t)) (ix4 (0 : Fin 1) (0 : Fin 1) q k)).trans ?_)
  exact point_weights (sX m c) (sWQ m c) (sBQ m c) (sWK m c) (sBK m c) (sWV m c) (sBV m c) (sWO m c) (grid0.coords t) (ptB t) (ptH t) ((t.val / 16) % 8) (coords12 t).1 (coords12 t).2
      (ptRow t) (fun q => rfl) (iblk m c 0 t) (iblk m c 5 t) (iblk m c 6 t) (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t))
      (bx m c t) (bwq m c t) (bbq m c t) (keys_A m c t h0 h1 h2) (0 : Fin 1) (0 : Fin 1) q k

set_option maxHeartbeats 1000000 in
theorem keysAt_A (t : Fin cfg0.N) (h0 : t.val % 128 = 0) (h1 : t.val % 16 = 0) (h2 : ¬t.val % 16 = 15) (h' : Fin 16) (s : Fin 2048) (d : Fin 64) :
    (outsAt0 m c t.val t.isLt).2.2.1 (ix3 h' s d) = key (sX m c) (sWK m c) (sBK m c) (ptB t) s (col h' d) :=
  (caseProj_A_221 m c t h0 h1 h2 (ix3 h' s d)).trans (keys_A m c t h0 h1 h2 h' s d)

set_option maxHeartbeats 1000000 in
theorem valsAt_A (t : Fin cfg0.N) (h0 : t.val % 128 = 0) (h1 : t.val % 16 = 0) (h2 : ¬t.val % 16 = 15) (h' : Fin 16) (s : Fin 2048) (d : Fin 64) :
    (outsAt0 m c t.val t.isLt).2.2.2.1 (ix3 h' s d) = value (sX m c) (sWV m c) (sBV m c) (ptB t) s (col h' d) :=
  (caseProj_A_2221 m c t h0 h1 h2 (ix3 h' s d)).trans (vals_A m c t h0 h1 h2 h' s d)

theorem step_A (t : Fin cfg0.N) (h0 : t.val % 128 = 0) (h1 : t.val % 16 = 0) (h2 : ¬t.val % 16 = 15) : Inv m c t :=
  ⟨keysAt_A m c t h0 h1 h2, valsAt_A m c t h0 h1 h2, acc_A m c t h0 h1 h2, wts_A m c t h0 h1 h2, fun h15 => absurd h15 h2⟩

/-! ## Every point -/

theorem inv : ∀ (n : ℕ) (hn : n < cfg0.N), Inv m c ⟨n, hn⟩
  | 0, hn => step_A m c ⟨0, hn⟩ rfl rfl (fun h => absurd (show (0 : ℕ) % 16 = 15 from h) (by decide))
  | n + 1, hn => by
    have hN : n + 1 < 256 := lt_of_lt_of_eq hn N_0
    have prev : Inv m c (pred ⟨n + 1, hn⟩) := inv n (Nat.lt_of_succ_lt hn)
    by_cases h0 : (n + 1) % 128 = 0 <;> by_cases h1 : (n + 1) % 16 = 0 <;> by_cases h2 : (n + 1) % 16 = 15
    all_goals first
      | (exfalso; omega)
      | exact step_A m c ⟨n + 1, hn⟩ h0 h1 h2
      | exact step_B m c ⟨n + 1, hn⟩ h0 h1 h2 prev
      | exact step_C m c ⟨n + 1, hn⟩ h0 h1 h2 prev
      | exact step_D m c ⟨n + 1, hn⟩ h0 h1 h2 prev

end Cert.KernelIdeal.GridInvariant

end
-- ==== Proof.KernelRun.lean ====
/-
  The kernel's run: its two result arrays are the specification's.

  The array of softmax weights is written back block by block at every grid point, point `(b, s, h)` writing rows
  `256 s … 256 s + 255` of head `h` of batch `b`; the result array is written back after each row block's last head.
  After every point the block about to be written back is the specification's at those coordinates, the blocks cover
  both arrays, and so each array ends as one function of the arguments: the specification's softmax weights and its
  result.
-/
import proofs.«173047_j62036507623685_2_alg».proof.Proof.GridInvariant
import proofs.«173047_j62036507623685_2_alg».proof.Proof.Gen.KernelIdeal.Value

set_option maxRecDepth 16384

noncomputable section

namespace Cert.KernelIdeal.KernelRun

open Cert.KernelIdeal Cert.KernelIdeal.Gen Cert.KernelIdeal.BlockReads Cert.KernelIdeal.GridInvariant Cert.AttnSpec
open Idealize.ShloMosaic Idealize.ShloMosaic.ValueIdx Idealize.ShloMosaic.TcCoe Idealize.SL.Sem

section
variable (m : (ℓ : Loc nD τ sig) → Buf (Elt Ideal) ℓ) (c : Dev nD)

/-- The specification's softmax weights of this memory's arguments. -/
abbrev specWeights : S2x16x2048x2048.Idx → EReal := weightsArr (m ((c : Thread nD τ).loc main_arg0)) (m ((c : Thread nD τ).loc main_arg3)) (m ((c : Thread nD τ).loc main_arg4))
/-- The specification's result of this memory's arguments. -/
abbrev specOutput : S2x2048x1024.Idx → EReal :=
  outputArr (m ((c : Thread nD τ).loc main_arg0)) (m ((c : Thread nD τ).loc main_arg3)) (m ((c : Thread nD τ).loc main_arg4)) (m ((c : Thread nD τ).loc main_arg5)) (m ((c : Thread nD τ).loc main_arg6))

/-- Every point writes back the specification's block of softmax weights. -/
theorem flushed9_eq (t : Fin cfg0.N) :
    (dats m 0 c).flushed 9 t = ((cfg0.win 9).blk t).view.read (Elt Ideal) (specWeights m c) := by
  rw [Value.flushed9]
  exact cut9_eq (specWeights m c) t _ (fun q k => (inv m c t.val t.isLt).wts q k)

theorem weights_final : (dats m 0 c).arrAt 9 cfg0.N = specWeights m c :=
  final9 m c (specWeights m c) (fun t _ => flushed9_eq m c t)

/-- After a row block's last head the point writes back the specification's block of the result. -/
theorem flushed10_eq (t : Fin cfg0.N) (hf : (cfg0.win 10).flush t = true) :
    (dats m 0 c).flushed 10 t = ((cfg0.win 10).blk t).view.read (Elt Ideal) (specOutput m c) := by
  rw [Value.flushed10]
  exact cut10_eq (specOutput m c) t _ (fun q f => (inv m c t.val t.isLt).out ((flush0_10 t).mp hf) q f)

theorem output_final : (dats m 0 c).arrAt 10 cfg0.N = specOutput m c :=
  final10 m c (specOutput m c) (flushed10_eq m c)

end

/-- Every weakly fair execution of the kernel's program ends with the two result arrays at the specification's
    functions of the arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v13_0) = Cert.AttnSpec.weightsArr (m ((c : Thread nD τ).loc main_arg0)) (m ((c : Thread nD τ).loc main_arg3)) (m ((c : Thread nD τ).loc main_arg4))
      ∧ r.2.mem ((c : Thread nD τ).loc main_v13_1) = Cert.AttnSpec.outputArr (m ((c : Thread nD τ).loc main_arg0)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (weights_final m c), (h c).2.1.trans (output_final m c), (h c).2.2⟩)
    (Value.run_blocks m ρ)

end Cert.KernelIdeal.KernelRun

end
-- ==== Proof.lean ====
/-
  The certificate assembled: the three programs run and keep their arguments, and at the ideal instance the kernel and
  the reference, from memories that agree on the arguments, end with the same two results — the attention output and
  the softmax weights of the specification, as functions of the arguments.
-/
import proofs.«173047_j62036507623685_2_alg».proof.Defs
import proofs.«173047_j62036507623685_2_alg».proof.Proof.Gen.Kernel
import proofs.«173047_j62036507623685_2_alg».proof.Proof.Gen.Kernel.Skeleton
import proofs.«173047_j62036507623685_2_alg».proof.Proof.Gen.Kernel.Launch
import proofs.«173047_j62036507623685_2_alg».proof.Proof.Gen.Kernel.Points
import proofs.«173047_j62036507623685_2_alg».proof.Proof.Gen.Kernel.Frame
import proofs.«173047_j62036507623685_2_alg».proof.Proof.Gen.KernelIdeal
import proofs.«173047_j62036507623685_2_alg».proof.Proof.Gen.KernelIdeal.Skeleton
import proofs.«173047_j62036507623685_2_alg».proof.Proof.Gen.KernelIdeal.Launch
import proofs.«173047_j62036507623685_2_alg».proof.Proof.Gen.KernelIdeal.Points
import proofs.«173047_j62036507623685_2_alg».proof.Proof.Gen.KernelIdeal.Frame
import proofs.«173047_j62036507623685_2_alg».proof.Proof.Gen.ReferenceIdeal
import proofs.«173047_j62036507623685_2_alg».proof.Proof.Gen.Pre_finite_inputs
import proofs.«173047_j62036507623685_2_alg».proof.Proof.Gen.KernelIdeal.Value
import proofs.«173047_j62036507623685_2_alg».proof.Proof.Gen.ReferenceIdeal.Run
import proofs.«173047_j62036507623685_2_alg».proof.Proof.Gen.ReferenceIdeal.Read
import proofs.«173047_j62036507623685_2_alg».proof.Proof.RefIsSpec
import proofs.«173047_j62036507623685_2_alg».proof.Proof.AttnSpec
import proofs.«173047_j62036507623685_2_alg».proof.Proof.KernelRun
import Idealize.ShloMosaic.Adequacy
import Idealize.ShloMosaic.Init

noncomputable section

/-! ## The claims -/

namespace Cert.Proof

open Idealize.ShloMosaic Idealize.ShloMosaic.TcCoe Idealize.SL.Sem

/-- The printed kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- At the ideal instance both programs end with the specification's output and softmax weights of the arguments: the
    kernel by its run, the reference by its run read operation by operation, the two memories agreeing on the
    arguments. -/
theorem algebraic : Cert.algebraic_KernelIdeal_ReferenceIdeal := by
  intro m ρ m' ρ' _ hagree
  refine ⟨fun c => Cert.AttnSpec.outputArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => Cert.AttnSpec.weightsArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    (θ_run Cert.KernelIdeal.defs _ _).mono (fun _ h c => ⟨(h c).2.1, (h c).1, (h c).2.2⟩) (Cert.KernelIdeal.KernelRun.run m ρ), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v33_eq, Cert.ReferenceIdeal.RefIsSpec.output_eq,
      (hagree c).1, (hagree c).2.2.2.1, (hagree c).2.2.2.2.1, (hagree c).2.2.2.2.2.1, (hagree c).2.2.2.2.2.2]
  · rw [Cert.ReferenceIdeal.Read.val_main_v26_eq, Cert.ReferenceIdeal.RefIsSpec.weights_eq,
      (hagree c).1, (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
